-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v85)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v85) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v167) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x78 : Shape := ⟨2, ![100000, 78]⟩
abbrev S2x400000 : Shape := ⟨2, ![2, 400000]⟩
abbrev S100000 : Shape := ⟨1, ![100000]⟩
abbrev S4096x128 : Shape := ⟨2, ![4096, 128]⟩
abbrev S78x78 : Shape := ⟨2, ![78, 78]⟩
abbrev S78 : Shape := ⟨1, ![78]⟩
abbrev S78x156 : Shape := ⟨2, ![78, 156]⟩
abbrev S156 : Shape := ⟨1, ![156]⟩
abbrev S156x312 : Shape := ⟨2, ![156, 312]⟩
abbrev S312 : Shape := ⟨1, ![312]⟩
abbrev S312x1024 : Shape := ⟨2, ![312, 1024]⟩
abbrev S1024 : Shape := ⟨1, ![1024]⟩
abbrev S1024x128 : Shape := ⟨2, ![1024, 128]⟩
abbrev S128 : Shape := ⟨1, ![128]⟩
abbrev S128x312 : Shape := ⟨2, ![128, 312]⟩
abbrev S624x1 : Shape := ⟨2, ![624, 1]⟩
abbrev S1 : Shape := ⟨1, ![1]⟩
abbrev S_ : Shape := ⟨0, ![]⟩

class Facts : Prop where
  bcast_S_S100000x78 : S_.BroadcastsInDim S100000x78 (![] : Fin 0 → Fin S100000x78.rank)
  reducesTo_S100000x78_S_d0_1 : S100000x78.ReducesTo [0, 1] S_
  h_S_ : 0 < S_.numel
  bcast_S_S4096x128 : S_.BroadcastsInDim S4096x128 (![] : Fin 0 → Fin S4096x128.rank)
  reducesTo_S4096x128_S_d0_1 : S4096x128.ReducesTo [0, 1] S_
  bcast_S_S78x78 : S_.BroadcastsInDim S78x78 (![] : Fin 0 → Fin S78x78.rank)
  reducesTo_S78x78_S_d0_1 : S78x78.ReducesTo [0, 1] S_
  bcast_S_S78 : S_.BroadcastsInDim S78 (![] : Fin 0 → Fin S78.rank)
  reducesTo_S78_S_d0 : S78.ReducesTo [0] S_
  bcast_S_S78x156 : S_.BroadcastsInDim S78x156 (![] : Fin 0 → Fin S78x156.rank)
  reducesTo_S78x156_S_d0_1 : S78x156.ReducesTo [0, 1] S_
  bcast_S_S156 : S_.BroadcastsInDim S156 (![] : Fin 0 → Fin S156.rank)
  reducesTo_S156_S_d0 : S156.ReducesTo [0] S_
  bcast_S_S156x312 : S_.BroadcastsInDim S156x312 (![] : Fin 0 → Fin S156x312.rank)
  reducesTo_S156x312_S_d0_1 : S156x312.ReducesTo [0, 1] S_
  bcast_S_S312 : S_.BroadcastsInDim S312 (![] : Fin 0 → Fin S312.rank)
  reducesTo_S312_S_d0 : S312.ReducesTo [0] S_
  bcast_S_S312x1024 : S_.BroadcastsInDim S312x1024 (![] : Fin 0 → Fin S312x1024.rank)
  reducesTo_S312x1024_S_d0_1 : S312x1024.ReducesTo [0, 1] S_
  bcast_S_S1024 : S_.BroadcastsInDim S1024 (![] : Fin 0 → Fin S1024.rank)
  reducesTo_S1024_S_d0 : S1024.ReducesTo [0] S_
  bcast_S_S1024x128 : S_.BroadcastsInDim S1024x128 (![] : Fin 0 → Fin S1024x128.rank)
  reducesTo_S1024x128_S_d0_1 : S1024x128.ReducesTo [0, 1] S_
  bcast_S_S128 : S_.BroadcastsInDim S128 (![] : Fin 0 → Fin S128.rank)
  reducesTo_S128_S_d0 : S128.ReducesTo [0] S_
  bcast_S_S128x312 : S_.BroadcastsInDim S128x312 (![] : Fin 0 → Fin S128x312.rank)
  reducesTo_S128x312_S_d0_1 : S128x312.ReducesTo [0, 1] S_
  bcast_S_S624x1 : S_.BroadcastsInDim S624x1 (![] : Fin 0 → Fin S624x1.rank)
  reducesTo_S624x1_S_d0_1 : S624x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg16 : FVec F S624x1 .f32) (main_arg17 : FVec F S1 .f32) (main_v63 : IVec S_ 1) (main_v67 : IVec S_ 1) : IVec S_ 1 :=
  let main_v68 : IVec S_ 1 := andi main_v63 main_v67
  let main_v69 : FVec F S624x1 .f32 := Host.absf main_arg16
  let main_cst_26 : FVec F S_ .f32 := constant S_ .f32 0x7F800000#32
  let main_v70 : FVec F S624x1 .f32 := broadcastInDim S624x1 ![] bcast_S_S624x1 main_cst_26
  let main_v71 : IVec S624x1 1 := cmpf .olt main_v69 main_v70
  let main_c_27 : IVec S_ 1 := constantI S_ 1 1#1
  let main_v72 : IVec S_ 1 := (fun x v => Host.reduce IntOp.andi x v reducesTo_S624x1_S_d0_1 h_S_) main_v71 main_c_27
  let main_v73 : IVec S_ 1 := andi main_v68 main_v72
  let main_v74 : FVec F S1 .f32 := Host.absf main_arg17
  let main_cst_28 : FVec F S_ .f32 := constant S_ .f32 0x7F800000#32
  let main_v75 : FVec F S1 .f32 := broadcastInDim S1 ![] bcast_S_S1 main_cst_28
  let main_v76 : IVec S1 1 := cmpf .olt main_v74 main_v75
  let main_c_29 : IVec S_ 1 := constantI S_ 1 1#1
  let main_v77 : IVec S_ 1 := (fun x v => Host.reduce IntOp.andi x v reducesTo_S1_S_d0 h_S_) main_v76 main_c_29
  let main_v78 : IVec S_ 1 := andi main_v73 main_v77
  main_v78

def fn_part3 {F : FTy → Type} [FloatOps F] (main_arg13 : FVec F S128 .f32) (main_arg14 : FVec F S128x312 .f32) (main_arg15 : FVec F S312 .f32) (main_arg16 : FVec F S624x1 .f32) (main_arg17 : FVec F S1 .f32) (main_v48 : IVec S_ 1) (main_v49 : FVec F S1024x128 .f32) (main_v50 : FVec F S1024x128 .f32) : IVec S_ 1 :=
  let main_v51 : IVec S1024x128 1 := cmpf .olt main_v49 main_v50
  let main_c_19 : IVec S_ 1 := constantI S_ 1 1#1
  let main_v52 : IVec S_ 1 := (fun x v => Host.reduce IntOp.andi x v reducesTo_S1024x128_S_d0_1 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x312 .f32 := Host.absf main_arg14
  let main_cst_22 : FVec F S_ .f32 := constant S_ .f32 0x7F800000#32
  let main_v60 : FVec F S128x312 .f32 := broadcastInDim S128x312 ![] bcast_S_S128x312 main_cst_22
  let main_v61 : IVec S128x312 1 := cmpf .olt main_v59 main_v60
  let main_c_23 : IVec S_ 1 := constantI S_ 1 1#1
  let main_v62 : IVec S_ 1 := (fun x v => Host.reduce IntOp.andi x v reducesTo_S128x312_S_d0_1 h_S_) main_v61 main_c_23
  let main_v63 : IVec S_ 1 := andi main_v58 main_v62
  let main_v64 : FVec F S312 .f32 := Host.absf main_arg15
  let main_cst_24 : FVec F S_ .f32 := constant S_ .f32 0x7F800000#32
  let main_v65 : FVec F S312 .f32 := broadcastInDim S312 ![] bcast_S_S312 main_cst_24
  let main_v66 : IVec S312 1 := cmpf .olt main_v64 main_v65
  let main_c_25 : IVec S_ 1 := constantI S_ 1 1#1
  let main_v67 : IVec S_ 1 := (fun x v => Host.reduce IntOp.andi x v reducesTo_S312_S_d0 h_S_) main_v66 main_c_25
  fn_part4 (F := F) main_arg16 main_arg17 main_v63 main_v67

def fn_part2 {F : FTy → Type} [FloatOps F] (main_arg9 : FVec F S312 .f32) (main_arg10 : FVec F S312x1024 .f32) (main_arg11 : FVec F S1024 .f32) (main_arg12 : FVec F S1024x128 .f32) (main_arg13 : FVec F S128 .f32) (main_arg14 : FVec F S128x312 .f32) (main_arg15 : FVec F S312 .f32) (main_arg16 : FVec F S624x1 .f32) (main_arg17 : FVec F S1 .f32) (main_v33 : IVec S_ 1) : IVec S_ 1 :=
  let main_v34 : FVec F S312 .f32 := Host.absf main_arg9
  let main_cst_12 : FVec F S_ .f32 := constant S_ .f32 0x7F800000#32
  let main_v35 : FVec F S312 .f32 := broadcastInDim S312 ![] bcast_S_S312 main_cst_12
  let main_v36 : IVec S312 1 := cmpf .olt main_v34 main_v35
  let main_c_13 : IVec S_ 1 := constantI S_ 1 1#1
  let main_v37 : IVec S_ 1 := (fun x v => Host.reduce IntOp.andi x v reducesTo_S312_S_d0 h_S_) main_v36 main_c_13
  let main_v38 : IVec S_ 1 := andi main_v33 main_v37
  let main_v39 : FVec F S312x1024 .f32 := Host.absf main_arg10
  let main_cst_14 : FVec F S_ .f32 := constant S_ .f32 0x7F800000#32
  let main_v40 : FVec F S312x1024 .f32 := broadcastInDim S312x1024 ![] bcast_S_S312x1024 main_cst_14
  let main_v41 : IVec S312x1024 1 := cmpf .olt main_v39 main_v40
  let main_c_15 : IVec S_ 1 := constantI S_ 1 1#1
  let main_v42 : IVec S_ 1 := (fun x v => Host.reduce IntOp.andi x v reducesTo_S312x1024_S_d0_1 h_S_) main_v41 main_c_15
  let main_v43 : IVec S_ 1 := andi main_v38 main_v42
  let main_v44 : FVec F S1024 .f32 := Host.absf main_arg11
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S1024x128 .f32 := Host.absf main_arg12
  let main_cst_18 : FVec F S_ .f32 := constant S_ .f32 0x7F800000#32
  let main_v50 : FVec F S1024x128 .f32 := broadcastInDim S1024x128 ![] bcast_S_S1024x128 main_cst_18
  fn_part3 (F := F) main_arg13 main_arg14 main_arg15 main_arg16 main_arg17 main_v48 main_v49 main_v50

def fn_part1 {F : FTy → Type} [FloatOps F] (main_arg6 : FVec F S78x156 .f32) (main_arg7 : FVec F S156 .f32) (main_arg8 : FVec F S156x312 .f32) (main_arg9 : FVec F S312 .f32) (main_arg10 : FVec F S312x1024 .f32) (main_arg11 : FVec F S1024 .f32) (main_arg12 : FVec F S1024x128 .f32) (main_arg13 : FVec F S128 .f32) (main_arg14 : FVec F S128x312 .f32) (main_arg15 : FVec F S312 .f32) (main_arg16 : FVec F S624x1 .f32) (main_arg17 : FVec F S1 .f32) (main_v13 : IVec S_ 1) (main_v16 : IVec S78 1) : IVec S_ 1 :=
  let main_c_5 : IVec S_ 1 := constantI S_ 1 1#1
  let main_v17 : IVec S_ 1 := (fun x v => Host.reduce IntOp.andi x v reducesTo_S78_S_d0 h_S_) main_v16 main_c_5
  let main_v18 : IVec S_ 1 := andi main_v13 main_v17
  let main_v19 : FVec F S78x156 .f32 := Host.absf main_arg6
  let main_cst_6 : FVec F S_ .f32 := constant S_ .f32 0x7F800000#32
  let main_v20 : FVec F S78x156 .f32 := broadcastInDim S78x156 ![] bcast_S_S78x156 main_cst_6
  let main_v21 : IVec S78x156 1 := cmpf .olt main_v19 main_v20
  let main_c_7 : IVec S_ 1 := constantI S_ 1 1#1
  let main_v22 : IVec S_ 1 := (fun x v => Host.reduce IntOp.andi x v reducesTo_S78x156_S_d0_1 h_S_) main_v21 main_c_7
  let main_v23 : IVec S_ 1 := andi main_v18 main_v22
  let main_v24 : FVec F S156 .f32 := Host.absf main_arg7
  let main_cst_8 : FVec F S_ .f32 := constant S_ .f32 0x7F800000#32
  let main_v25 : FVec F S156 .f32 := broadcastInDim S156 ![] bcast_S_S156 main_cst_8
  let main_v26 : IVec S156 1 := cmpf .olt main_v24 main_v25
  let main_c_9 : IVec S_ 1 := constantI S_ 1 1#1
  let main_v27 : IVec S_ 1 := (fun x v => Host.reduce IntOp.andi x v reducesTo_S156_S_d0 h_S_) main_v26 main_c_9
  let main_v28 : IVec S_ 1 := andi main_v23 main_v27
  let main_v29 : FVec F S156x312 .f32 := Host.absf main_arg8
  let main_cst_10 : FVec F S_ .f32 := constant S_ .f32 0x7F800000#32
  let main_v30 : FVec F S156x312 .f32 := broadcastInDim S156x312 ![] bcast_S_S156x312 main_cst_10
  let main_v31 : IVec S156x312 1 := cmpf .olt main_v29 main_v30
  let main_c_11 : IVec S_ 1 := constantI S_ 1 1#1
  let main_v32 : IVec S_ 1 := (fun x v => Host.reduce IntOp.andi x v reducesTo_S156x312_S_d0_1 h_S_) main_v31 main_c_11
  let main_v33 : IVec S_ 1 := andi main_v28 main_v32
  fn_part2 (F := F) main_arg9 main_arg10 main_arg11 main_arg12 main_arg13 main_arg14 main_arg15 main_arg16 main_arg17 main_v33

def fn {F : FTy → Type} [FloatOps F] (main_arg0 : FVec F S100000x78 .f32) (main_arg1 : IVec S2x400000 32) (main_arg2 : IVec S100000 32) (main_arg3 : FVec F S4096x128 .f32) (main_arg4 : FVec F S78x78 .f32) (main_arg5 : FVec F S78 .f32) (main_arg6 : FVec F S78x156 .f32) (main_arg7 : FVec F S156 .f32) (main_arg8 : FVec F S156x312 .f32) (main_arg9 : FVec F S312 .f32) (main_arg10 : FVec F S312x1024 .f32) (main_arg11 : FVec F S1024 .f32) (main_arg12 : FVec F S1024x128 .f32) (main_arg13 : FVec F S128 .f32) (main_arg14 : FVec F S128x312 .f32) (main_arg15 : FVec F S312 .f32) (main_arg16 : FVec F S624x1 .f32) (main_arg17 : FVec F S1 .f32) : IVec S_ 1 :=
  let main_v0 : FVec F S100000x78 .f32 := Host.absf main_arg0
  let main_cst : FVec F S_ .f32 := constant S_ .f32 0x7F800000#32
  let main_v1 : FVec F S100000x78 .f32 := broadcastInDim S100000x78 ![] bcast_S_S100000x78 main_cst
  let main_v2 : IVec S100000x78 1 := cmpf .olt main_v0 main_v1
  let main_c : IVec S_ 1 := constantI S_ 1 1#1
  let main_v3 : IVec S_ 1 := (fun x v => Host.reduce IntOp.andi x v reducesTo_S100000x78_S_d0_1 h_S_) main_v2 main_c
  let main_v4 : FVec F S4096x128 .f32 := Host.absf main_arg3
  let main_cst_0 : FVec F S_ .f32 := constant S_ .f32 0x7F800000#32
  let main_v5 : FVec F S4096x128 .f32 := broadcastInDim S4096x128 ![] bcast_S_S4096x128 main_cst_0
  let main_v6 : IVec S4096x128 1 := cmpf .olt main_v4 main_v5
  let main_c_1 : IVec S_ 1 := constantI S_ 1 1#1
  let main_v7 : IVec S_ 1 := (fun x v => Host.reduce IntOp.andi x v reducesTo_S4096x128_S_d0_1 h_S_) main_v6 main_c_1
  let main_v8 : IVec S_ 1 := andi main_v3 main_v7
  let main_v9 : FVec F S78x78 .f32 := Host.absf main_arg4
  let main_cst_2 : FVec F S_ .f32 := constant S_ .f32 0x7F800000#32
  let main_v10 : FVec F S78x78 .f32 := broadcastInDim S78x78 ![] bcast_S_S78x78 main_cst_2
  let main_v11 : IVec S78x78 1 := cmpf .olt main_v9 main_v10
  let main_c_3 : IVec S_ 1 := constantI S_ 1 1#1
  let main_v12 : IVec S_ 1 := (fun x v => Host.reduce IntOp.andi x v reducesTo_S78x78_S_d0_1 h_S_) main_v11 main_c_3
  let main_v13 : IVec S_ 1 := andi main_v8 main_v12
  let main_v14 : FVec F S78 .f32 := Host.absf main_arg5
  let main_cst_4 : FVec F S_ .f32 := constant S_ .f32 0x7F800000#32
  let main_v15 : FVec F S78 .f32 := broadcastInDim S78 ![] bcast_S_S78 main_cst_4
  let main_v16 : IVec S78 1 := cmpf .olt main_v14 main_v15
  fn_part1 (F := F) main_arg6 main_arg7 main_arg8 main_arg9 main_arg10 main_arg11 main_arg12 main_arg13 main_arg14 main_arg15 main_arg16 main_arg17 main_v13 main_v16
-- ==== Kernel.lean ====
abbrev S100000x78 : Shape := ⟨2, ![100000, 78]⟩
abbrev S2x400000 : Shape := ⟨2, ![2, 400000]⟩
abbrev S100000 : Shape := ⟨1, ![100000]⟩
abbrev S4096x128 : Shape := ⟨2, ![4096, 128]⟩
abbrev S78x78 : Shape := ⟨2, ![78, 78]⟩
abbrev S78 : Shape := ⟨1, ![78]⟩
abbrev S78x156 : Shape := ⟨2, ![78, 156]⟩
abbrev S156 : Shape := ⟨1, ![156]⟩
abbrev S156x312 : Shape := ⟨2, ![156, 312]⟩
abbrev S312 : Shape := ⟨1, ![312]⟩
abbrev S312x1024 : Shape := ⟨2, ![312, 1024]⟩
abbrev S1024 : Shape := ⟨1, ![1024]⟩
abbrev S1024x128 : Shape := ⟨2, ![1024, 128]⟩
abbrev S128 : Shape := ⟨1, ![128]⟩
abbrev S128x312 : Shape := ⟨2, ![128, 312]⟩
abbrev S624x1 : Shape := ⟨2, ![624, 1]⟩
abbrev S1 : Shape := ⟨1, ![1]⟩
abbrev S1x400000 : Shape := ⟨2, ![1, 400000]⟩
abbrev S400000 : Shape := ⟨1, ![400000]⟩
abbrev S_ : Shape := ⟨0, ![]⟩
abbrev S400000x1 : Shape := ⟨2, ![400000, 1]⟩
abbrev S100000x1 : Shape := ⟨2, ![100000, 1]⟩
abbrev S2000x78 : Shape := ⟨2, ![2000, 78]⟩
abbrev S400000x78 : Shape := ⟨2, ![400000, 78]⟩
abbrev S2000x1 : Shape := ⟨2, ![2000, 1]⟩
abbrev S1x78 : Shape := ⟨2, ![1, 78]⟩
abbrev S100000x156 : Shape := ⟨2, ![100000, 156]⟩
abbrev S2000x156 : Shape := ⟨2, ![2000, 156]⟩
abbrev S400000x156 : Shape := ⟨2, ![400000, 156]⟩
abbrev S1x156 : Shape := ⟨2, ![1, 156]⟩
abbrev S100000x312 : Shape := ⟨2, ![100000, 312]⟩
abbrev S2000x312 : Shape := ⟨2, ![2000, 312]⟩
abbrev S400000x312 : Shape := ⟨2, ![400000, 312]⟩
abbrev S1x312 : Shape := ⟨2, ![1, 312]⟩
abbrev S4096x312 : Shape := ⟨2, ![4096, 312]⟩
abbrev S4096 : Shape := ⟨1, ![4096]⟩
abbrev S4096x1 : Shape := ⟨2, ![4096, 1]⟩
abbrev S312x1 : Shape := ⟨2, ![312, 1]⟩
abbrev S1024x312 : Shape := ⟨2, ![1024, 312]⟩
abbrev S1024x1 : Shape := ⟨2, ![1024, 1]⟩
abbrev S1x1 : Shape := ⟨2, ![1, 1]⟩
abbrev S1024x1024 : Shape := ⟨2, ![1024, 1024]⟩
abbrev S1x1024 : Shape := ⟨2, ![1, 1024]⟩
abbrev S1x128 : Shape := ⟨2, ![1, 128]⟩

abbrev nBuf : Space → Nat
  | .hbm => 124
  | .vmem => 57
  | .smem => 0
  | _ => 0

abbrev bufTy : (tb : Table) → Fin (tcTables nBuf tb) → BufTy
  | .hbm, ⟨0, _⟩ => ⟨S100000x78, .f32⟩
  | .hbm, ⟨1, _⟩ => ⟨S2x400000, .i32⟩
  | .hbm, ⟨2, _⟩ => ⟨S100000, .i32⟩
  | .hbm, ⟨3, _⟩ => ⟨S4096x128, .f32⟩
  | .hbm, ⟨4, _⟩ => ⟨S78x78, .f32⟩
  | .hbm, ⟨5, _⟩ => ⟨S78, .f32⟩
  | .hbm, ⟨6, _⟩ => ⟨S78x156, .f32⟩
  | .hbm, ⟨7, _⟩ => ⟨S156, .f32⟩
  | .hbm, ⟨8, _⟩ => ⟨S156x312, .f32⟩
  | .hbm, ⟨9, _⟩ => ⟨S312, .f32⟩
  | .hbm, ⟨10, _⟩ => ⟨S312x1024, .f32⟩
  | .hbm, ⟨11, _⟩ => ⟨S1024, .f32⟩
  | .hbm, ⟨12, _⟩ => ⟨S1024x128, .f32⟩
  | .hbm, ⟨13, _⟩ => ⟨S128, .f32⟩
  | .hbm, ⟨14, _⟩ => ⟨S128x312, .f32⟩
  | .hbm, ⟨15, _⟩ => ⟨S312, .f32⟩
  | .hbm, ⟨16, _⟩ => ⟨S624x1, .f32⟩
  | .hbm, ⟨17, _⟩ => ⟨S1, .f32⟩
  | .hbm, ⟨18, _⟩ => ⟨S1x400000, .i32⟩
  | .hbm, ⟨19, _⟩ => ⟨S400000, .i32⟩
  | .hbm, ⟨20, _⟩ => ⟨S1x400000, .i32⟩
  | .hbm, ⟨21, _⟩ => ⟨S400000, .i32⟩
  | .hbm, ⟨22, _⟩ => ⟨S_, .f32⟩
  | .hbm, ⟨23, _⟩ => ⟨S400000, .f32⟩
  | .hbm, ⟨24, _⟩ => ⟨S_, .f32⟩
  | .hbm, ⟨25, _⟩ => ⟨S100000, .f32⟩
  | .hbm, ⟨26, _⟩ => ⟨S400000x1, .i32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000, .f32⟩
  | .hbm, ⟨32, _⟩ => ⟨S100000, .f32⟩
  | .hbm, ⟨33, _⟩ => ⟨S100000x1, .f32⟩
  | .hbm, ⟨34, _⟩ => ⟨S_, .i32⟩
  | .hbm, ⟨35, _⟩ => ⟨S400000, .i32⟩
  | .hbm, ⟨36, _⟩ => ⟨S400000, .i1⟩
  | .hbm, ⟨37, _⟩ => ⟨S_, .i32⟩
  | .hbm, ⟨38, _⟩ => ⟨S400000, .i32⟩
  | .hbm, ⟨39, _⟩ => ⟨S400000, .i32⟩
  | .hbm, ⟨40, _⟩ => ⟨S400000, .i32⟩
  | .hbm, ⟨41, _⟩ => ⟨S400000x1, .i32⟩
  | .hbm, ⟨42, _⟩ => ⟨S400000, .f32⟩
  | .hbm, ⟨43, _⟩ => ⟨S_, .i32⟩
  | .hbm, ⟨44, _⟩ => ⟨S400000, .i32⟩
  | .hbm, ⟨45, _⟩ => ⟨S400000, .i1⟩
  | .hbm, ⟨46, _⟩ => ⟨S_, .i32⟩
  | .hbm, ⟨47, _⟩ => ⟨S400000, .i32⟩
  | .hbm, ⟨48, _⟩ => ⟨S400000, .i32⟩
  | .hbm, ⟨49, _⟩ => ⟨S400000, .i32⟩
  | .hbm, ⟨50, _⟩ => ⟨S400000x1, .i32⟩
  | .hbm, ⟨51, _⟩ => ⟨S400000, .f32⟩
  | .hbm, ⟨52, _⟩ => ⟨S400000, .f32⟩
  | .hbm, ⟨53, _⟩ => ⟨S400000x1, .f32⟩
  | .hbm, ⟨54, _⟩ => ⟨S100000x78, .f32⟩
  | .hbm, ⟨55, _⟩ => ⟨S_, .i32⟩
  | .hbm, ⟨56, _⟩ => ⟨S400000, .i32⟩
  | .hbm, ⟨57, _⟩ => ⟨S400000, .i1⟩
  | .hbm, ⟨58, _⟩ => ⟨S_, .i32⟩
  | .hbm, ⟨59, _⟩ => ⟨S400000, .i32⟩
  | .hbm, ⟨60, _⟩ => ⟨S400000, .i32⟩
  | .hbm, ⟨61, _⟩ => ⟨S400000, .i32⟩
  | .hbm, ⟨62, _⟩ => ⟨S400000x1, .i32⟩
  | .hbm, ⟨63, _⟩ => ⟨S400000x78, .f32⟩
  | .hbm, ⟨64, _⟩ => ⟨S400000x78, .f32⟩
  | .hbm, ⟨65, _⟩ => ⟨S400000x78, .f32⟩
  | .hbm, ⟨66, _⟩ => ⟨S_, .f32⟩
  | .hbm, ⟨67, _⟩ => ⟨S100000x78, .f32⟩
  | .hbm, ⟨68, _⟩ => ⟨S400000x1, .i32⟩
  | .hbm, ⟨69, _⟩ => ⟨S100000x78, .f32⟩
  | .hbm, ⟨70, _⟩ => ⟨S100000x78, .f32⟩
  | .hbm, ⟨71, _⟩ => ⟨S100000x156, .f32⟩
  | .hbm, ⟨72, _⟩ => ⟨S_, .i32⟩
  | .hbm, ⟨73, _⟩ => ⟨S400000, .i32⟩
  | .hbm, ⟨74, _⟩ => ⟨S400000, .i1⟩
  | .hbm, ⟨75, _⟩ => ⟨S_, .i32⟩
  | .hbm, ⟨76, _⟩ => ⟨S400000, .i32⟩
  | .hbm, ⟨77, _⟩ => ⟨S400000, .i32⟩
  | .hbm, ⟨78, _⟩ => ⟨S400000, .i32⟩
  | .hbm, ⟨79, _⟩ => ⟨S400000x1, .i32⟩
  | .hbm, ⟨80, _⟩ => ⟨S400000x156, .f32⟩
  | .hbm, ⟨81, _⟩ => ⟨S400000x156, .f32⟩
  | .hbm, ⟨82, _⟩ => ⟨S400000x156, .f32⟩
  | .hbm, ⟨83, _⟩ => ⟨S_, .f32⟩
  | .hbm, ⟨84, _⟩ => ⟨S100000x156, .f32⟩
  | .hbm, ⟨85, _⟩ => ⟨S400000x1, .i32⟩
  | .hbm, ⟨86, _⟩ => ⟨S100000x156, .f32⟩
  | .hbm, ⟨87, _⟩ => ⟨S100000x156, .f32⟩
  | .hbm, ⟨88, _⟩ => ⟨S100000x312, .f32⟩
  | .hbm, ⟨89, _⟩ => ⟨S_, .i32⟩
  | .hbm, ⟨90, _⟩ => ⟨S400000, .i32⟩
  | .hbm, ⟨91, _⟩ => ⟨S400000, .i1⟩
  | .hbm, ⟨92, _⟩ => ⟨S_, .i32⟩
  | .hbm, ⟨93, _⟩ => ⟨S400000, .i32⟩
  | .hbm, ⟨94, _⟩ => ⟨S400000, .i32⟩
  | .hbm, ⟨95, _⟩ => ⟨S400000, .i32⟩
  | .hbm, ⟨96, _⟩ => ⟨S400000x1, .i32⟩
  | .hbm, ⟨97, _⟩ => ⟨S400000x312, .f32⟩
  | .hbm, ⟨98, _⟩ => ⟨S400000x312, .f32⟩
  | .hbm, ⟨99, _⟩ => ⟨S400000x312, .f32⟩
  | .hbm, ⟨100, _⟩ => ⟨S_, .f32⟩
  | .hbm, ⟨101, _⟩ => ⟨S100000x312, .f32⟩
  | .hbm, ⟨102, _⟩ => ⟨S400000x1, .i32⟩
  | .hbm, ⟨103, _⟩ => ⟨S100000x312, .f32⟩
  | .hbm, ⟨104, _⟩ => ⟨S100000x312, .f32⟩
  | .hbm, ⟨105, _⟩ => ⟨S_, .f32⟩
  | .hbm, ⟨106, _⟩ => ⟨S4096x312, .f32⟩
  | .hbm, ⟨107, _⟩ => ⟨S100000x1, .i32⟩
  | .hbm, ⟨108, _⟩ => ⟨S4096x312, .f32⟩
  | .hbm, ⟨109, _⟩ => ⟨S_, .f32⟩
  | .hbm, ⟨110, _⟩ => ⟨S100000, .f32⟩
  | .hbm, ⟨111, _⟩ => ⟨S_, .f32⟩
  | .hbm, ⟨112, _⟩ => ⟨S4096, .f32⟩
  | .hbm, ⟨113, _⟩ => ⟨S100000x1, .i32⟩
  | .hbm, ⟨114, _⟩ => ⟨S4096, .f32⟩
  | .hbm, ⟨115, _⟩ => ⟨S_, .f32⟩
  | .hbm, ⟨116, _⟩ => ⟨S4096, .f32⟩
  | .hbm, ⟨117, _⟩ => ⟨S4096, .f32⟩
  | .hbm, ⟨118, _⟩ => ⟨S4096x1, .f32⟩
  | .hbm, ⟨119, _⟩ => ⟨S4096x312, .f32⟩
  | .hbm, ⟨120, _⟩ => ⟨S4096x312, .f32⟩
  | .hbm, ⟨121, _⟩ => ⟨S312x1, .f32⟩
  | .hbm, ⟨122, _⟩ => ⟨S312x1, .f32⟩
  | .hbm, ⟨123, _⟩ => ⟨S4096x128, .f32⟩
  | .local _ .vmem, ⟨0, _⟩ => ⟨S2000x78, .f32⟩
  | .local _ .vmem, ⟨1, _⟩ => ⟨S2000x78, .f32⟩
  | .local _ .vmem, ⟨2, _⟩ => ⟨S78x78, .f32⟩
  | .local _ .vmem, ⟨3, _⟩ => ⟨S2000x78, .f32⟩
  | .local _ .vmem, ⟨4, _⟩ => ⟨S2000x78, .f32⟩
  | .local _ .vmem, ⟨5, _⟩ => ⟨S2000x78, .f32⟩
  | .local _ .vmem, ⟨6, _⟩ => ⟨S2000x78, .f32⟩
  | .local _ .vmem, ⟨7, _⟩ => ⟨S2000x78, .f32⟩
  | .local _ .vmem, ⟨8, _⟩ => ⟨S2000x78, .f32⟩
  | .local _ .vmem, ⟨9, _⟩ => ⟨S2000x1, .f32⟩
  | .local _ .vmem, ⟨10, _⟩ => ⟨S2000x1, .f32⟩
  | .local _ .vmem, ⟨11, _⟩ => ⟨S78, .f32⟩
  | .local _ .vmem, ⟨12, _⟩ => ⟨S2000x78, .f32⟩
  | .local _ .vmem, ⟨13, _⟩ => ⟨S2000x78, .f32⟩
  | .local _ .vmem, ⟨14, _⟩ => ⟨S2000x78, .f32⟩
  | .local _ .vmem, ⟨15, _⟩ => ⟨S2000x78, .f32⟩
  | .local _ .vmem, ⟨16, _⟩ => ⟨S78x156, .f32⟩
  | .local _ .vmem, ⟨17, _⟩ => ⟨S2000x156, .f32⟩
  | .local _ .vmem, ⟨18, _⟩ => ⟨S2000x156, .f32⟩
  | .local _ .vmem, ⟨19, _⟩ => ⟨S2000x156, .f32⟩
  | .local _ .vmem, ⟨20, _⟩ => ⟨S2000x156, .f32⟩
  | .local _ .vmem, ⟨21, _⟩ => ⟨S2000x156, .f32⟩
  | .local _ .vmem, ⟨22, _⟩ => ⟨S2000x156, .f32⟩
  | .local _ .vmem, ⟨23, _⟩ => ⟨S2000x1, .f32⟩
  | .local _ .vmem, ⟨24, _⟩ => ⟨S2000x1, .f32⟩
  | .local _ .vmem, ⟨25, _⟩ => ⟨S156, .f32⟩
  | .local _ .vmem, ⟨26, _⟩ => ⟨S2000x156, .f32⟩
  | .local _ .vmem, ⟨27, _⟩ => ⟨S2000x156, .f32⟩
  | .local _ .vmem, ⟨28, _⟩ => ⟨S2000x156, .f32⟩
  | .local _ .vmem, ⟨29, _⟩ => ⟨S2000x156, .f32⟩
  | .local _ .vmem, ⟨30, _⟩ => ⟨S156x312, .f32⟩
  | .local _ .vmem, ⟨31, _⟩ => ⟨S2000x312, .f32⟩
  | .local _ .vmem, ⟨32, _⟩ => ⟨S2000x312, .f32⟩
  | .local _ .vmem, ⟨33, _⟩ => ⟨S2000x312, .f32⟩
  | .local _ .vmem, ⟨34, _⟩ => ⟨S2000x312, .f32⟩
  | .local _ .vmem, ⟨35, _⟩ => ⟨S2000x312, .f32⟩
  | .local _ .vmem, ⟨36, _⟩ => ⟨S2000x312, .f32⟩
  | .local _ .vmem, ⟨37, _⟩ => ⟨S2000x1, .f32⟩
  | .local _ .vmem, ⟨38, _⟩ => ⟨S2000x1, .f32⟩
  | .local _ .vmem, ⟨39, _⟩ => ⟨S312, .f32⟩
  | .local _ .vmem, ⟨40, _⟩ => ⟨S2000x312, .f32⟩
  | .local _ .vmem, ⟨41, _⟩ => ⟨S2000x312, .f32⟩
  | .local _ .vmem, ⟨42, _⟩ => ⟨S1024x312, .f32⟩
  | .local _ .vmem, ⟨43, _⟩ => ⟨S1024x312, .f32⟩
  | .local _ .vmem, ⟨44, _⟩ => ⟨S1024x128, .f32⟩
  | .local _ .vmem, ⟨45, _⟩ => ⟨S1024x128, .f32⟩
  | .local _ .vmem, ⟨46, _⟩ => ⟨S128x312, .f32⟩
  | .local _ .vmem, ⟨47, _⟩ => ⟨S312, .f32⟩
  | .local _ .vmem, ⟨48, _⟩ => ⟨S312x1, .f32⟩
  | .local _ .vmem, ⟨49, _⟩ => ⟨S312x1, .f32⟩
  | .local _ .vmem, ⟨50, _⟩ => ⟨S1, .f32⟩
  | .local _ .vmem, ⟨51, _⟩ => ⟨S312x1024, .f32⟩
  | .local _ .vmem, ⟨52, _⟩ => ⟨S1024, .f32⟩
  | .local _ .vmem, ⟨53, _⟩ => ⟨S1024x128, .f32⟩
  | .local _ .vmem, ⟨54, _⟩ => ⟨S128, .f32⟩
  | .local _ .vmem, ⟨55, _⟩ => ⟨S1024x128, .f32⟩
  | .local _ .vmem, ⟨56, _⟩ => ⟨S1024x128, .f32⟩
  | _, _ => ⟨S100000x78, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | _, _ => false

abbrev semScoped : Fin 0 → Bool
  | ⟨_, h⟩ => absurd h (Nat.not_lt_zero _)

abbrev dmaSemScoped : Fin 57 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | _ => false

abbrev sig : RefSig :=
  ofTc nBuf bufTy 0 57 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst : Ref sig .tc := ⟨.hbm, 22, rfl⟩
abbrev main_v4 : Ref sig .tc := ⟨.hbm, 23, rfl⟩
abbrev main_cst_0 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_cst_1 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_c : Ref sig .tc := ⟨.hbm, 34, rfl⟩
abbrev main_v13 : Ref sig .tc := ⟨.hbm, 35, rfl⟩
abbrev main_v14 : Ref sig .tc := ⟨.hbm, 36, rfl⟩
abbrev main_c_2 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_c_3 : Ref sig .tc := ⟨.hbm, 43, rfl⟩
abbrev main_v20 : Ref sig .tc := ⟨.hbm, 44, rfl⟩
abbrev main_v21 : Ref sig .tc := ⟨.hbm, 45, rfl⟩
abbrev main_c_4 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_c_5 : Ref sig .tc := ⟨.hbm, 55, rfl⟩
abbrev main_v30 : Ref sig .tc := ⟨.hbm, 56, rfl⟩
abbrev main_v31 : Ref sig .tc := ⟨.hbm, 57, rfl⟩
abbrev main_c_6 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_cst_7 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_c_8 : Ref sig .tc := ⟨.hbm, 72, rfl⟩
abbrev main_v44 : Ref sig .tc := ⟨.hbm, 73, rfl⟩
abbrev main_v45 : Ref sig .tc := ⟨.hbm, 74, rfl⟩
abbrev main_c_9 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_cst_10 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_c_11 : Ref sig .tc := ⟨.hbm, 89, rfl⟩
abbrev main_v58 : Ref sig .tc := ⟨.hbm, 90, rfl⟩
abbrev main_v59 : Ref sig .tc := ⟨.hbm, 91, rfl⟩
abbrev main_c_12 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_cst_13 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_cst_14 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_cst_15 : Ref sig .tc := ⟨.hbm, 109, rfl⟩
abbrev main_v74 : Ref sig .tc := ⟨.hbm, 110, rfl⟩
abbrev main_cst_16 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_cst_17 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg1_1 : Ref sig .tc := ⟨.vmem, 36, rfl⟩
abbrev cc5_stg2_0 : Ref sig .tc := ⟨.vmem, 37, rfl⟩
abbrev cc5_stg2_1 : Ref sig .tc := ⟨.vmem, 38, rfl⟩
abbrev cc5_stg3_0 : Ref sig .tc := ⟨.vmem, 39, rfl⟩
abbrev cc5_stg4_0 : Ref sig .tc := ⟨.vmem, 40, rfl⟩
abbrev cc5_stg4_1 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg1_1 : Ref sig .tc := ⟨.vmem, 45, rfl⟩
abbrev cc6_stg2_0 : Ref sig .tc := ⟨.vmem, 46, rfl⟩
abbrev cc6_stg3_0 : Ref sig .tc := ⟨.vmem, 47, rfl⟩
abbrev cc6_stg4_0 : Ref sig .tc := ⟨.vmem, 48, rfl⟩
abbrev cc6_stg5_0 : Ref sig .tc := ⟨.vmem, 49, rfl⟩
abbrev cc6_stg6_0 : Ref sig .tc := ⟨.vmem, 50, rfl⟩
abbrev cc6_stg7_0 : Ref sig .tc := ⟨.vmem, 51, rfl⟩
abbrev cc6_stg8_0 : Ref sig .tc := ⟨.vmem, 52, rfl⟩
abbrev cc6_stg9_0 : Ref sig .tc := ⟨.vmem, 53, rfl⟩
abbrev cc6_stg10_0 : Ref sig .tc := ⟨.vmem, 54, rfl⟩
abbrev cc6_stg11_0 : Ref sig .tc := ⟨.vmem, 55, rfl⟩
abbrev cc6_stg11_1 : Ref sig .tc := ⟨.vmem, 56, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem1_1 : DmaSem sig := 36
abbrev cc5_sem2_0 : DmaSem sig := 37
abbrev cc5_sem2_1 : DmaSem sig := 38
abbrev cc5_sem3_0 : DmaSem sig := 39
abbrev cc5_sem4_0 : DmaSem sig := 40
abbrev cc5_sem4_1 : DmaSem sig := 41
abbrev cc6_sem0_0 : DmaSem sig := 42
abbrev cc6_sem0_1 : DmaSem sig := 43
abbrev cc6_sem1_0 : DmaSem sig := 44
abbrev cc6_sem1_1 : DmaSem sig := 45
abbrev cc6_sem2_0 : DmaSem sig := 46
abbrev cc6_sem3_0 : DmaSem sig := 47
abbrev cc6_sem4_0 : DmaSem sig := 48
abbrev cc6_sem5_0 : DmaSem sig := 49
abbrev cc6_sem6_0 : DmaSem sig := 50
abbrev cc6_sem7_0 : DmaSem sig := 51
abbrev cc6_sem8_0 : DmaSem sig := 52
abbrev cc6_sem9_0 : DmaSem sig := 53
abbrev cc6_sem10_0 : DmaSem sig := 54
abbrev cc6_sem11_0 : DmaSem sig := 55
abbrev cc6_sem11_1 : DmaSem sig := 56

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x78 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S78x78 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x78 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x78 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x78 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S78 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x78 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x78 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S78x156 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x156 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x156 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x156 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S156 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x156 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x156 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S156x312 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x312 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x312 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x312 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S2000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S312 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S2000x312 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![4], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_7 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_8 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_9 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_10 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_11 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S1024x312 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S1024x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S128x312 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S312 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S312x1 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S312x1 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 1 → Memref sig .tc .vmem S312x1024 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

abbrev stage6_8 : Fin 1 → Memref sig .tc .vmem S1024 .f32 := fun | 0 => Memref.whole cc6_stg8_0 | ⟨_ + 1, h⟩ => absurd h (Nat.not_lt.2 (Nat.le_add_left _ _))
abbrev sem6_8 : Fin 1 → DmaSem sig := fun | 0 => cc6_sem8_0 | ⟨_ + 1, h⟩ => absurd h (Nat.not_lt.2 (Nat.le_add_left _ _))
abbrev reads6_8 : Fin grid6.rank → Bool := ![false]

abbrev stage6_9 : Fin 1 → Memref sig .tc .vmem S1024x128 .f32 := fun | 0 => Memref.whole cc6_stg9_0 | ⟨_ + 1, h⟩ => absurd h (Nat.not_lt.2 (Nat.le_add_left _ _))
abbrev sem6_9 : Fin 1 → DmaSem sig := fun | 0 => cc6_sem9_0 | ⟨_ + 1, h⟩ => absurd h (Nat.not_lt.2 (Nat.le_add_left _ _))
abbrev reads6_9 : Fin grid6.rank → Bool := ![false]

abbrev stage6_10 : Fin 1 → Memref sig .tc .vmem S128 .f32 := fun | 0 => Memref.whole cc6_stg10_0 | ⟨_ + 1, h⟩ => absurd h (Nat.not_lt.2 (Nat.le_add_left _ _))
abbrev sem6_10 : Fin 1 → DmaSem sig := fun | 0 => cc6_sem10_0 | ⟨_ + 1, h⟩ => absurd h (Nat.not_lt.2 (Nat.le_add_left _ _))
abbrev reads6_10 : Fin grid6.rank → Bool := ![false]

abbrev stage6_11 : Fin 2 → Memref sig .tc .vmem S1024x128 .f32 := fun | 0 => Memref.whole cc6_stg11_0 | 1 => Memref.whole cc6_stg11_1 | ⟨_ + 2, h⟩ => absurd h (Nat.not_lt.2 (Nat.le_add_left _ _))
abbrev sem6_11 : Fin 2 → DmaSem sig := fun | 0 => cc6_sem11_0 | 1 => cc6_sem11_1 | ⟨_ + 2, h⟩ => absurd h (Nat.not_lt.2 (Nat.le_add_left _ _))
abbrev reads6_11 : Fin grid6.rank → Bool := ![true]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S_S100000 : S_.BroadcastsInDim S100000 (![] : Fin 0 → Fin S100000.rank)
  bcast_S400000_S400000x1_0 : S400000.BroadcastsInDim S400000x1 (![0] : Fin 1 → Fin S400000x1.rank)
  shapeCasts_S100000_S100000x1 : S100000.ShapeCasts S100000x1
  shapeCasts_S400000_S400000x1 : S400000.ShapeCasts S400000x1
  inb_S2000x78_S2000x78_0_0 : ∀ a, (![0, 0] : Fin 2 → Nat) a + S2000x78.size a ≤ S2000x78.size a
  h_S2000x78 : 0 < S2000x78.numel
  bitsLt_bf16_f32 : FTy.bits .bf16 < FTy.bits .f32
  inb_S78x78_S78x78_0_0 : ∀ a, (![0, 0] : Fin 2 → Nat) a + S78x78.size a ≤ S78x78.size a
  h_S78x78 : 0 < S78x78.numel
  bcast_S400000x1_S400000x78_0_1 : S400000x1.BroadcastsInDim S400000x78 (![0, 1] : Fin 2 → Fin S400000x78.rank)
  bcast_S_S100000x78 : S_.BroadcastsInDim S100000x78 (![] : Fin 0 → Fin S100000x78.rank)
  shapeCasts_S2000x78_S2000x78 : S2000x78.ShapeCasts S2000x78
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x78 : S2000x1.Broadcasts S2000x78
  inb_S78_S78_0 : ∀ a, (![0] : Fin 1 → Nat) a + S78.size a ≤ S78.size a
  h_S78 : 0 < S78.numel
  shapeCasts_S78_S1x78 : S78.ShapeCasts S1x78
  broadcasts_S1x78_S2000x78 : S1x78.Broadcasts S2000x78
  inb_S78x156_S78x156_0_0 : ∀ a, (![0, 0] : Fin 2 → Nat) a + S78x156.size a ≤ S78x156.size a
  h_S78x156 : 0 < S78x156.numel
  inb_S2000x156_S2000x156_0_0 : ∀ a, (![0, 0] : Fin 2 → Nat) a + S2000x156.size a ≤ S2000x156.size a
  h_S2000x156 : 0 < S2000x156.numel
  bcast_S400000x1_S400000x156_0_1 : S400000x1.BroadcastsInDim S400000x156 (![0, 1] : Fin 2 → Fin S400000x156.rank)
  bcast_S_S100000x156 : S_.BroadcastsInDim S100000x156 (![] : Fin 0 → Fin S100000x156.rank)
  shapeCasts_S2000x156_S2000x156 : S2000x156.ShapeCasts S2000x156
  broadcasts_S2000x1_S2000x156 : S2000x1.Broadcasts S2000x156
  inb_S156_S156_0 : ∀ a, (![0] : Fin 1 → Nat) a + S156.size a ≤ S156.size a
  h_S156 : 0 < S156.numel
  shapeCasts_S156_S1x156 : S156.ShapeCasts S1x156
  broadcasts_S1x156_S2000x156 : S1x156.Broadcasts S2000x156
  inb_S156x312_S156x312_0_0 : ∀ a, (![0, 0] : Fin 2 → Nat) a + S156x312.size a ≤ S156x312.size a
  h_S156x312 : 0 < S156x312.numel
  inb_S2000x312_S2000x312_0_0 : ∀ a, (![0, 0] : Fin 2 → Nat) a + S2000x312.size a ≤ S2000x312.size a
  h_S2000x312 : 0 < S2000x312.numel
  bcast_S400000x1_S400000x312_0_1 : S400000x1.BroadcastsInDim S400000x312 (![0, 1] : Fin 2 → Fin S400000x312.rank)
  bcast_S_S100000x312 : S_.BroadcastsInDim S100000x312 (![] : Fin 0 → Fin S100000x312.rank)
  shapeCasts_S2000x312_S2000x312 : S2000x312.ShapeCasts S2000x312
  broadcasts_S2000x1_S2000x312 : S2000x1.Broadcasts S2000x312
  inb_S312_S312_0 : ∀ a, (![0] : Fin 1 → Nat) a + S312.size a ≤ S312.size a
  h_S312 : 0 < S312.numel
  shapeCasts_S312_S1x312 : S312.ShapeCasts S1x312
  broadcasts_S1x312_S2000x312 : S1x312.Broadcasts S2000x312
  bcast_S_S4096x312 : S_.BroadcastsInDim S4096x312 (![] : Fin 0 → Fin S4096x312.rank)
  bcast_S100000_S100000x1_0 : S100000.BroadcastsInDim S100000x1 (![0] : Fin 1 → Fin S100000x1.rank)
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x312_0_1 : S4096x1.BroadcastsInDim S4096x312 (![0, 1] : Fin 2 → Fin S4096x312.rank)
  slices_S624x1_S312x1_0_0 : S624x1.Slices ![0, 0] S312x1
  slices_S624x1_S312x1_312_0 : S624x1.Slices ![312, 0] S312x1
  inb_S1024x312_S1024x312_0_0 : ∀ a, (![0, 0] : Fin 2 → Nat) a + S1024x312.size a ≤ S1024x312.size a
  h_S1024x312 : 0 < S1024x312.numel
  shapeCasts_S1024x312_S1024x312 : S1024x312.ShapeCasts S1024x312
  inb_S1024x128_S1024x128_0_0 : ∀ a, (![0, 0] : Fin 2 → Nat) a + S1024x128.size a ≤ S1024x128.size a
  h_S1024x128 : 0 < S1024x128.numel
  inb_S128x312_S128x312_0_0 : ∀ a, (![0, 0] : Fin 2 → Nat) a + S128x312.size a ≤ S128x312.size a
  h_S128x312 : 0 < S128x312.numel
  broadcasts_S1x312_S1024x312 : S1x312.Broadcasts S1024x312
  inb_S312x1_S312x1_0_0 : ∀ a, (![0, 0] : Fin 2 → Nat) a + S312x1.size a ≤ S312x1.size a
  h_S312x1 : 0 < S312x1.numel
  shapeCasts_S312x1_S312x1 : S312x1.ShapeCasts S312x1
  inb_S1_S1_0 : ∀ a, (![0] : Fin 1 → Nat) a + S1.size a ≤ S1.size a
  h_S1 : 0 < S1.numel
  shapeCasts_S1_S1x1 : S1.ShapeCasts S1x1
  broadcasts_S1x1_S1024x1 : S1x1.Broadcasts S1024x1
  broadcasts_S1024x1_S1024x312 : S1024x1.Broadcasts S1024x312
  inb_S312x1024_S312x1024_0_0 : ∀ a, (![0, 0] : Fin 2 → Nat) a + S312x1024.size a ≤ S312x1024.size a
  h_S312x1024 : 0 < S312x1024.numel
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S1024x1024 : S1x1024.Broadcasts S1024x1024
  inb_S128_S128_0 : ∀ a, (![0] : Fin 1 → Nat) a + S128.size a ≤ S128.size a
  h_S128 : 0 < S128.numel
  shapeCasts_S128_S1x128 : S128.ShapeCasts S1x128
  broadcasts_S1x128_S1024x128 : S1x128.Broadcasts S1024x128
  scatter_S100000_S400000x1_S400000_n_0_0_1_wf : ScatterDims.WF S100000 S400000x1 S400000 [] [0] [0] 1
  gather_S100000_S400000x1_S400000_n_0_n_n_0_1_1_wf : GatherDims.WF S100000 S400000x1 S400000 [] [0] [] [0] [] 1 ![1]
  dot_S2000x78_S78x78_S2000x78_1_0_0_1_n_n_wf : DotDims.WF S2000x78 S78x78 S2000x78 [1] [0] [0] [1] [] []
  gather_S100000x78_S400000x1_S400000x78_1_0_n_n_0_1_178_wf : GatherDims.WF S100000x78 S400000x1 S400000x78 [1] [0] [] [0] [] 1 ![1, 78]
  scatter_S100000x78_S400000x1_S400000x78_1_0_0_1_wf : ScatterDims.WF S100000x78 S400000x1 S400000x78 [1] [0] [0] 1
  dot_S2000x78_S78x156_S2000x156_1_0_0_1_n_n_wf : DotDims.WF S2000x78 S78x156 S2000x156 [1] [0] [0] [1] [] []
  gather_S100000x156_S400000x1_S400000x156_1_0_n_n_0_1_1156_wf : GatherDims.WF S100000x156 S400000x1 S400000x156 [1] [0] [] [0] [] 1 ![1, 156]
  scatter_S100000x156_S400000x1_S400000x156_1_0_0_1_wf : ScatterDims.WF S100000x156 S400000x1 S400000x156 [1] [0] [0] 1
  dot_S2000x156_S156x312_S2000x312_1_0_0_1_n_n_wf : DotDims.WF S2000x156 S156x312 S2000x312 [1] [0] [0] [1] [] []
  gather_S100000x312_S400000x1_S400000x312_1_0_n_n_0_1_1312_wf : GatherDims.WF S100000x312 S400000x1 S400000x312 [1] [0] [] [0] [] 1 ![1, 312]
  scatter_S100000x312_S400000x1_S400000x312_1_0_0_1_wf : ScatterDims.WF S100000x312 S400000x1 S400000x312 [1] [0] [0] 1
  scatter_S4096x312_S100000x1_S100000x312_1_0_0_1_wf : ScatterDims.WF S4096x312 S100000x1 S100000x312 [1] [0] [0] 1
  scatter_S4096_S100000x1_S100000_n_0_0_1_wf : ScatterDims.WF S4096 S100000x1 S100000 [] [0] [0] 1
  dot_S1024x128_S128x312_S1024x312_1_0_0_1_n_n_wf : DotDims.WF S1024x128 S128x312 S1024x312 [1] [0] [0] [1] [] []
  dot_S1024x312_S312x1_S1024x1_1_0_0_1_n_n_wf : DotDims.WF S1024x312 S312x1 S1024x1 [1] [0] [0] [1] [] []
  dot_S1024x312_S312x1024_S1024x1024_1_0_0_1_n_n_wf : DotDims.WF S1024x312 S312x1024 S1024x1024 [1] [0] [0] [1] [] []
  dot_S1024x1024_S1024x128_S1024x128_1_0_0_1_n_n_wf : DotDims.WF S1024x1024 S1024x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x78.size a ≤ S100000x78.size a
  hwx0_0 : ∀ i : grid0.Coords, EltTy.bits .f32 = 32 ∨ (Rect.block (s := S100000x78) S2000x78.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S78x78.size a ≤ S78x78.size a
  hwx0_1 : ∀ i : grid0.Coords, EltTy.bits .f32 = 32 ∨ (Rect.block (s := S78x78) S78x78.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x78.size a ≤ S100000x78.size a
  hwx0_2 : ∀ i : grid0.Coords, EltTy.bits .f32 = 32 ∨ (Rect.block (s := S100000x78) S2000x78.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x78.size a ≤ S100000x78.size a
  hwx1_0 : ∀ i : grid1.Coords, EltTy.bits .f32 = 32 ∨ (Rect.block (s := S100000x78) S2000x78.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x78.size a ≤ S100000x78.size a
  hwx1_1 : ∀ i : grid1.Coords, EltTy.bits .f32 = 32 ∨ (Rect.block (s := S100000x78) S2000x78.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S100000x1.size a
  hwx1_2 : ∀ i : grid1.Coords, EltTy.bits .f32 = 32 ∨ (Rect.block (s := S100000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S78.size a ≤ S78.size a
  hwx1_3 : ∀ i : grid1.Coords, EltTy.bits .f32 = 32 ∨ (Rect.block (s := S78) S78.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x78.size a ≤ S100000x78.size a
  hwx1_4 : ∀ i : grid1.Coords, EltTy.bits .f32 = 32 ∨ (Rect.block (s := S100000x78) S2000x78.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x78.size a ≤ S100000x78.size a
  hwx2_0 : ∀ i : grid2.Coords, EltTy.bits .f32 = 32 ∨ (Rect.block (s := S100000x78) S2000x78.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S78x156.size a ≤ S78x156.size a
  hwx2_1 : ∀ i : grid2.Coords, EltTy.bits .f32 = 32 ∨ (Rect.block (s := S78x156) S78x156.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x156.size a ≤ S100000x156.size a
  hwx2_2 : ∀ i : grid2.Coords, EltTy.bits .f32 = 32 ∨ (Rect.block (s := S100000x156) S2000x156.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x156.size a ≤ S100000x156.size a
  hwx3_0 : ∀ i : grid3.Coords, EltTy.bits .f32 = 32 ∨ (Rect.block (s := S100000x156) S2000x156.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x156.size a ≤ S100000x156.size a
  hwx3_1 : ∀ i : grid3.Coords, EltTy.bits .f32 = 32 ∨ (Rect.block (s := S100000x156) S2000x156.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S100000x1.size a
  hwx3_2 : ∀ i : grid3.Coords, EltTy.bits .f32 = 32 ∨ (Rect.block (s := S100000x1) S2000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S156.size a ≤ S156.size a
  hwx3_3 : ∀ i : grid3.Coords, EltTy.bits .f32 = 32 ∨ (Rect.block (s := S156) S156.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x156.size a ≤ S100000x156.size a
  hwx3_4 : ∀ i : grid3.Coords, EltTy.bits .f32 = 32 ∨ (Rect.block (s := S100000x156) S2000x156.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x156.size a ≤ S100000x156.size a
  hwx4_0 : ∀ i : grid4.Coords, EltTy.bits .f32 = 32 ∨ (Rect.block (s := S100000x156) S2000x156.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S156x312.size a ≤ S156x312.size a
  hwx4_1 : ∀ i : grid4.Coords, EltTy.bits .f32 = 32 ∨ (Rect.block (s := S156x312) S156x312.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x312.size a ≤ S100000x312.size a
  hwx4_2 : ∀ i : grid4.Coords, EltTy.bits .f32 = 32 ∨ (Rect.block (s := S100000x312) S2000x312.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x312.size a ≤ S100000x312.size a
  hwx5_0 : ∀ i : grid5.Coords, EltTy.bits .f32 = 32 ∨ (Rect.block (s := S100000x312) S2000x312.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x312.size a ≤ S100000x312.size a
  hwx5_1 : ∀ i : grid5.Coords, EltTy.bits .f32 = 32 ∨ (Rect.block (s := S100000x312) S2000x312.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x1.size a ≤ S100000x1.size a
  hwx5_2 : ∀ i : grid5.Coords, EltTy.bits .f32 = 32 ∨ (Rect.block (s := S100000x1) S2000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S312.size a ≤ S312.size a
  hwx5_3 : ∀ i : grid5.Coords, EltTy.bits .f32 = 32 ∨ (Rect.block (s := S312) S312.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S2000x312.size a ≤ S100000x312.size a
  hwx5_4 : ∀ i : grid5.Coords, EltTy.bits .f32 = 32 ∨ (Rect.block (s := S100000x312) S2000x312.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S1024x312.size a ≤ S4096x312.size a
  hwx6_0 : ∀ i : grid6.Coords, EltTy.bits .f32 = 32 ∨ (Rect.block (s := S4096x312) S1024x312.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S1024x128.size a ≤ S4096x128.size a
  hwx6_1 : ∀ i : grid6.Coords, EltTy.bits .f32 = 32 ∨ (Rect.block (s := S4096x128) S1024x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S128x312.size a ≤ S128x312.size a
  hwx6_2 : ∀ i : grid6.Coords, EltTy.bits .f32 = 32 ∨ (Rect.block (s := S128x312) S128x312.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S312.size a ≤ S312.size a
  hwx6_3 : ∀ i : grid6.Coords, EltTy.bits .f32 = 32 ∨ (Rect.block (s := S312) S312.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S312x1.size a ≤ S312x1.size a
  hwx6_4 : ∀ i : grid6.Coords, EltTy.bits .f32 = 32 ∨ (Rect.block (s := S312x1) S312x1.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S312x1.size a ≤ S312x1.size a
  hwx6_5 : ∀ i : grid6.Coords, EltTy.bits .f32 = 32 ∨ (Rect.block (s := S312x1) S312x1.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1.size a ≤ S1.size a
  hwx6_6 : ∀ i : grid6.Coords, EltTy.bits .f32 = 32 ∨ (Rect.block (s := S1) S1.size (cc6_transform_6 i) (hinb6_6 i)).WholeWords (EltTy.packing .f32)
  hstage6_7 : ∀ j, (stage6_7 j).IsWhole
  nbuf6_7 : grid6.bufCount reads6_7 true = 1
  hreads6_7 : ∀ i i' : grid6.Coords, (∀ a, reads6_7 a = true → i a = i' a) → cc6_transform_7 i = cc6_transform_7 i'
  hinb6_7 : ∀ (i : grid6.Coords) a, (cc6_transform_7 i a + 1) * S312x1024.size a ≤ S312x1024.size a
  hwx6_7 : ∀ i : grid6.Coords, EltTy.bits .f32 = 32 ∨ (Rect.block (s := S312x1024) S312x1024.size (cc6_transform_7 i) (hinb6_7 i)).WholeWords (EltTy.packing .f32)
  hstage6_8 : ∀ j, (stage6_8 j).IsWhole
  nbuf6_8 : grid6.bufCount reads6_8 true = 1
  hreads6_8 : ∀ i i' : grid6.Coords, (∀ a, reads6_8 a = true → i a = i' a) → cc6_transform_8 i = cc6_transform_8 i'
  hinb6_8 : ∀ (i : grid6.Coords) a, (cc6_transform_8 i a + 1) * S1024.size a ≤ S1024.size a
  hwx6_8 : ∀ i : grid6.Coords, EltTy.bits .f32 = 32 ∨ (Rect.block (s := S1024) S1024.size (cc6_transform_8 i) (hinb6_8 i)).WholeWords (EltTy.packing .f32)
  hstage6_9 : ∀ j, (stage6_9 j).IsWhole
  nbuf6_9 : grid6.bufCount reads6_9 true = 1
  hreads6_9 : ∀ i i' : grid6.Coords, (∀ a, reads6_9 a = true → i a = i' a) → cc6_transform_9 i = cc6_transform_9 i'
  hinb6_9 : ∀ (i : grid6.Coords) a, (cc6_transform_9 i a + 1) * S1024x128.size a ≤ S1024x128.size a
  hwx6_9 : ∀ i : grid6.Coords, EltTy.bits .f32 = 32 ∨ (Rect.block (s := S1024x128) S1024x128.size (cc6_transform_9 i) (hinb6_9 i)).WholeWords (EltTy.packing .f32)
  hstage6_10 : ∀ j, (stage6_10 j).IsWhole
  nbuf6_10 : grid6.bufCount reads6_10 true = 1
  hreads6_10 : ∀ i i' : grid6.Coords, (∀ a, reads6_10 a = true → i a = i' a) → cc6_transform_10 i = cc6_transform_10 i'
  hinb6_10 : ∀ (i : grid6.Coords) a, (cc6_transform_10 i a + 1) * S128.size a ≤ S128.size a
  hwx6_10 : ∀ i : grid6.Coords, EltTy.bits .f32 = 32 ∨ (Rect.block (s := S128) S128.size (cc6_transform_10 i) (hinb6_10 i)).WholeWords (EltTy.packing .f32)
  hstage6_11 : ∀ j, (stage6_11 j).IsWhole
  nbuf6_11 : grid6.bufCount reads6_11 false = 2
  hreads6_11 : ∀ i i' : grid6.Coords, (∀ a, reads6_11 a = true → i a = i' a) → cc6_transform_11 i = cc6_transform_11 i'
  hinb6_11 : ∀ (i : grid6.Coords) a, (cc6_transform_11 i a + 1) * S1024x128.size a ≤ S4096x128.size a
  hwx6_11 : ∀ i : grid6.Coords, EltTy.bits .f32 = 32 ∨ (Rect.block (s := S4096x128) S1024x128.size (cc6_transform_11 i) (hinb6_11 i)).WholeWords (EltTy.packing .f32)

variable [Facts₀]

def scatter_S100000_S400000x1_S400000_n_0_0_1 : ScatterDims S100000 S400000x1 S400000 where
  updateWindowDims := []
  insertedWindowDims := [0]
  scatterDimsToOperandDims := [0]
  indexVectorDim := 1
  wf := scatter_S100000_S400000x1_S400000_n_0_0_1_wf
def gather_S100000_S400000x1_S400000_n_0_n_n_0_1_1 : GatherDims S100000 S400000x1 S400000 where
  offsetDims := []
  collapsedSliceDims := [0]
  operandBatchingDims := []
  startIndicesBatchingDims := []
  startIndexMap := [0]
  indexVectorDim := 1
  sliceSizes := ![1]
  wf := gather_S100000_S400000x1_S400000_n_0_n_n_0_1_1_wf
def dot_S2000x78_S78x78_S2000x78_1_0_0_1_n_n : DotDims S2000x78 S78x78 S2000x78 where
  lhsContracting := [1]
  rhsContracting := [0]
  lhsNonContracting := [0]
  rhsNonContracting := [1]
  lhsBatch := []
  rhsBatch := []
  wf := dot_S2000x78_S78x78_S2000x78_1_0_0_1_n_n_wf
def gather_S100000x78_S400000x1_S400000x78_1_0_n_n_0_1_178 : GatherDims S100000x78 S400000x1 S400000x78 where
  offsetDims := [1]
  collapsedSliceDims := [0]
  operandBatchingDims := []
  startIndicesBatchingDims := []
  startIndexMap := [0]
  indexVectorDim := 1
  sliceSizes := ![1, 78]
  wf := gather_S100000x78_S400000x1_S400000x78_1_0_n_n_0_1_178_wf
def scatter_S100000x78_S400000x1_S400000x78_1_0_0_1 : ScatterDims S100000x78 S400000x1 S400000x78 where
  updateWindowDims := [1]
  insertedWindowDims := [0]
  scatterDimsToOperandDims := [0]
  indexVectorDim := 1
  wf := scatter_S100000x78_S400000x1_S400000x78_1_0_0_1_wf
def dot_S2000x78_S78x156_S2000x156_1_0_0_1_n_n : DotDims S2000x78 S78x156 S2000x156 where
  lhsContracting := [1]
  rhsContracting := [0]
  lhsNonContracting := [0]
  rhsNonContracting := [1]
  lhsBatch := []
  rhsBatch := []
  wf := dot_S2000x78_S78x156_S2000x156_1_0_0_1_n_n_wf
def gather_S100000x156_S400000x1_S400000x156_1_0_n_n_0_1_1156 : GatherDims S100000x156 S400000x1 S400000x156 where
  offsetDims := [1]
  collapsedSliceDims := [0]
  operandBatchingDims := []
  startIndicesBatchingDims := []
  startIndexMap := [0]
  indexVectorDim := 1
  sliceSizes := ![1, 156]
  wf := gather_S100000x156_S400000x1_S400000x156_1_0_n_n_0_1_1156_wf
def scatter_S100000x156_S400000x1_S400000x156_1_0_0_1 : ScatterDims S100000x156 S400000x1 S400000x156 where
  updateWindowDims := [1]
  insertedWindowDims := [0]
  scatterDimsToOperandDims := [0]
  indexVectorDim := 1
  wf := scatter_S100000x156_S400000x1_S400000x156_1_0_0_1_wf
def dot_S2000x156_S156x312_S2000x312_1_0_0_1_n_n : DotDims S2000x156 S156x312 S2000x312 where
  lhsContracting := [1]
  rhsContracting := [0]
  lhsNonContracting := [0]
  rhsNonContracting := [1]
  lhsBatch := []
  rhsBatch := []
  wf := dot_S2000x156_S156x312_S2000x312_1_0_0_1_n_n_wf
def gather_S100000x312_S400000x1_S400000x312_1_0_n_n_0_1_1312 : GatherDims S100000x312 S400000x1 S400000x312 where
  offsetDims := [1]
  collapsedSliceDims := [0]
  operandBatchingDims := []
  startIndicesBatchingDims := []
  startIndexMap := [0]
  indexVectorDim := 1
  sliceSizes := ![1, 312]
  wf := gather_S100000x312_S400000x1_S400000x312_1_0_n_n_0_1_1312_wf
def scatter_S100000x312_S400000x1_S400000x312_1_0_0_1 : ScatterDims S100000x312 S400000x1 S400000x312 where
  updateWindowDims := [1]
  insertedWindowDims := [0]
  scatterDimsToOperandDims := [0]
  indexVectorDim := 1
  wf := scatter_S100000x312_S400000x1_S400000x312_1_0_0_1_wf
def scatter_S4096x312_S100000x1_S100000x312_1_0_0_1 : ScatterDims S4096x312 S100000x1 S100000x312 where
  updateWindowDims := [1]
  insertedWindowDims := [0]
  scatterDimsToOperandDims := [0]
  indexVectorDim := 1
  wf := scatter_S4096x312_S100000x1_S100000x312_1_0_0_1_wf
def scatter_S4096_S100000x1_S100000_n_0_0_1 : ScatterDims S4096 S100000x1 S100000 where
  updateWindowDims := []
  insertedWindowDims := [0]
  scatterDimsToOperandDims := [0]
  indexVectorDim := 1
  wf := scatter_S4096_S100000x1_S100000_n_0_0_1_wf
def dot_S1024x128_S128x312_S1024x312_1_0_0_1_n_n : DotDims S1024x128 S128x312 S1024x312 where
  lhsContracting := [1]
  rhsContracting := [0]
  lhsNonContracting := [0]
  rhsNonContracting := [1]
  lhsBatch := []
  rhsBatch := []
  wf := dot_S1024x128_S128x312_S1024x312_1_0_0_1_n_n_wf
def dot_S1024x312_S312x1_S1024x1_1_0_0_1_n_n : DotDims S1024x312 S312x1 S1024x1 where
  lhsContracting := [1]
  rhsContracting := [0]
  lhsNonContracting := [0]
  rhsNonContracting := [1]
  lhsBatch := []
  rhsBatch := []
  wf := dot_S1024x312_S312x1_S1024x1_1_0_0_1_n_n_wf
def dot_S1024x312_S312x1024_S1024x1024_1_0_0_1_n_n : DotDims S1024x312 S312x1024 S1024x1024 where
  lhsContracting := [1]
  rhsContracting := [0]
  lhsNonContracting := [0]
  rhsNonContracting := [1]
  lhsBatch := []
  rhsBatch := []
  wf := dot_S1024x312_S312x1024_S1024x1024_1_0_0_1_n_n_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf

abbrev win0_0 : Pipeline.Window sig grid0 :=
  Pipeline.Window.ofSpec (Memref.whole main_arg0) S2000x78.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S78x78.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S2000x78.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S2000x78.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S2000x78.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S78.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v42) S2000x78.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v42) S2000x78.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S78x156.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v43) S2000x156.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v55) S2000x156.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v43) S2000x156.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v12) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg7) S156.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v56) S2000x156.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v56) S2000x156.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg8) S156x312.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v57) S2000x312.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v69) S2000x312.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v57) S2000x312.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v12) S2000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_arg9) S312.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v70) S2000x312.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v82) S1024x312.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg3) S1024x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_arg14) S128x312.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_arg15) S312.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v83) S312x1.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v84) S312x1.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_arg17) S1.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_arg10) S312x1024.size cc6_transform_7 reads6_7 false true 1 stage6_7 sem6_7
    hrank6 hreads6_7 hinb6_7 nbuf6_7 (Memref.isWhole_whole _) hwx6_7 hstage6_7

abbrev win6_8 : Pipeline.Window sig grid6 :=
  Pipeline.Window.ofSpec (Memref.whole main_arg11) S1024.size cc6_transform_8 reads6_8 false true 1 stage6_8 sem6_8
    hrank6 hreads6_8 hinb6_8 nbuf6_8 (Memref.isWhole_whole _) hwx6_8 hstage6_8

abbrev win6_9 : Pipeline.Window sig grid6 :=
  Pipeline.Window.ofSpec (Memref.whole main_arg12) S1024x128.size cc6_transform_9 reads6_9 false true 1 stage6_9 sem6_9
    hrank6 hreads6_9 hinb6_9 nbuf6_9 (Memref.isWhole_whole _) hwx6_9 hstage6_9

abbrev win6_10 : Pipeline.Window sig grid6 :=
  Pipeline.Window.ofSpec (Memref.whole main_arg13) S128.size cc6_transform_10 reads6_10 false true 1 stage6_10 sem6_10
    hrank6 hreads6_10 hinb6_10 nbuf6_10 (Memref.isWhole_whole _) hwx6_10 hstage6_10

abbrev win6_11 : Pipeline.Window sig grid6 :=
  Pipeline.Window.ofSpec (Memref.whole main_v85) S1024x128.size cc6_transform_11 reads6_11 true false 2 stage6_11 sem6_11
    hrank6 hreads6_11 hinb6_11 nbuf6_11 (Memref.isWhole_whole _) hwx6_11 hstage6_11

abbrev win6 : Fin 12 → Pipeline.Window sig grid6 := fun | 0 => win6_0 | 1 => win6_1 | 2 => win6_2 | 3 => win6_3 | 4 => win6_4 | 5 => win6_5 | 6 => win6_6 | 7 => win6_7 | 8 => win6_8 | 9 => win6_9 | 10 => win6_10 | 11 => win6_11 | ⟨_ + 12, h⟩ => absurd h (Nat.not_lt.2 (Nat.le_add_left _ _))
abbrev spec6 : Fin 12 → Pipeline.WinSpec sig grid6.rank := fun w => (win6 w).toWinSpec

class Facts : Prop extends Facts₀ where

variable [Facts]
-- ==== ReferenceIdeal.lean ====
abbrev S100000x78 : Shape := ⟨2, ![100000, 78]⟩
abbrev S2x400000 : Shape := ⟨2, ![2, 400000]⟩
abbrev S100000 : Shape := ⟨1, ![100000]⟩
abbrev S4096x128 : Shape := ⟨2, ![4096, 128]⟩
abbrev S78x78 : Shape := ⟨2, ![78, 78]⟩
abbrev S78 : Shape := ⟨1, ![78]⟩
abbrev S78x156 : Shape := ⟨2, ![78, 156]⟩
abbrev S156 : Shape := ⟨1, ![156]⟩
abbrev S156x312 : Shape := ⟨2, ![156, 312]⟩
abbrev S312 : Shape := ⟨1, ![312]⟩
abbrev S312x1024 : Shape := ⟨2, ![312, 1024]⟩
abbrev S1024 : Shape := ⟨1, ![1024]⟩
abbrev S1024x128 : Shape := ⟨2, ![1024, 128]⟩
abbrev S128 : Shape := ⟨1, ![128]⟩
abbrev S128x312 : Shape := ⟨2, ![128, 312]⟩
abbrev S624x1 : Shape := ⟨2, ![624, 1]⟩
abbrev S1 : Shape := ⟨1, ![1]⟩
abbrev S1x400000 : Shape := ⟨2, ![1, 400000]⟩
abbrev S400000 : Shape := ⟨1, ![400000]⟩
abbrev S_ : Shape := ⟨0, ![]⟩
abbrev S400000x1 : Shape := ⟨2, ![400000, 1]⟩
abbrev S400000x78 : Shape := ⟨2, ![400000, 78]⟩
abbrev S100000x1 : Shape := ⟨2, ![100000, 1]⟩
abbrev S1x78 : Shape := ⟨2, ![1, 78]⟩
abbrev S100000x156 : Shape := ⟨2, ![100000, 156]⟩
abbrev S400000x156 : Shape := ⟨2, ![400000, 156]⟩
abbrev S1x156 : Shape := ⟨2, ![1, 156]⟩
abbrev S100000x312 : Shape := ⟨2, ![100000, 312]⟩
abbrev S400000x312 : Shape := ⟨2, ![400000, 312]⟩
abbrev S1x312 : Shape := ⟨2, ![1, 312]⟩
abbrev S4096x312 : Shape := ⟨2, ![4096, 312]⟩
abbrev S4096 : Shape := ⟨1, ![4096]⟩
abbrev S4096x1 : Shape := ⟨2, ![4096, 1]⟩
abbrev S4096x624 : Shape := ⟨2, ![4096, 624]⟩
abbrev S1x1 : Shape := ⟨2, ![1, 1]⟩
abbrev S4096x1024 : Shape := ⟨2, ![4096, 1024]⟩
abbrev S1x1024 : Shape := ⟨2, ![1, 1024]⟩
abbrev S1x128 : Shape := ⟨2, ![1, 128]⟩

abbrev nBuf : Space → Nat
  | .hbm => 225
  | .vmem => 0
  | .smem => 0
  | _ => 0

abbrev hbmTy0_0 (i : Nat) : BufTy := match i % 128 with
  | 0 => ⟨S100000x78, .f32⟩
  | 1 => ⟨S2x400000, .i32⟩
  | 2 => ⟨S100000, .i32⟩
  | 3 => ⟨S4096x128, .f32⟩
  | 4 => ⟨S78x78, .f32⟩
  | 5 => ⟨S78, .f32⟩
  | 6 => ⟨S78x156, .f32⟩
  | 7 => ⟨S156, .f32⟩
  | 8 => ⟨S156x312, .f32⟩
  | 9 => ⟨S312, .f32⟩
  | 10 => ⟨S312x1024, .f32⟩
  | 11 => ⟨S1024, .f32⟩
  | 12 => ⟨S1024x128, .f32⟩
  | 13 => ⟨S128, .f32⟩
  | 14 => ⟨S128x312, .f32⟩
  | 15 => ⟨S312, .f32⟩
  | 16 => ⟨S624x1, .f32⟩
  | 17 => ⟨S1, .f32⟩
  | 18 => ⟨S1x400000, .i32⟩
  | 19 => ⟨S400000, .i32⟩
  | 20 => ⟨S1x400000, .i32⟩
  | 21 => ⟨S400000, .i32⟩
  | 22 => ⟨S_, .f32⟩
  | 23 => ⟨S400000, .f32⟩
  | 24 => ⟨S_, .f32⟩
  | 25 => ⟨S100000, .f32⟩
  | 26 => ⟨S400000x1, .i32⟩
  | 27 => ⟨S100000, .f32⟩
  | 28 => ⟨S_, .f32⟩
  | 29 => ⟨S100000, .f32⟩
  | 30 => ⟨S100000, .f32⟩
  | 31 => ⟨S100000, .f32⟩
  | 32 => ⟨S100000x78, .f32⟩
  | 33 => ⟨S_, .i32⟩
  | 34 => ⟨S400000, .i32⟩
  | 35 => ⟨S400000, .i1⟩
  | 36 => ⟨S_, .i32⟩
  | 37 => ⟨S400000, .i32⟩
  | 38 => ⟨S400000, .i32⟩
  | 39 => ⟨S400000, .i32⟩
  | 40 => ⟨S400000x1, .i32⟩
  | 41 => ⟨S400000, .f32⟩
  | 42 => ⟨S_, .i32⟩
  | 43 => ⟨S400000, .i32⟩
  | 44 => ⟨S400000, .i1⟩
  | 45 => ⟨S_, .i32⟩
  | 46 => ⟨S400000, .i32⟩
  | 47 => ⟨S400000, .i32⟩
  | 48 => ⟨S400000, .i32⟩
  | 49 => ⟨S400000x1, .i32⟩
  | 50 => ⟨S400000, .f32⟩
  | 51 => ⟨S400000, .f32⟩
  | 52 => ⟨S400000x1, .f32⟩
  | 53 => ⟨S_, .i32⟩
  | 54 => ⟨S400000, .i32⟩
  | 55 => ⟨S400000, .i1⟩
  | 56 => ⟨S_, .i32⟩
  | 57 => ⟨S400000, .i32⟩
  | 58 => ⟨S400000, .i32⟩
  | 59 => ⟨S400000, .i32⟩
  | 60 => ⟨S400000x1, .i32⟩
  | 61 => ⟨S400000x78, .f32⟩
  | 62 => ⟨S400000x78, .f32⟩
  | 63 => ⟨S400000x78, .f32⟩
  | 64 => ⟨S_, .f32⟩
  | 65 => ⟨S100000x78, .f32⟩
  | 66 => ⟨S400000x1, .i32⟩
  | 67 => ⟨S100000x78, .f32⟩
  | 68 => ⟨S100000, .f32⟩
  | 69 => ⟨S100000x1, .f32⟩
  | 70 => ⟨S100000x78, .f32⟩
  | 71 => ⟨S100000x78, .f32⟩
  | 72 => ⟨S100000x78, .f32⟩
  | 73 => ⟨S1x78, .f32⟩
  | 74 => ⟨S100000x78, .f32⟩
  | 75 => ⟨S100000x78, .f32⟩
  | 76 => ⟨S_, .f32⟩
  | 77 => ⟨S100000x78, .f32⟩
  | 78 => ⟨S100000x78, .f32⟩
  | 79 => ⟨S100000x156, .f32⟩
  | 80 => ⟨S_, .i32⟩
  | 81 => ⟨S400000, .i32⟩
  | 82 => ⟨S400000, .i1⟩
  | 83 => ⟨S_, .i32⟩
  | 84 => ⟨S400000, .i32⟩
  | 85 => ⟨S400000, .i32⟩
  | 86 => ⟨S400000, .i32⟩
  | 87 => ⟨S400000x1, .i32⟩
  | 88 => ⟨S400000, .f32⟩
  | 89 => ⟨S_, .i32⟩
  | 90 => ⟨S400000, .i32⟩
  | 91 => ⟨S400000, .i1⟩
  | 92 => ⟨S_, .i32⟩
  | 93 => ⟨S400000, .i32⟩
  | 94 => ⟨S400000, .i32⟩
  | 95 => ⟨S400000, .i32⟩
  | 96 => ⟨S400000x1, .i32⟩
  | 97 => ⟨S400000, .f32⟩
  | 98 => ⟨S400000, .f32⟩
  | 99 => ⟨S400000x1, .f32⟩
  | 100 => ⟨S_, .i32⟩
  | 101 => ⟨S400000, .i32⟩
  | 102 => ⟨S400000, .i1⟩
  | 103 => ⟨S_, .i32⟩
  | 104 => ⟨S400000, .i32⟩
  | 105 => ⟨S400000, .i32⟩
  | 106 => ⟨S400000, .i32⟩
  | 107 => ⟨S400000x1, .i32⟩
  | 108 => ⟨S400000x156, .f32⟩
  | 109 => ⟨S400000x156, .f32⟩
  | 110 => ⟨S400000x156, .f32⟩
  | 111 => ⟨S_, .f32⟩
  | 112 => ⟨S100000x156, .f32⟩
  | 113 => ⟨S400000x1, .i32⟩
  | 114 => ⟨S100000x156, .f32⟩
  | 115 => ⟨S100000, .f32⟩
  | 116 => ⟨S100000x1, .f32⟩
  | 117 => ⟨S100000x156, .f32⟩
  | 118 => ⟨S100000x156, .f32⟩
  | 119 => ⟨S100000x156, .f32⟩
  | 120 => ⟨S1x156, .f32⟩
  | 121 => ⟨S100000x156, .f32⟩
  | 122 => ⟨S100000x156, .f32⟩
  | 123 => ⟨S_, .f32⟩
  | 124 => ⟨S100000x156, .f32⟩
  | 125 => ⟨S100000x156, .f32⟩
  | 126 => ⟨S100000x312, .f32⟩
  | 127 => ⟨S_, .i32⟩
  | _ => ⟨S100000x78, .f32⟩

abbrev hbmTy0_1 (i : Nat) : BufTy := match i % 128 with
  | 0 => ⟨S400000, .i32⟩
  | 1 => ⟨S400000, .i1⟩
  | 2 => ⟨S_, .i32⟩
  | 3 => ⟨S400000, .i32⟩
  | 4 => ⟨S400000, .i32⟩
  | 5 => ⟨S400000, .i32⟩
  | 6 => ⟨S400000x1, .i32⟩
  | 7 => ⟨S400000, .f32⟩
  | 8 => ⟨S_, .i32⟩
  | 9 => ⟨S400000, .i32⟩
  | 10 => ⟨S400000, .i1⟩
  | 11 => ⟨S_, .i32⟩
  | 12 => ⟨S400000, .i32⟩
  | 13 => ⟨S400000, .i32⟩
  | 14 => ⟨S400000, .i32⟩
  | 15 => ⟨S400000x1, .i32⟩
  | 16 => ⟨S400000, .f32⟩
  | 17 => ⟨S400000, .f32⟩
  | 18 => ⟨S400000x1, .f32⟩
  | 19 => ⟨S_, .i32⟩
  | 20 => ⟨S400000, .i32⟩
  | 21 => ⟨S400000, .i1⟩
  | 22 => ⟨S_, .i32⟩
  | 23 => ⟨S400000, .i32⟩
  | 24 => ⟨S400000, .i32⟩
  | 25 => ⟨S400000, .i32⟩
  | 26 => ⟨S400000x1, .i32⟩
  | 27 => ⟨S400000x312, .f32⟩
  | 28 => ⟨S400000x312, .f32⟩
  | 29 => ⟨S400000x312, .f32⟩
  | 30 => ⟨S_, .f32⟩
  | 31 => ⟨S100000x312, .f32⟩
  | 32 => ⟨S400000x1, .i32⟩
  | 33 => ⟨S100000x312, .f32⟩
  | 34 => ⟨S100000, .f32⟩
  | 35 => ⟨S100000x1, .f32⟩
  | 36 => ⟨S100000x312, .f32⟩
  | 37 => ⟨S100000x312, .f32⟩
  | 38 => ⟨S100000x312, .f32⟩
  | 39 => ⟨S1x312, .f32⟩
  | 40 => ⟨S100000x312, .f32⟩
  | 41 => ⟨S100000x312, .f32⟩
  | 42 => ⟨S_, .f32⟩
  | 43 => ⟨S100000x312, .f32⟩
  | 44 => ⟨S100000x312, .f32⟩
  | 45 => ⟨S_, .f32⟩
  | 46 => ⟨S4096x312, .f32⟩
  | 47 => ⟨S100000x1, .i32⟩
  | 48 => ⟨S4096x312, .f32⟩
  | 49 => ⟨S_, .f32⟩
  | 50 => ⟨S100000, .f32⟩
  | 51 => ⟨S_, .f32⟩
  | 52 => ⟨S4096, .f32⟩
  | 53 => ⟨S100000x1, .i32⟩
  | 54 => ⟨S4096, .f32⟩
  | 55 => ⟨S_, .f32⟩
  | 56 => ⟨S4096, .f32⟩
  | 57 => ⟨S4096, .f32⟩
  | 58 => ⟨S4096x1, .f32⟩
  | 59 => ⟨S4096x312, .f32⟩
  | 60 => ⟨S4096x312, .f32⟩
  | 61 => ⟨S4096x312, .f32⟩
  | 62 => ⟨S1x312, .f32⟩
  | 63 => ⟨S4096x312, .f32⟩
  | 64 => ⟨S4096x312, .f32⟩
  | 65 => ⟨S4096x624, .f32⟩
  | 66 => ⟨S4096x1, .f32⟩
  | 67 => ⟨S1x1, .f32⟩
  | 68 => ⟨S4096x1, .f32⟩
  | 69 => ⟨S4096x1, .f32⟩
  | 70 => ⟨S4096x1, .f32⟩
  | 71 => ⟨S4096x1, .f32⟩
  | 72 => ⟨S_, .f32⟩
  | 73 => ⟨S4096x1, .f32⟩
  | 74 => ⟨S4096x1, .f32⟩
  | 75 => ⟨S_, .f32⟩
  | 76 => ⟨S4096x1, .f32⟩
  | 77 => ⟨S4096x1, .f32⟩
  | 78 => ⟨S4096x312, .f32⟩
  | 79 => ⟨S4096x312, .f32⟩
  | 80 => ⟨S_, .f32⟩
  | 81 => ⟨S4096x1, .f32⟩
  | 82 => ⟨S4096x1, .f32⟩
  | 83 => ⟨S4096x312, .f32⟩
  | 84 => ⟨S4096x312, .f32⟩
  | 85 => ⟨S4096x312, .f32⟩
  | 86 => ⟨S4096x1024, .f32⟩
  | 87 => ⟨S1x1024, .f32⟩
  | 88 => ⟨S4096x1024, .f32⟩
  | 89 => ⟨S4096x1024, .f32⟩
  | 90 => ⟨S_, .f32⟩
  | 91 => ⟨S4096x1024, .f32⟩
  | 92 => ⟨S4096x1024, .f32⟩
  | 93 => ⟨S4096x128, .f32⟩
  | 94 => ⟨S1x128, .f32⟩
  | 95 => ⟨S4096x128, .f32⟩
  | 96 => ⟨S4096x128, .f32⟩
  | _ => ⟨S100000x78, .f32⟩

abbrev hbmTy (i : Nat) : BufTy := match i / 128 with
  | 0 => hbmTy0_0 i
  | 1 => hbmTy0_1 i
  | _ => ⟨S100000x78, .f32⟩

abbrev bufTy : (tb : Table) → Fin (tcTables nBuf tb) → BufTy
  | .hbm, ⟨i, _⟩ => hbmTy i
  | _, _ => ⟨S100000x78, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst : Ref sig .tc := ⟨.hbm, 22, rfl⟩
abbrev main_v4 : Ref sig .tc := ⟨.hbm, 23, rfl⟩
abbrev main_cst_0 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_cst_1 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_c : Ref sig .tc := ⟨.hbm, 33, rfl⟩
abbrev main_v12 : Ref sig .tc := ⟨.hbm, 34, rfl⟩
abbrev main_v13 : Ref sig .tc := ⟨.hbm, 35, rfl⟩
abbrev main_c_2 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_c_3 : Ref sig .tc := ⟨.hbm, 42, rfl⟩
abbrev main_v19 : Ref sig .tc := ⟨.hbm, 43, rfl⟩
abbrev main_v20 : Ref sig .tc := ⟨.hbm, 44, rfl⟩
abbrev main_c_4 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_c_5 : Ref sig .tc := ⟨.hbm, 53, rfl⟩
abbrev main_v28 : Ref sig .tc := ⟨.hbm, 54, rfl⟩
abbrev main_v29 : Ref sig .tc := ⟨.hbm, 55, rfl⟩
abbrev main_c_6 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_cst_7 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_call0_cst : Ref sig .tc := ⟨.hbm, 76, rfl⟩
abbrev main_call0_v0 : Ref sig .tc := ⟨.hbm, 77, rfl⟩
abbrev main_v48 : Ref sig .tc := ⟨.hbm, 78, rfl⟩
abbrev main_v49 : Ref sig .tc := ⟨.hbm, 79, rfl⟩
abbrev main_c_8 : Ref sig .tc := ⟨.hbm, 80, rfl⟩
abbrev main_v50 : Ref sig .tc := ⟨.hbm, 81, rfl⟩
abbrev main_v51 : Ref sig .tc := ⟨.hbm, 82, rfl⟩
abbrev main_c_9 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_c_10 : Ref sig .tc := ⟨.hbm, 89, rfl⟩
abbrev main_v57 : Ref sig .tc := ⟨.hbm, 90, rfl⟩
abbrev main_v58 : Ref sig .tc := ⟨.hbm, 91, rfl⟩
abbrev main_c_11 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_c_12 : Ref sig .tc := ⟨.hbm, 100, rfl⟩
abbrev main_v66 : Ref sig .tc := ⟨.hbm, 101, rfl⟩
abbrev main_v67 : Ref sig .tc := ⟨.hbm, 102, rfl⟩
abbrev main_c_13 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_cst_14 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_call1_cst : Ref sig .tc := ⟨.hbm, 123, rfl⟩
abbrev main_call1_v0 : Ref sig .tc := ⟨.hbm, 124, rfl⟩
abbrev main_v86 : Ref sig .tc := ⟨.hbm, 125, rfl⟩
abbrev main_v87 : Ref sig .tc := ⟨.hbm, 126, rfl⟩
abbrev main_c_15 : Ref sig .tc := ⟨.hbm, 127, rfl⟩
abbrev main_v88 : Ref sig .tc := ⟨.hbm, 128, rfl⟩
abbrev main_v89 : Ref sig .tc := ⟨.hbm, 129, rfl⟩
abbrev main_c_16 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_c_17 : Ref sig .tc := ⟨.hbm, 136, rfl⟩
abbrev main_v95 : Ref sig .tc := ⟨.hbm, 137, rfl⟩
abbrev main_v96 : Ref sig .tc := ⟨.hbm, 138, rfl⟩
abbrev main_c_18 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_c_19 : Ref sig .tc := ⟨.hbm, 147, rfl⟩
abbrev main_v104 : Ref sig .tc := ⟨.hbm, 148, rfl⟩
abbrev main_v105 : Ref sig .tc := ⟨.hbm, 149, rfl⟩
abbrev main_c_20 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_cst_21 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_call2_cst : Ref sig .tc := ⟨.hbm, 170, rfl⟩
abbrev main_call2_v0 : Ref sig .tc := ⟨.hbm, 171, rfl⟩
abbrev main_v124 : Ref sig .tc := ⟨.hbm, 172, rfl⟩
abbrev main_cst_22 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_cst_23 : Ref sig .tc := ⟨.hbm, 177, rfl⟩
abbrev main_v128 : Ref sig .tc := ⟨.hbm, 178, rfl⟩
abbrev main_cst_24 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_cst_25 : Ref sig .tc := ⟨.hbm, 183, rfl⟩
abbrev main_v132 : Ref sig .tc := ⟨.hbm, 184, rfl⟩
abbrev main_v133 : Ref sig .tc := ⟨.hbm, 185, rfl⟩
abbrev main_v134 : Ref sig .tc := ⟨.hbm, 186, rfl⟩
abbrev main_v135 : Ref sig .tc := ⟨.hbm, 187, rfl⟩
abbrev main_v136 : Ref sig .tc := ⟨.hbm, 188, rfl⟩
abbrev main_v137 : Ref sig .tc := ⟨.hbm, 189, rfl⟩
abbrev main_v138 : Ref sig .tc := ⟨.hbm, 190, rfl⟩
abbrev main_v139 : Ref sig .tc := ⟨.hbm, 191, rfl⟩
abbrev main_v140 : Ref sig .tc := ⟨.hbm, 192, rfl⟩
abbrev main_v141 : Ref sig .tc := ⟨.hbm, 193, rfl⟩
abbrev main_v142 : Ref sig .tc := ⟨.hbm, 194, rfl⟩
abbrev main_v143 : Ref sig .tc := ⟨.hbm, 195, rfl⟩
abbrev main_v144 : Ref sig .tc := ⟨.hbm, 196, rfl⟩
abbrev main_v145 : Ref sig .tc := ⟨.hbm, 197, rfl⟩
abbrev main_v146 : Ref sig .tc := ⟨.hbm, 198, rfl⟩
abbrev main_v147 : Ref sig .tc := ⟨.hbm, 199, rfl⟩
abbrev main_cst_26 : Ref sig .tc := ⟨.hbm, 200, rfl⟩
abbrev main_v148 : Ref sig .tc := ⟨.hbm, 201, rfl⟩
abbrev main_v149 : Ref sig .tc := ⟨.hbm, 202, rfl⟩
abbrev main_cst_27 : Ref sig .tc := ⟨.hbm, 203, rfl⟩
abbrev main_v150 : Ref sig .tc := ⟨.hbm, 204, rfl⟩
abbrev main_v151 : Ref sig .tc := ⟨.hbm, 205, rfl⟩
abbrev main_v152 : Ref sig .tc := ⟨.hbm, 206, rfl⟩
abbrev main_v153 : Ref sig .tc := ⟨.hbm, 207, rfl⟩
abbrev main_cst_28 : Ref sig .tc := ⟨.hbm, 208, rfl⟩
abbrev main_v154 : Ref sig .tc := ⟨.hbm, 209, rfl⟩
abbrev main_v155 : Ref sig .tc := ⟨.hbm, 210, rfl⟩
abbrev main_v156 : Ref sig .tc := ⟨.hbm, 211, rfl⟩
abbrev main_v157 : Ref sig .tc := ⟨.hbm, 212, rfl⟩
abbrev main_v158 : Ref sig .tc := ⟨.hbm, 213, rfl⟩
abbrev main_v159 : Ref sig .tc := ⟨.hbm, 214, rfl⟩
abbrev main_v160 : Ref sig .tc := ⟨.hbm, 215, rfl⟩
abbrev main_v161 : Ref sig .tc := ⟨.hbm, 216, rfl⟩
abbrev main_v162 : Ref sig .tc := ⟨.hbm, 217, rfl⟩
abbrev main_call3_cst : Ref sig .tc := ⟨.hbm, 218, rfl⟩
abbrev main_call3_v0 : Ref sig .tc := ⟨.hbm, 219, rfl⟩
abbrev main_v163 : Ref sig .tc := ⟨.hbm, 220, rfl⟩
abbrev main_v164 : Ref sig .tc := ⟨.hbm, 221, rfl⟩
abbrev main_v165 : Ref sig .tc := ⟨.hbm, 222, rfl⟩
abbrev main_v166 : Ref sig .tc := ⟨.hbm, 223, rfl⟩
abbrev main_v167 : Ref sig .tc := ⟨.hbm, 224, rfl⟩

abbrev nD : Nat := 1
abbrev τ : Topo := Topo.v7x

variable {F : FTy → Type} [FloatOps F]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S_S100000 : S_.BroadcastsInDim S100000 (![] : Fin 0 → Fin S100000.rank)
  bcast_S400000_S400000x1_0 : S400000.BroadcastsInDim S400000x1 (![0] : Fin 1 → Fin S400000x1.rank)
  bcast_S400000x1_S400000x78_0_1 : S400000x1.BroadcastsInDim S400000x78 (![0, 1] : Fin 2 → Fin S400000x78.rank)
  bcast_S_S100000x78 : S_.BroadcastsInDim S100000x78 (![] : Fin 0 → Fin S100000x78.rank)
  bcast_S100000_S100000x1_0 : S100000.BroadcastsInDim S100000x1 (![0] : Fin 1 → Fin S100000x1.rank)
  bcast_S100000x1_S100000x78_0_1 : S100000x1.BroadcastsInDim S100000x78 (![0, 1] : Fin 2 → Fin S100000x78.rank)
  bcast_S78_S1x78_1 : S78.BroadcastsInDim S1x78 (![1] : Fin 1 → Fin S1x78.rank)
  bcast_S1x78_S100000x78_0_1 : S1x78.BroadcastsInDim S100000x78 (![0, 1] : Fin 2 → Fin S100000x78.rank)
  bcast_S400000x1_S400000x156_0_1 : S400000x1.BroadcastsInDim S400000x156 (![0, 1] : Fin 2 → Fin S400000x156.rank)
  bcast_S_S100000x156 : S_.BroadcastsInDim S100000x156 (![] : Fin 0 → Fin S100000x156.rank)
  bcast_S100000x1_S100000x156_0_1 : S100000x1.BroadcastsInDim S100000x156 (![0, 1] : Fin 2 → Fin S100000x156.rank)
  bcast_S156_S1x156_1 : S156.BroadcastsInDim S1x156 (![1] : Fin 1 → Fin S1x156.rank)
  bcast_S1x156_S100000x156_0_1 : S1x156.BroadcastsInDim S100000x156 (![0, 1] : Fin 2 → Fin S100000x156.rank)
  bcast_S400000x1_S400000x312_0_1 : S400000x1.BroadcastsInDim S400000x312 (![0, 1] : Fin 2 → Fin S400000x312.rank)
  bcast_S_S100000x312 : S_.BroadcastsInDim S100000x312 (![] : Fin 0 → Fin S100000x312.rank)
  bcast_S100000x1_S100000x312_0_1 : S100000x1.BroadcastsInDim S100000x312 (![0, 1] : Fin 2 → Fin S100000x312.rank)
  bcast_S312_S1x312_1 : S312.BroadcastsInDim S1x312 (![1] : Fin 1 → Fin S1x312.rank)
  bcast_S1x312_S100000x312_0_1 : S1x312.BroadcastsInDim S100000x312 (![0, 1] : Fin 2 → Fin S100000x312.rank)
  bcast_S_S4096x312 : S_.BroadcastsInDim S4096x312 (![] : Fin 0 → Fin S4096x312.rank)
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x312_0_1 : S4096x1.BroadcastsInDim S4096x312 (![0, 1] : Fin 2 → Fin S4096x312.rank)
  bcast_S1x312_S4096x312_0_1 : S1x312.BroadcastsInDim S4096x312 (![0, 1] : Fin 2 → Fin S4096x312.rank)
  concatenates_S4096x312_S4096x312_S4096x624_d1 : Shape.Concatenates [S4096x312, S4096x312] S4096x624 1
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  bcast_S_S4096x1 : S_.BroadcastsInDim S4096x1 (![] : Fin 0 → Fin S4096x1.rank)
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  bcast_S_S4096x1024 : S_.BroadcastsInDim S4096x1024 (![] : Fin 0 → Fin S4096x1024.rank)
  bcast_S128_S1x128_1 : S128.BroadcastsInDim S1x128 (![1] : Fin 1 → Fin S1x128.rank)
  bcast_S1x128_S4096x128_0_1 : S1x128.BroadcastsInDim S4096x128 (![0, 1] : Fin 2 → Fin S4096x128.rank)
  scatter_S100000_S400000x1_S400000_n_0_0_1_wf : ScatterDims.WF S100000 S400000x1 S400000 [] [0] [0] 1
  dot_S100000x78_S78x78_S100000x78_1_0_0_1_n_n_wf : DotDims.WF S100000x78 S78x78 S100000x78 [1] [0] [0] [1] [] []
  gather_S100000_S400000x1_S400000_n_0_n_n_0_1_1_wf : GatherDims.WF S100000 S400000x1 S400000 [] [0] [] [0] [] 1 ![1]
  gather_S100000x78_S400000x1_S400000x78_1_0_n_n_0_1_178_wf : GatherDims.WF S100000x78 S400000x1 S400000x78 [1] [0] [] [0] [] 1 ![1, 78]
  scatter_S100000x78_S400000x1_S400000x78_1_0_0_1_wf : ScatterDims.WF S100000x78 S400000x1 S400000x78 [1] [0] [0] 1
  dot_S100000x78_S78x156_S100000x156_1_0_0_1_n_n_wf : DotDims.WF S100000x78 S78x156 S100000x156 [1] [0] [0] [1] [] []
  gather_S100000x156_S400000x1_S400000x156_1_0_n_n_0_1_1156_wf : GatherDims.WF S100000x156 S400000x1 S400000x156 [1] [0] [] [0] [] 1 ![1, 156]
  scatter_S100000x156_S400000x1_S400000x156_1_0_0_1_wf : ScatterDims.WF S100000x156 S400000x1 S400000x156 [1] [0] [0] 1
  dot_S100000x156_S156x312_S100000x312_1_0_0_1_n_n_wf : DotDims.WF S100000x156 S156x312 S100000x312 [1] [0] [0] [1] [] []
  gather_S100000x312_S400000x1_S400000x312_1_0_n_n_0_1_1312_wf : GatherDims.WF S100000x312 S400000x1 S400000x312 [1] [0] [] [0] [] 1 ![1, 312]
  scatter_S100000x312_S400000x1_S400000x312_1_0_0_1_wf : ScatterDims.WF S100000x312 S400000x1 S400000x312 [1] [0] [0] 1
  scatter_S4096x312_S100000x1_S100000x312_1_0_0_1_wf : ScatterDims.WF S4096x312 S100000x1 S100000x312 [1] [0] [0] 1
  scatter_S4096_S100000x1_S100000_n_0_0_1_wf : ScatterDims.WF S4096 S100000x1 S100000 [] [0] [0] 1
  dot_S4096x128_S128x312_S4096x312_1_0_0_1_n_n_wf : DotDims.WF S4096x128 S128x312 S4096x312 [1] [0] [0] [1] [] []
  dot_S4096x624_S624x1_S4096x1_1_0_0_1_n_n_wf : DotDims.WF S4096x624 S624x1 S4096x1 [1] [0] [0] [1] [] []
  dot_S4096x312_S312x1024_S4096x1024_1_0_0_1_n_n_wf : DotDims.WF S4096x312 S312x1024 S4096x1024 [1] [0] [0] [1] [] []
  dot_S4096x1024_S1024x128_S4096x128_1_0_0_1_n_n_wf : DotDims.WF S4096x1024 S1024x128 S4096x128 [1] [0] [0] [1] [] []

variable [Facts₀]

def scatter_S100000_S400000x1_S400000_n_0_0_1 : ScatterDims S100000 S400000x1 S400000 where
  updateWindowDims := []
  insertedWindowDims := [0]
  scatterDimsToOperandDims := [0]
  indexVectorDim := 1
  wf := scatter_S100000_S400000x1_S400000_n_0_0_1_wf
def dot_S100000x78_S78x78_S100000x78_1_0_0_1_n_n : DotDims S100000x78 S78x78 S100000x78 where
  lhsContracting := [1]
  rhsContracting := [0]
  lhsNonContracting := [0]
  rhsNonContracting := [1]
  lhsBatch := []
  rhsBatch := []
  wf := dot_S100000x78_S78x78_S100000x78_1_0_0_1_n_n_wf
def gather_S100000_S400000x1_S400000_n_0_n_n_0_1_1 : GatherDims S100000 S400000x1 S400000 where
  offsetDims := []
  collapsedSliceDims := [0]
  operandBatchingDims := []
  startIndicesBatchingDims := []
  startIndexMap := [0]
  indexVectorDim := 1
  sliceSizes := ![1]
  wf := gather_S100000_S400000x1_S400000_n_0_n_n_0_1_1_wf
def gather_S100000x78_S400000x1_S400000x78_1_0_n_n_0_1_178 : GatherDims S100000x78 S400000x1 S400000x78 where
  offsetDims := [1]
  collapsedSliceDims := [0]
  operandBatchingDims := []
  startIndicesBatchingDims := []
  startIndexMap := [0]
  indexVectorDim := 1
  sliceSizes := ![1, 78]
  wf := gather_S100000x78_S400000x1_S400000x78_1_0_n_n_0_1_178_wf
def scatter_S100000x78_S400000x1_S400000x78_1_0_0_1 : ScatterDims S100000x78 S400000x1 S400000x78 where
  updateWindowDims := [1]
  insertedWindowDims := [0]
  scatterDimsToOperandDims := [0]
  indexVectorDim := 1
  wf := scatter_S100000x78_S400000x1_S400000x78_1_0_0_1_wf
def dot_S100000x78_S78x156_S100000x156_1_0_0_1_n_n : DotDims S100000x78 S78x156 S100000x156 where
  lhsContracting := [1]
  rhsContracting := [0]
  lhsNonContracting := [0]
  rhsNonContracting := [1]
  lhsBatch := []
  rhsBatch := []
  wf := dot_S100000x78_S78x156_S100000x156_1_0_0_1_n_n_wf
def gather_S100000x156_S400000x1_S400000x156_1_0_n_n_0_1_1156 : GatherDims S100000x156 S400000x1 S400000x156 where
  offsetDims := [1]
  collapsedSliceDims := [0]
  operandBatchingDims := []
  startIndicesBatchingDims := []
  startIndexMap := [0]
  indexVectorDim := 1
  sliceSizes := ![1, 156]
  wf := gather_S100000x156_S400000x1_S400000x156_1_0_n_n_0_1_1156_wf
def scatter_S100000x156_S400000x1_S400000x156_1_0_0_1 : ScatterDims S100000x156 S400000x1 S400000x156 where
  updateWindowDims := [1]
  insertedWindowDims := [0]
  scatterDimsToOperandDims := [0]
  indexVectorDim := 1
  wf := scatter_S100000x156_S400000x1_S400000x156_1_0_0_1_wf
def dot_S100000x156_S156x312_S100000x312_1_0_0_1_n_n : DotDims S100000x156 S156x312 S100000x312 where
  lhsContracting := [1]
  rhsContracting := [0]
  lhsNonContracting := [0]
  rhsNonContracting := [1]
  lhsBatch := []
  rhsBatch := []
  wf := dot_S100000x156_S156x312_S100000x312_1_0_0_1_n_n_wf
def gather_S100000x312_S400000x1_S400000x312_1_0_n_n_0_1_1312 : GatherDims S100000x312 S400000x1 S400000x312 where
  offsetDims := [1]
  collapsedSliceDims := [0]
  operandBatchingDims := []
  startIndicesBatchingDims := []
  startIndexMap := [0]
  indexVectorDim := 1
  sliceSizes := ![1, 312]
  wf := gather_S100000x312_S400000x1_S400000x312_1_0_n_n_0_1_1312_wf
def scatter_S100000x312_S400000x1_S400000x312_1_0_0_1 : ScatterDims S100000x312 S400000x1 S400000x312 where
  updateWindowDims := [1]
  insertedWindowDims := [0]
  scatterDimsToOperandDims := [0]
  indexVectorDim := 1
  wf := scatter_S100000x312_S400000x1_S400000x312_1_0_0_1_wf
def scatter_S4096x312_S100000x1_S100000x312_1_0_0_1 : ScatterDims S4096x312 S100000x1 S100000x312 where
  updateWindowDims := [1]
  insertedWindowDims := [0]
  scatterDimsToOperandDims := [0]
  indexVectorDim := 1
  wf := scatter_S4096x312_S100000x1_S100000x312_1_0_0_1_wf
def scatter_S4096_S100000x1_S100000_n_0_0_1 : ScatterDims S4096 S100000x1 S100000 where
  updateWindowDims := []
  insertedWindowDims := [0]
  scatterDimsToOperandDims := [0]
  indexVectorDim := 1
  wf := scatter_S4096_S100000x1_S100000_n_0_0_1_wf
def dot_S4096x128_S128x312_S4096x312_1_0_0_1_n_n : DotDims S4096x128 S128x312 S4096x312 where
  lhsContracting := [1]
  rhsContracting := [0]
  lhsNonContracting := [0]
  rhsNonContracting := [1]
  lhsBatch := []
  rhsBatch := []
  wf := dot_S4096x128_S128x312_S4096x312_1_0_0_1_n_n_wf
def dot_S4096x624_S624x1_S4096x1_1_0_0_1_n_n : DotDims S4096x624 S624x1 S4096x1 where
  lhsContracting := [1]
  rhsContracting := [0]
  lhsNonContracting := [0]
  rhsNonContracting := [1]
  lhsBatch := []
  rhsBatch := []
  wf := dot_S4096x624_S624x1_S4096x1_1_0_0_1_n_n_wf
def dot_S4096x312_S312x1024_S4096x1024_1_0_0_1_n_n : DotDims S4096x312 S312x1024 S4096x1024 where
  lhsContracting := [1]
  rhsContracting := [0]
  lhsNonContracting := [0]
  rhsNonContracting := [1]
  lhsBatch := []
  rhsBatch := []
  wf := dot_S4096x312_S312x1024_S4096x1024_1_0_0_1_n_n_wf
def dot_S4096x1024_S1024x128_S4096x128_1_0_0_1_n_n : DotDims S4096x1024 S1024x128 S4096x128 where
  lhsContracting := [1]
  rhsContracting := [0]
  lhsNonContracting := [0]
  rhsNonContracting := [1]
  lhsBatch := []
  rhsBatch := []
  wf := dot_S4096x1024_S1024x128_S4096x128_1_0_0_1_n_n_wf

class Facts : Prop extends Facts₀ where

variable [Facts]
-- ==== Proof.RefRun.lean ====
/-
  The reference's run and its stage-by-stage reading, brought into scope for the bridge modules.
-/
import proofs.«150209_j12326556139995_1_alg».proof.Proof.Gen.ReferenceIdeal.Run
import proofs.«150209_j12326556139995_1_alg».proof.Proof.Gen.ReferenceIdeal.Read
-- ==== Proof.KRun.lean ====
/-
  The idealized kernel's run, keeping the result.

  @main is twelve segments: five stretches of host operations and seven kernel regions.  The buffer contents at every
  segment boundary are a fold from the launch memory (a stretch applies its operations; a region leaves each of its
  arrays at what its write-backs produce and every other buffer as entered).  Every weakly fair execution terminates
  without a fault in a state whose unscoped buffers hold the LAST boundary's contents; so the result buffer ends at the
  last boundary's contents read at that buffer, and each argument array ends as launched.  The statement is the frame's
  with one more conjunct: the result buffer's final contents, by name.
-/
import proofs.«150209_j12326556139995_1_alg».proof.Proof.Gen.KernelIdeal.Frame

set_option maxRecDepth 16384

noncomputable section

namespace Cert.KernelIdeal.RunOut

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the implicit arguments of the several-segments run theorem are found by unifying its conclusion with this one,
-- which takes unfolding plain definitions in a metavariable's type
set_option backward.isDefEq.respectTransparency.types false in
/-- Every weakly fair execution of @main terminates, nothing faulting; the result buffer ends at the last boundary's
    contents and every argument array as launched. -/
theorem run_out : θ_run defs (onTc (τ := τ) (main (F := F))) ⟨m, fun _ => 0, ρ⟩ (fun r => ∀ c : Dev nD,
      r.2.mem ((c.tc : Thread nD τ).loc main_v85) = W12 m ρ c (Proc.devRef .tc main_v85)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v85 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c),
       (h c _ (mem_uc main_arg12 (by decide))).trans (W12_main_arg12 m ρ c),
       (h c _ (mem_uc main_arg13 (by decide))).trans (W12_main_arg13 m ρ c),
       (h c _ (mem_uc main_arg14 (by decide))).trans (W12_main_arg14 m ρ c),
       (h c _ (mem_uc main_arg15 (by decide))).trans (W12_main_arg15 m ρ c),
       (h c _ (mem_uc main_arg16 (by decide))).trans (W12_main_arg16 m ρ c),
       (h c _ (mem_uc main_arg17 (by decide))).trans (W12_main_arg17 m ρ c)⟩)

end Cert.KernelIdeal.RunOut

end
-- ==== Proof.LibKeepdims.lean ====
/-
  Rank-2 vectors with a kept column, read at an index: the cast of a length-`a` vector to a column [a, 1], the
  broadcast of a column [a, 1] along the rows of [a, b], and the sum and the maximum of each row of an [a, b]
  vector over the extended reals.  Each says which ONE operand entry (or which row of entries) a result entry reads.
-/
import Idealize.ShloMosaic.Lib.Pipeline.Value
import Idealize.ShloMosaic.Lib.ValueIdx
import Idealize.ShloMosaic.PureOps.Ideal.Laws

noncomputable section

namespace Cert.LibKeepdims

open Idealize.ShloMosaic Idealize.ShloMosaic.ValueIdx

variable {α : Type} {a b : ℕ}

/-- Entry `(n, 0)` of the column cast of a vector is the vector's entry `n`: both sit at row-major position `n`. -/
theorem shapeCast_col_apply (x : (⟨1, ![a]⟩ : Shape).Idx → α) (h : (⟨1, ![a]⟩ : Shape).ShapeCasts ⟨2, ![a, 1]⟩) (n : Fin a) :
    shapeCast ⟨2, ![a, 1]⟩ x h (ix2 n (0 : Fin 1)) = x (ix1 n) :=
  shapeCast_apply x h (ix2 n (0 : Fin 1)) (ix1 n) (by
    rw [Shape.rowMajor_val_one, Shape.rowMajor_val_two]
    show n.val = n.val * 1 + 0
    omega)

/-- Entry `(n, d)` of a column broadcast along the rows is the column's entry `(n, 0)`. -/
theorem broadcastTo_col_apply (x : (⟨2, ![a, 1]⟩ : Shape).Idx → α) (h : (⟨2, ![a, 1]⟩ : Shape).Broadcasts ⟨2, ![a, b]⟩)
    (n : Fin a) (d : Fin b) : broadcastTo ⟨2, ![a, b]⟩ x h (ix2 n d) = x (ix2 n (0 : Fin 1)) :=
  broadcastTo_apply x h (ix2 n d) (ix2 n (0 : Fin 1)) (fun k => by
    match k with
    | ⟨0, _⟩ =>
      show n.val = if a = 1 then 0 else n.val
      have := n.isLt
      split <;> omega
    | ⟨1, _⟩ => rfl)

/-- The reduced index `n` of a row reduction with the column `k` put back is `(n, k)`. -/
theorem lift_row (h : (⟨2, ![a, b]⟩ : Shape).Reduces [1] ⟨1, ![a]⟩) (n : Fin a) (k : Fin b) :
    h.lift (ix1 n) k = ix2 n k := by
  funext c; apply Fin.ext
  fin_cases c <;> rfl

variable {φ : FTy}

/-- A row sum at row `n` is the sum of that row's entries. -/
theorem rowsum_apply (src : FVec Ideal ⟨2, ![a, b]⟩ φ) (acc : BitVec φ.bits) (h : (⟨2, ![a, b]⟩ : Shape).Reduces [1] ⟨1, ![a]⟩)
    (hφ : FKind.Formats φ) (hacc : acc = FKind.add.neutral φ hφ) (n : Fin a) :
    multiReduction .add [1] ⟨1, ![a]⟩ src acc h hφ hacc (ix1 n) = ∑ k : Fin b, src (ix2 n k) :=
  (Ideal.multiReduction_add_single src acc h hφ hacc (ix1 n)).trans
    (Finset.sum_congr rfl fun k _ => congrArg src (lift_row h n k))

/-- A row maximum at row `n` is the fold of `max` over that row's entries from the accumulator's value. -/
theorem rowmax_apply (src : FVec Ideal ⟨2, ![a, b]⟩ φ) (acc : BitVec φ.bits) (h : (⟨2, ![a, b]⟩ : Shape).Reduces [1] ⟨1, ![a]⟩)
    (hφ : FKind.Formats φ) (hacc : acc = FKind.maximumf.neutral φ hφ) (n : Fin a) :
    multiReduction .maximumf [1] ⟨1, ![a]⟩ src acc h hφ hacc (ix1 n)
      = (Finset.univ : Finset (Fin b)).fold max (Ideal.ofBits φ acc) (fun k => src (ix2 n k)) :=
  (Ideal.multiReduction_maximumf_single src acc h hφ hacc (ix1 n)).trans
    (congrArg (fun f => (Finset.univ : Finset (Fin b)).fold max (Ideal.ofBits φ acc) f)
      (funext fun k => congrArg src (lift_row h n k)))

end Cert.LibKeepdims

end
-- ==== Proof.LibColForms.lean ====
/-
  A length-`n` vector made into a column [n, 1] in two ways — by a reshape, or by a broadcast that places the
  vector's axis on axis 0 of the column — is the same column: entry (r, 0) of either is the vector's entry r.
-/
import Idealize.ShloMosaic.Lib.Pipeline.Value
import Idealize.ShloMosaic.Lib.ValueIdx
import proofs.«150209_j12326556139995_1_alg».proof.Proof.LibKeepdims

noncomputable section

namespace Cert.LibColForms

open Idealize.ShloMosaic Idealize.ShloMosaic.ValueIdx

variable {α : Type} {n : ℕ}

/-- The column broadcast of a vector read at (r, 0) is the vector's entry r. -/
theorem broadcastInDim_col_apply (x : (⟨1, ![n]⟩ : Shape).Idx → α) (dims : Fin 1 → Fin 2) (hd : dims 0 = 0)
    (hb : (⟨1, ![n]⟩ : Shape).BroadcastsInDim ⟨2, ![n, 1]⟩ dims) (r : Fin n) :
    broadcastInDim ⟨2, ![n, 1]⟩ dims hb x (ix2 r (0 : Fin 1)) = x (ix1 r) :=
  broadcastInDim_apply dims hb x (ix2 r (0 : Fin 1)) (ix1 r) (fun a => by
    match a with
    | ⟨0, _⟩ =>
      show r.val = if n = 1 then 0 else ((ix2 r (0 : Fin 1)) (dims 0)).val
      rw [hd]
      show r.val = if n = 1 then 0 else r.val
      have := r.isLt
      split <;> omega)

/-- The reshape of a vector to a column is its column broadcast. -/
theorem shapeCast_col_eq_broadcastInDim (x : (⟨1, ![n]⟩ : Shape).Idx → α)
    (h : (⟨1, ![n]⟩ : Shape).ShapeCasts ⟨2, ![n, 1]⟩) (dims : Fin 1 → Fin 2) (hd : dims 0 = 0)
    (hb : (⟨1, ![n]⟩ : Shape).BroadcastsInDim ⟨2, ![n, 1]⟩ dims) :
    shapeCast ⟨2, ![n, 1]⟩ x h = broadcastInDim ⟨2, ![n, 1]⟩ dims hb x := by
  funext j
  obtain ⟨r, z, rfl⟩ : ∃ (r : Fin n) (z : Fin 1), j = ix2 r z := ⟨j 0, j 1, eq_ix2 j⟩
  obtain rfl : z = 0 := Subsingleton.elim _ _
  rw [Cert.LibKeepdims.shapeCast_col_apply, broadcastInDim_col_apply x dims hd hb r]

end Cert.LibColForms

end
-- ==== Proof.LibRowOps.lean ====
/-
  Three shape operations read at an index, for rank-2 vectors with a unit leading axis and for a plain matrix
  product: the cast of a length-`b` vector to a row [1, b], the broadcast of a row [1, b] down the rows of [a, b],
  and the product of an [m, k] by a [k, n] matrix accumulated into the zero splat, over the extended reals.
-/
import Idealize.ShloMosaic.Lib.Pipeline.Value
import Idealize.ShloMosaic.Lib.ValueIdx
import Idealize.ShloMosaic.PureOps.Ideal.Laws

noncomputable section

namespace Cert.KernelBody

open Idealize.ShloMosaic Idealize.ShloMosaic.ValueIdx

variable {α : Type} {a b : ℕ}

/-- Entry `(0, k)` of the row cast of a vector is the vector's entry `k`: both sit at row-major position `k`. -/
theorem shapeCast_row_apply (x : (⟨1, ![b]⟩ : Shape).Idx → α) (h : (⟨1, ![b]⟩ : Shape).ShapeCasts ⟨2, ![1, b]⟩) (k : Fin b) :
    shapeCast ⟨2, ![1, b]⟩ x h (ix2 (0 : Fin 1) k) = x (ix1 k) :=
  shapeCast_apply x h (ix2 (0 : Fin 1) k) (ix1 k) (by
    rw [Shape.rowMajor_val_one, Shape.rowMajor_val_two]
    show k.val = 0 * b + k.val
    omega)

/-- Entry `(n, k)` of a row broadcast down the rows is the row's entry `(0, k)`. -/
theorem broadcastTo_row_apply (x : (⟨2, ![1, b]⟩ : Shape).Idx → α) (h : (⟨2, ![1, b]⟩ : Shape).Broadcasts ⟨2, ![a, b]⟩)
    (n : Fin a) (k : Fin b) : broadcastTo ⟨2, ![a, b]⟩ x h (ix2 n k) = x (ix2 (0 : Fin 1) k) :=
  broadcastTo_apply x h (ix2 n k) (ix2 (0 : Fin 1) k) (fun c => by
    match c with
    | ⟨0, _⟩ => rfl
    | ⟨1, _⟩ =>
      show k.val = if b = 1 then 0 else k.val
      have := k.isLt
      split <;> omega)

/-- The product of an m×k by a k×n matrix (contracting the left operand's axis 1 with the right operand's axis 0)
    accumulated into the zero splat, read at `(r, c)`, is the sum over the contracted coordinate of the products of
    the entries. `w` is the record's well-formedness, which a program states. -/
theorem matmul_plain_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (r : Fin m) (c : Fin n) :
    matmul (⟨[1], [0], [0], [1], [], [], w⟩ : DotDims _ _ _) prec A B
        (constant (F := Ideal) ⟨2, ![m, n]⟩ .f32 0x00000000#32) (ix2 r c)
      = ∑ i : Fin k, A (ix2 r i) * B (ix2 i c) := by
  show FloatOps.matmul _ prec A B (constant (F := Ideal) ⟨2, ![m, n]⟩ .f32 0x00000000#32) (ix2 r c) = _
  rw [Ideal.matmul_constant_zero_apply,
    ← Equiv.sum_comp (contrEquiv1 (⟨[1], [0], [0], [1], [], [], w⟩ : DotDims _ _ _) k rfl rfl).symm]
  refine Finset.sum_congr rfl fun i _ => ?_
  have c2 := contrEquiv1_symm_val
    (⟨[1], [0], [0], [1], [], [], w⟩ : DotDims ⟨2, ![m, k]⟩ ⟨2, ![k, n]⟩ ⟨2, ![m, n]⟩) k rfl rfl i
  have l2 : (⟨[1], [0], [0], [1], [], [], w⟩ : DotDims ⟨2, ![m, k]⟩ ⟨2, ![k, n]⟩ ⟨2, ![m, n]⟩).lhsIdx (ix2 r c)
      ((contrEquiv1 _ k rfl rfl).symm i) = ix2 r i := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 r c)
      ((contrEquiv1 _ k rfl rfl).symm i) = ix2 i c := by
    funext ax; apply Fin.ext
    match ax with
    | ⟨0, _⟩ => simp [DotDims.rhsIdx]; exact c2
    | ⟨1, _⟩ => simp [DotDims.rhsIdx]; rfl
  rw [l2, r2]

end Cert.KernelBody

end
-- ==== Proof.LibHostDot.lean ====
/-
  A plain matrix product on the host, read at an index.  `jnp`'s `A @ B` of an m×k by a k×n matrix lowers to a
  `dot_general` contracting the left operand's axis 1 with the right operand's axis 0; over the extended reals its entry
  (r, c) is the sum over the contracted coordinate i of `A (r, i) · B (i, c)`, whatever the precision and schedule.
  The extents are arbitrary naturals; nothing here depends on a program.  The second form takes the record by name
  together with the equation that spells its fields, for a record a program declares as a definition.
-/
import Idealize.ShloMosaic.Lib.Pipeline.Value
import Idealize.ShloMosaic.Lib.ValueIdx
import Idealize.ShloMosaic.PureOps.Ideal.Laws

noncomputable section

open scoped BigOperators

namespace Cert.LibHostDot

open Idealize.ShloMosaic Idealize.ShloMosaic.ValueIdx

/-- The host's product of an m×k by a k×n matrix, read at (r, c): the sum over the contracted coordinate. -/
theorem dotGeneral_plain_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (r : Fin m) (c : Fin n) :
    Host.dotGeneral (⟨[1], [0], [0], [1], [], [], w⟩ : DotDims _ _ _) prec A B (ix2 r c)
      = ∑ i : Fin k, A (ix2 r i) * B (ix2 i c) := by
  simp only [Host.dotGeneral]
  rw [Ideal.dotGeneral_apply,
    ← Equiv.sum_comp (contrEquiv1 (⟨[1], [0], [0], [1], [], [], w⟩ : DotDims _ _ _) k rfl rfl).symm]
  refine Finset.sum_congr rfl fun i _ => ?_
  have c2 := contrEquiv1_symm_val
    (⟨[1], [0], [0], [1], [], [], w⟩ : DotDims ⟨2, ![m, k]⟩ ⟨2, ![k, n]⟩ ⟨2, ![m, n]⟩) k rfl rfl i
  have l2 : (⟨[1], [0], [0], [1], [], [], w⟩ : DotDims ⟨2, ![m, k]⟩ ⟨2, ![k, n]⟩ ⟨2, ![m, n]⟩).lhsIdx (ix2 r c)
      ((contrEquiv1 _ k rfl rfl).symm i) = ix2 r i := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 r c)
      ((contrEquiv1 _ k rfl rfl).symm i) = ix2 i c := by
    funext ax; apply Fin.ext
    match ax with
    | ⟨0, _⟩ => simp [DotDims.rhsIdx]; exact c2
    | ⟨1, _⟩ => simp [DotDims.rhsIdx]; rfl
  rw [l2, r2]

/-- The same for a record given by name, with the equation that spells it. -/
theorem dotGeneral_plain_apply' {m k n : ℕ} {φ₁ φ₂ : FTy}
    (d : DotDims ⟨2, ![m, k]⟩ ⟨2, ![k, n]⟩ ⟨2, ![m, n]⟩)
    (w : DotDims.WF ⟨2, ![m, k]⟩ ⟨2, ![k, n]⟩ ⟨2, ![m, n]⟩ [1] [0] [0] [1] [] [])
    (hd : d = ⟨[1], [0], [0], [1], [], [], w⟩)
    (prec : Option ContractPrecision) (A : FVec Ideal ⟨2, ![m, k]⟩ φ₁) (B : FVec Ideal ⟨2, ![k, n]⟩ φ₂)
    (r : Fin m) (c : Fin n) :
    Host.dotGeneral d prec A B (ix2 r c) = ∑ i : Fin k, A (ix2 r i) * B (ix2 i c) := by
  subst hd
  exact dotGeneral_plain_apply w prec A B r c

end Cert.LibHostDot

end
-- ==== Proof.RegLin0.lean ====
/-
  Region 0: a dense product, tiled over rows.

  The region walks 50 blocks of 2000 consecutive rows of the [100000, 78] operand; at block t it multiplies rows
  2000·t … 2000·t + 1999 by the whole [78, 78] weight matrix (into a zero accumulator) and writes the product to the
  same rows of the result.  An entry (r, c) of a product depends on row r of the left operand and column c of the
  right one only, and the blocks' row ranges partition the 100000 rows, so the array the region leaves is the
  untiled product of the two arrays as the region found them: entry (r, c) is the sum over i of x (r, i) · w (i, c).
-/
import proofs.«150209_j12326556139995_1_alg».proof.Proof.Gen.KernelIdeal.Frame
import proofs.«150209_j12326556139995_1_alg».proof.Proof.Gen.ReferenceIdeal
import proofs.«150209_j12326556139995_1_alg».proof.Proof.LibRowOps
import proofs.«150209_j12326556139995_1_alg».proof.Proof.LibHostDot
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.RegVal0

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The untiled product of the two arrays. -/
abbrev prod (x : FVec Ideal S100000x78 .f32) (w : FVec Ideal S78x78 .f32) : FVec Ideal S100000x78 .f32 :=
  Host.dotGeneral Cert.ReferenceIdeal.dot_S100000x78_S78x78_S100000x78_1_0_0_1_n_n none x w

/-- Entry (r, c) of the untiled product. -/
theorem prod_apply (x : FVec Ideal S100000x78 .f32) (w : FVec Ideal S78x78 .f32) (r : Fin 100000) (c : Fin 78) :
    prod x w (ix2 r c) = ∑ i : Fin 78, x (ix2 r i) * w (ix2 i c) :=
  Cert.LibHostDot.dotGeneral_plain_apply' Cert.ReferenceIdeal.dot_S100000x78_S78x78_S100000x78_1_0_0_1_n_n _ rfl none x w r c

/-- Entry (p, q) of one block's product: the body's arithmetic (the two format changes are the identity here). -/
theorem pay_apply (x0 : Vec Ideal S2000x78 .f32) (x1 : Vec Ideal S78x78 .f32) (p : Fin 2000) (q : Fin 78) :
    k0_pay1 x0 x1 (ix2 p q) = ∑ i : Fin 78, x0 (ix2 p i) * x1 (ix2 i q) := by
  unfold k0_pay1
  exact Cert.KernelBody.matmul_plain_zero_apply _ none _ _ p q

/-- Block t of the left operand and of the result is rows 2000·t …; the weight matrix has one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- One block against the whole: if the block's rows are rows 2000·tv + p of `X` and the weights are `Wt`, the block's
    product at (p, q) is the whole product at (2000·tv + p, q). -/
theorem point (X : FVec Ideal S100000x78 .f32) (Wt : FVec Ideal S78x78 .f32)
    (x0 : Vec Ideal S2000x78 .f32) (x1 : Vec Ideal S78x78 .f32) (tv : ℕ) (htv : tv < 50)
    (h0 : ∀ (p : Fin 2000) (i : Fin 78), x0 (ix2 p i) = X (ix2 ⟨tv * 2000 + p.val, by omega⟩ i))
    (h1 : ∀ (i : Fin 78) (q : Fin 78), x1 (ix2 i q) = Wt (ix2 i q))
    (j : S2000x78.Idx) (I : S100000x78.Idx) (hI0 : (I 0).val = tv * 2000 + (j 0).val) (hI1 : (I 1).val = (j 1).val) :
    k0_pay1 x0 x1 j = prod X Wt I := by
  obtain ⟨p, q, rfl⟩ : ∃ (p : Fin 2000) (q : Fin 78), j = ix2 p q := ⟨j 0, j 1, eq_ix2 j⟩
  have hI : I = ix2 (⟨tv * 2000 + p.val, by omega⟩ : Fin 100000) q := by
    funext a; apply Fin.ext
    match a with
    | ⟨0, _⟩ => exact hI0
    | ⟨1, _⟩ => exact hI1
  rw [hI, pay_apply, prod_apply]
  exact Finset.sum_congr rfl fun i _ => by rw [h0, h1]

/-- What point t writes back is block t of the untiled product of the arrays as the region finds them. -/
theorem flushed_eq (c : Dev nD) (t : Fin cfg0.N) :
    (dat0 V c).flushed 2 t = ((cfg0.win 2).blk t).view.read (Elt Ideal) (prod (V c main_arg0) (V c main_arg4)) := by
  show (cfg0.win 2).cut (grid0.coords t) ((dat0 V c).after 2 t) = _
  rw [after0_2]
  unfold out0_2
  rw [View.canon_unit_zero hz]
  simp only [View.ld_unit_zero (S := S2000x78) hz, View.ld_unit_zero (S := S78x78) hz]
  obtain ⟨e0, e1, e2, e3, e4, e5⟩ := idx_facts t
  have ht : t.val < 50 := t.isLt
  funext j
  show k0_pay1 (iblk0 V c 0 t) (iblk0 V c 1 t) j = prod (V c main_arg0) (V c main_arg4) (((cfg0.win 2).blk t).view.emb j)
  refine point (V c main_arg0) (V c main_arg4) (iblk0 V c 0 t) (iblk0 V c 1 t) t.val ht (fun p i => ?_) (fun i q => ?_) j _ ?_ ?_
  · show V c main_arg0 (((cfg0.win 0).blk t).view.emb (ix2 p i)) = _
    refine congrArg (V c main_arg0) (funext fun a => Fin.ext ?_)
    match a with
    | ⟨0, _⟩ => show win0_0.index t (0 : Fin 2) * 2000 + 1 * p.val = t.val * 2000 + p.val; omega
    | ⟨1, _⟩ => show win0_0.index t (1 : Fin 2) * 78 + 1 * i.val = i.val; omega
  · show V c main_arg4 (((cfg0.win 1).blk t).view.emb (ix2 i q)) = _
    refine congrArg (V c main_arg4) (funext fun a => Fin.ext ?_)
    match a with
    | ⟨0, _⟩ => show win0_1.index t (0 : Fin 2) * 78 + 1 * i.val = i.val; omega
    | ⟨1, _⟩ => show win0_1.index t (1 : Fin 2) * 78 + 1 * q.val = q.val; omega
  · show win0_2.index t (0 : Fin 2) * 2000 + 1 * (j 0).val = t.val * 2000 + (j 0).val; omega
  · show win0_2.index t (1 : Fin 2) * 78 + 1 * (j 1).val = (j 1).val; omega

/-- An index of the result is in point t's block iff each coordinate is in the block's range on its axis. -/
theorem mem_blk (t : Fin cfg0.N) (i : S100000x78.Idx) :
    i ∈ ((cfg0.win 2).blk t).view.set ↔ ∀ a : Fin 2, win0_2.index t a * S2000x78.size a ≤ (i a).val ∧ (i a).val < win0_2.index t a * S2000x78.size a + S2000x78.size a := by
  show i ∈ ((View.whole main_v29).slice (win0_2.rect t)).set ↔ _
  rw [View.set_slice_whole, Rect.mem_set_unit]
  exact Iff.rfl

/-- Every row lies in the block of the point numbered by the row's quotient by 2000. -/
theorem cover (i : S100000x78.Idx) : ∃ t : Fin cfg0.N, (cfg0.win 2).flush t = true ∧ i ∈ ((cfg0.win 2).blk t).view.set := by
  have hi0 : (i 0).val < 100000 := (i 0).isLt
  have hi1 : (i 1).val < 78 := (i 1).isLt
  have hN : cfg0.N = 50 := N_0
  let t : Fin cfg0.N := ⟨(i 0).val / 2000, by rw [hN]; omega⟩
  obtain ⟨e0, e1, e2, e3, e4, e5⟩ := idx_facts t
  have htv : t.val = (i 0).val / 2000 := rfl
  refine ⟨t, flush0_2 t, ?_⟩
  rw [mem_blk]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 78 ≤ (i 1).val ∧ (i 1).val < win0_2.index t (1 : Fin 2) * 78 + 78; omega

/-- THE ARRAY the region leaves: the untiled product of the two arrays as the region finds them. -/
theorem value (c : Dev nD) : (dat0 V c).arrAt 2 cfg0.N = prod (V c main_arg0) (V c main_arg4) :=
  (dat0 V c).arrAt_eq_of_cover 2 (prod (V c main_arg0) (V c main_arg4)) (fun t _ => flushed_eq V c t) cover

end Cert.KernelIdeal.RegVal0

end
-- ==== Proof.RegComb1.lean ====
/-
  Region 1: self-loop term, bias and rectifier, tiled over rows.

  The region walks 50 blocks of 2000 consecutive rows.  At block t, for rows r = 2000·t … 2000·t + 1999 and every
  column c, it writes  max (agg (r, c) + xw (r, c) · d (r, 0) + b c, 0)  where `agg` are the aggregated messages, `xw`
  the transformed features, `d` the column of squared inverse root degrees and `b` the bias.  Every entry of the result
  depends on the same row of the row-indexed operands only, and the blocks' row ranges partition the 100000 rows, so
  the array the region leaves is that pointwise expression of the whole arrays as the region found them.
-/
import proofs.«150209_j12326556139995_1_alg».proof.Proof.Gen.KernelIdeal.Frame
import proofs.«150209_j12326556139995_1_alg».proof.Proof.Gen.ReferenceIdeal
import proofs.«150209_j12326556139995_1_alg».proof.Proof.LibRowOps
import proofs.«150209_j12326556139995_1_alg».proof.Proof.LibKeepdims
import Idealize.ShloMosaic.Lib.Pipeline.Value
import Idealize.ShloMosaic.Lib.ValueIdx
import Idealize.ShloMosaic.PureOps.Ideal.Laws

set_option maxRecDepth 16384

noncomputable section

namespace Cert.KernelIdeal.RegVal1

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The whole-array expression, in the host's operations: the column `d` broadcast along the rows, the bias made a
    row and broadcast down the rows, the rectifier as a maximum with the zero splat. -/
abbrev comb (agg xw : FVec Ideal S100000x78 .f32) (d : FVec Ideal S100000x1 .f32) (b : FVec Ideal S78 .f32) :
    FVec Ideal S100000x78 .f32 :=
  maximumf
    (addf (addf agg (mulf xw (broadcastInDim Cert.ReferenceIdeal.S100000x78 ![0, 1] Cert.ReferenceIdeal.Facts₀.bcast_S100000x1_S100000x78_0_1 d)))
      (broadcastInDim Cert.ReferenceIdeal.S100000x78 ![0, 1] Cert.ReferenceIdeal.Facts₀.bcast_S1x78_S100000x78_0_1
        (broadcastInDim Cert.ReferenceIdeal.S1x78 ![1] Cert.ReferenceIdeal.Facts₀.bcast_S78_S1x78_1 b)))
    (broadcastInDim Cert.ReferenceIdeal.S100000x78 ![] Cert.ReferenceIdeal.Facts₀.bcast_S_S100000x78
      (constant (F := Ideal) Cert.ReferenceIdeal.S_ .f32 0x00000000#32))

/-- Entry (r, c) of the whole-array expression. -/
theorem comb_apply (agg xw : FVec Ideal S100000x78 .f32) (d : FVec Ideal S100000x1 .f32) (b : FVec Ideal S78 .f32)
    (r : Fin 100000) (c : Fin 78) :
    comb agg xw d b (ix2 r c)
      = max ((agg (ix2 r c) + xw (ix2 r c) * d (ix2 r (0 : Fin 1))) + b (ix1 c)) (Ideal.ofBits .f32 0x00000000#32) := by
  have e1 : broadcastInDim Cert.ReferenceIdeal.S100000x78 ![0, 1] Cert.ReferenceIdeal.Facts₀.bcast_S100000x1_S100000x78_0_1 d (ix2 r c)
      = d (ix2 r (0 : Fin 1)) :=
    broadcastInDim_apply _ _ d (ix2 r c) (ix2 r (0 : Fin 1)) (fun a => by
      match a with
      | ⟨0, _⟩ => rfl
      | ⟨1, _⟩ => rfl)
  have e2 : broadcastInDim Cert.ReferenceIdeal.S100000x78 ![0, 1] Cert.ReferenceIdeal.Facts₀.bcast_S1x78_S100000x78_0_1
        (broadcastInDim Cert.ReferenceIdeal.S1x78 ![1] Cert.ReferenceIdeal.Facts₀.bcast_S78_S1x78_1 b) (ix2 r c) = b (ix1 c) := by
    refine (broadcastInDim_apply _ _ _ (ix2 r c) (ix2 (0 : Fin 1) c) (fun a => by
      match a with
      | ⟨0, _⟩ => rfl
      | ⟨1, _⟩ => rfl)).trans ?_
    exact broadcastInDim_apply _ _ b (ix2 (0 : Fin 1) c) (ix1 c) (fun a => by
      match a with
      | ⟨0, _⟩ => rfl)
  show max ((agg (ix2 r c) + xw (ix2 r c) * broadcastInDim Cert.ReferenceIdeal.S100000x78 ![0, 1] Cert.ReferenceIdeal.Facts₀.bcast_S100000x1_S100000x78_0_1 d (ix2 r c))
      + broadcastInDim Cert.ReferenceIdeal.S100000x78 ![0, 1] Cert.ReferenceIdeal.Facts₀.bcast_S1x78_S100000x78_0_1
        (broadcastInDim Cert.ReferenceIdeal.S1x78 ![1] Cert.ReferenceIdeal.Facts₀.bcast_S78_S1x78_1 b) (ix2 r c))
      (Ideal.ofBits .f32 0x00000000#32) = _
  rw [e1, e2]

/-- Entry (p, q) of one block's result: the body's arithmetic. -/
theorem pay_apply (v0 v2 : Vec Ideal S2000x78 .f32) (v4 : Vec Ideal S2000x1 .f32) (v9 : Vec Ideal S78 .f32)
    (p : Fin 2000) (q : Fin 78) :
    k1_pay1 v0 v2 v4 v9 (ix2 p q)
      = max ((v0 (ix2 p q) + v2 (ix2 p q) * v4 (ix2 p (0 : Fin 1))) + v9 (ix1 q)) (Ideal.ofBits .f32 0x00000000#32) := by
  have e1 : broadcastTo S2000x78 (shapeCast S2000x1 v4 shapeCasts_S2000x1_S2000x1) broadcasts_S2000x1_S2000x78 (ix2 p q)
      = v4 (ix2 p (0 : Fin 1)) := by
    rw [shapeCast_self]
    exact Cert.LibKeepdims.broadcastTo_col_apply v4 _ p q
  have e2 : broadcastTo S2000x78 (shapeCast S1x78 v9 shapeCasts_S78_S1x78) broadcasts_S1x78_S2000x78 (ix2 p q) = v9 (ix1 q) :=
    (Cert.KernelBody.broadcastTo_row_apply _ _ p q).trans (Cert.KernelBody.shapeCast_row_apply v9 _ q)
  show max ((shapeCast S2000x78 v0 shapeCasts_S2000x78_S2000x78 (ix2 p q)
        + shapeCast S2000x78 v2 shapeCasts_S2000x78_S2000x78 (ix2 p q)
          * broadcastTo S2000x78 (shapeCast S2000x1 v4 shapeCasts_S2000x1_S2000x1) broadcasts_S2000x1_S2000x78 (ix2 p q))
      + broadcastTo S2000x78 (shapeCast S1x78 v9 shapeCasts_S78_S1x78) broadcasts_S1x78_S2000x78 (ix2 p q))
      (Ideal.ofBits .f32 0x00000000#32) = _
  rw [e1, e2, shapeCast_self, shapeCast_self]

/-- Blocks of the four row-indexed windows are rows 2000·t …; the bias has one block. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 1) = 0
    ∧ win1_4.index t (0 : Fin 2) = t.val ∧ win1_4.index t (1 : Fin 2) = 0 :=
  (by decide +kernel : ∀ t : Fin grid1.N, _)

/-- One block against the whole. -/
theorem point (AGG XW : FVec Ideal S100000x78 .f32) (Dc : FVec Ideal S100000x1 .f32) (B : FVec Ideal S78 .f32)
    (v0 v2 : Vec Ideal S2000x78 .f32) (v4 : Vec Ideal S2000x1 .f32) (v9 : Vec Ideal S78 .f32) (tv : ℕ) (htv : tv < 50)
    (h0 : ∀ (p : Fin 2000) (q : Fin 78), v0 (ix2 p q) = AGG (ix2 ⟨tv * 2000 + p.val, by omega⟩ q))
    (h2 : ∀ (p : Fin 2000) (q : Fin 78), v2 (ix2 p q) = XW (ix2 ⟨tv * 2000 + p.val, by omega⟩ q))
    (h4 : ∀ (p : Fin 2000), v4 (ix2 p (0 : Fin 1)) = Dc (ix2 ⟨tv * 2000 + p.val, by omega⟩ (0 : Fin 1)))
    (h9 : ∀ (q : Fin 78), v9 (ix1 q) = B (ix1 q))
    (j : S2000x78.Idx) (I : S100000x78.Idx) (hI0 : (I 0).val = tv * 2000 + (j 0).val) (hI1 : (I 1).val = (j 1).val) :
    k1_pay1 v0 v2 v4 v9 j = comb AGG XW Dc B I := by
  obtain ⟨p, q, rfl⟩ : ∃ (p : Fin 2000) (q : Fin 78), j = ix2 p q := ⟨j 0, j 1, eq_ix2 j⟩
  have hI : I = ix2 (⟨tv * 2000 + p.val, by omega⟩ : Fin 100000) q := by
    funext a; apply Fin.ext
    match a with
    | ⟨0, _⟩ => exact hI0
    | ⟨1, _⟩ => exact hI1
  rw [hI, pay_apply, comb_apply, h0, h2, h4, h9]

/-- What point t writes back is block t of the whole-array expression of the arrays as the region finds them. -/
theorem flushed_eq (c : Dev nD) (t : Fin cfg1.N) :
    (dat1 V c).flushed 4 t = ((cfg1.win 4).blk t).view.read (Elt Ideal)
      (comb (V c main_v41) (V c main_v29) (V c main_v12) (V c main_arg5)) := by
  show (cfg1.win 4).cut (grid1.coords t) ((dat1 V c).after 4 t) = _
  rw [after1_4]
  unfold out1_4
  rw [View.canon_unit_zero hz2]
  simp only [View.ld_unit_zero (S := S2000x78) hz2, View.ld_unit_zero (S := S2000x1) hz2, View.ld_unit_zero (S := S78) hz1]
  obtain ⟨e00, e01, e10, e11, e20, e21, e30, e40, e41⟩ := idx_facts t
  have ht : t.val < 50 := t.isLt
  funext j
  show k1_pay1 (iblk1 V c 0 t) (iblk1 V c 1 t) (iblk1 V c 2 t) (iblk1 V c 3 t) j
    = comb (V c main_v41) (V c main_v29) (V c main_v12) (V c main_arg5) (((cfg1.win 4).blk t).view.emb j)
  refine point (V c main_v41) (V c main_v29) (V c main_v12) (V c main_arg5) (iblk1 V c 0 t) (iblk1 V c 1 t)
    (iblk1 V c 2 t) (iblk1 V c 3 t) t.val ht (fun p q => ?_) (fun p q => ?_) (fun p => ?_) (fun q => ?_) j _ ?_ ?_
  · show V c main_v41 (((cfg1.win 0).blk t).view.emb (ix2 p q)) = _
    refine congrArg (V c main_v41) (funext fun a => Fin.ext ?_)
    match a with
    | ⟨0, _⟩ => show win1_0.index t (0 : Fin 2) * 2000 + 1 * p.val = t.val * 2000 + p.val; omega
    | ⟨1, _⟩ => show win1_0.index t (1 : Fin 2) * 78 + 1 * q.val = q.val; omega
  · show V c main_v29 (((cfg1.win 1).blk t).view.emb (ix2 p q)) = _
    refine congrArg (V c main_v29) (funext fun a => Fin.ext ?_)
    match a with
    | ⟨0, _⟩ => show win1_1.index t (0 : Fin 2) * 2000 + 1 * p.val = t.val * 2000 + p.val; omega
    | ⟨1, _⟩ => show win1_1.index t (1 : Fin 2) * 78 + 1 * q.val = q.val; omega
  · show V c main_v12 (((cfg1.win 2).blk t).view.emb (ix2 p (0 : Fin 1))) = _
    refine congrArg (V c main_v12) (funext fun a => Fin.ext ?_)
    match a with
    | ⟨0, _⟩ => show win1_2.index t (0 : Fin 2) * 2000 + 1 * p.val = t.val * 2000 + p.val; omega
    | ⟨1, _⟩ => show win1_2.index t (1 : Fin 2) * 1 + 1 * 0 = 0; omega
  · show V c main_arg5 (((cfg1.win 3).blk t).view.emb (ix1 q)) = _
    refine congrArg (V c main_arg5) (funext fun a => Fin.ext ?_)
    match a with
    | ⟨0, _⟩ => show win1_3.index t (0 : Fin 1) * 78 + 1 * q.val = q.val; omega
  · show win1_4.index t (0 : Fin 2) * 2000 + 1 * (j 0).val = t.val * 2000 + (j 0).val; omega
  · show win1_4.index t (1 : Fin 2) * 78 + 1 * (j 1).val = (j 1).val; omega

/-- An index of the result is in point t's block iff each coordinate is in the block's range on its axis. -/
theorem mem_blk (t : Fin cfg1.N) (i : S100000x78.Idx) :
    i ∈ ((cfg1.win 4).blk t).view.set ↔ ∀ a : Fin 2, win1_4.index t a * S2000x78.size a ≤ (i a).val ∧ (i a).val < win1_4.index t a * S2000x78.size a + S2000x78.size a := by
  show i ∈ ((View.whole main_v42).slice (win1_4.rect t)).set ↔ _
  rw [View.set_slice_whole, Rect.mem_set_unit]
  exact Iff.rfl

/-- Every row lies in the block of the point numbered by the row's quotient by 2000. -/
theorem cover (i : S100000x78.Idx) : ∃ t : Fin cfg1.N, (cfg1.win 4).flush t = true ∧ i ∈ ((cfg1.win 4).blk t).view.set := by
  have hi0 : (i 0).val < 100000 := (i 0).isLt
  have hi1 : (i 1).val < 78 := (i 1).isLt
  have hN : cfg1.N = 50 := N_1
  let t : Fin cfg1.N := ⟨(i 0).val / 2000, by rw [hN]; omega⟩
  obtain ⟨e00, e01, e10, e11, e20, e21, e30, e40, e41⟩ := idx_facts t
  have htv : t.val = (i 0).val / 2000 := rfl
  refine ⟨t, flush1_4 t, ?_⟩
  rw [mem_blk]
  intro a
  match a with
  | ⟨0, _⟩ => show win1_4.index t (0 : Fin 2) * 2000 ≤ (i 0).val ∧ (i 0).val < win1_4.index t (0 : Fin 2) * 2000 + 2000; omega
  | ⟨1, _⟩ => show win1_4.index t (1 : Fin 2) * 78 ≤ (i 1).val ∧ (i 1).val < win1_4.index t (1 : Fin 2) * 78 + 78; omega

/-- THE ARRAY the region leaves. -/
theorem value (c : Dev nD) : (dat1 V c).arrAt 4 cfg1.N = comb (V c main_v41) (V c main_v29) (V c main_v12) (V c main_arg5) :=
  (dat1 V c).arrAt_eq_of_cover 4 (comb (V c main_v41) (V c main_v29) (V c main_v12) (V c main_arg5)) (fun t _ => flushed_eq V c t) cover

end Cert.KernelIdeal.RegVal1

end
-- ==== Proof.KFoldA.lean ====
/-
  The idealized kernel's buffer contents at its first four segment boundaries, read at the buffers that matter.

  After the first host stretch: the edge endpoints (rows 0 and 1 of the edge list, flattened), the inverse root
  degree d = rsqrt (in-degree + 1), its square as a column, and the per-edge normaliser d[src]·d[dst] as a column —
  the same operations the reference applies, so each is the reference's stage function of the edge list.  After
  region 0: the transformed features x·W1.  After the second stretch: the normalised messages gathered at the
  sources and scatter-added at the targets.  After region 1: the first layer's output.  Each is stated as the
  reference's own stage function of the arguments; the two programs differ only in making a column by a reshape
  (kernel) or by a broadcast along a new unit axis (reference), which is the same column.
-/
import proofs.«150209_j12326556139995_1_alg».proof.Proof.Gen.KernelIdeal.Frame
import proofs.«150209_j12326556139995_1_alg».proof.Proof.RefRun
import proofs.«150209_j12326556139995_1_alg».proof.Proof.LibColForms
import proofs.«150209_j12326556139995_1_alg».proof.Proof.RegLin0
import proofs.«150209_j12326556139995_1_alg».proof.Proof.RegComb1
import Idealize.ShloMosaic.Lib.StableHlo.Run

set_option maxRecDepth 16384

noncomputable section

namespace Cert.KernelIdeal.Fold

open Cert.KernelIdeal Cert.KernelIdeal.Gen
open Idealize.ShloMosaic Idealize.ShloMosaic.TcCoe Idealize.ShloMosaic.ValueIdx Idealize.SL.Sem Idealize.ShloMosaic.StableHlo
open Idealize.ShloMosaic.Pipeline (Dat Cfg Window)

variable (m : (ℓ : Loc nD τ sig) → Buf (Elt Ideal) ℓ) (ρ : Dev nD → PrngReg) (c : Dev nD)

/-- A buffer no operation of a host stretch writes holds after the stretch what it held before. -/
macro "host_keep" : tactic => `(tactic| (after_results_simp <;> rfl))

/-! ## After the first host stretch -/

theorem w1_arg0 : W1 m ρ c (Proc.devRef .tc main_arg0) = (m ((c.tc : Thread nD τ).loc main_arg0)) := by host_keep
theorem w1_arg4 : W1 m ρ c (Proc.devRef .tc main_arg4) = (m ((c.tc : Thread nD τ).loc main_arg4)) := by host_keep
theorem w1_arg5 : W1 m ρ c (Proc.devRef .tc main_arg5) = (m ((c.tc : Thread nD τ).loc main_arg5)) := by host_keep

theorem w1_v1 : W1 m ρ c (Proc.devRef .tc main_v1) = Cert.ReferenceIdeal.Read.val_main_v1 (F := Ideal) (m ((c.tc : Thread nD τ).loc main_arg1)) := by
  after_results_simp <;> rfl
theorem w1_v3 : W1 m ρ c (Proc.devRef .tc main_v3) = Cert.ReferenceIdeal.Read.val_main_v3 (F := Ideal) (m ((c.tc : Thread nD τ).loc main_arg1)) := by
  after_results_simp <;> rfl
theorem w1_v12 : W1 m ρ c (Proc.devRef .tc main_v12)
    = Cert.ReferenceIdeal.Read.val_main_v41 (F := Ideal) (m ((c.tc : Thread nD τ).loc main_arg1)) := by
  after_results_simp
  refine (Cert.LibColForms.shapeCast_col_eq_broadcastInDim _ _ ![0] rfl Cert.ReferenceIdeal.Facts₀.bcast_S100000_S100000x1_0).trans ?_
  rfl
theorem w1_v28 : W1 m ρ c (Proc.devRef .tc main_v28)
    = Cert.ReferenceIdeal.Read.val_main_v27 (F := Ideal) (m ((c.tc : Thread nD τ).loc main_arg1)) := by
  after_results_simp
  refine (Cert.LibColForms.shapeCast_col_eq_broadcastInDim _ _ ![0] rfl Cert.ReferenceIdeal.Facts₀.bcast_S400000_S400000x1_0).trans ?_
  rfl

/-! ## After region 0 -/

theorem w2_v29 : W2 m ρ c (Proc.devRef .tc main_v29) = Cert.ReferenceIdeal.Read.val_main_v11 (F := Ideal) (m ((c.tc : Thread nD τ).loc main_arg0)) (m ((c.tc : Thread nD τ).loc main_arg4)) := by
  refine (W2_arr m ρ c 2).trans ((Cert.KernelIdeal.RegVal0.value (V1 m ρ) c).trans ?_)
  show Cert.KernelIdeal.RegVal0.prod (W1 m ρ c (Proc.devRef .tc main_arg0)) (W1 m ρ c (Proc.devRef .tc main_arg4)) = _
  rw [w1_arg0, w1_arg4]
  rfl
theorem w2_v1 : W2 m ρ c (Proc.devRef .tc main_v1) = Cert.ReferenceIdeal.Read.val_main_v1 (F := Ideal) (m ((c.tc : Thread nD τ).loc main_arg1)) :=
  (W2_of_ne m ρ c main_v1 (by decide)).trans (w1_v1 m ρ c)
theorem w2_v3 : W2 m ρ c (Proc.devRef .tc main_v3) = Cert.ReferenceIdeal.Read.val_main_v3 (F := Ideal) (m ((c.tc : Thread nD τ).loc main_arg1)) :=
  (W2_of_ne m ρ c main_v3 (by decide)).trans (w1_v3 m ρ c)
theorem w2_v12 : W2 m ρ c (Proc.devRef .tc main_v12) = Cert.ReferenceIdeal.Read.val_main_v41 (F := Ideal) (m ((c.tc : Thread nD τ).loc main_arg1)) :=
  (W2_of_ne m ρ c main_v12 (by decide)).trans (w1_v12 m ρ c)
theorem w2_v28 : W2 m ρ c (Proc.devRef .tc main_v28) = Cert.ReferenceIdeal.Read.val_main_v27 (F := Ideal) (m ((c.tc : Thread nD τ).loc main_arg1)) :=
  (W2_of_ne m ρ c main_v28 (by decide)).trans (w1_v28 m ρ c)
theorem w2_arg5 : W2 m ρ c (Proc.devRef .tc main_arg5) = (m ((c.tc : Thread nD τ).loc main_arg5)) :=
  (W2_of_ne m ρ c main_arg5 (by decide)).trans (w1_arg5 m ρ c)

/-! ## After the second host stretch -/

theorem w3_v29 : W3 m ρ c (Proc.devRef .tc main_v29) = Cert.ReferenceIdeal.Read.val_main_v11 (F := Ideal) (m ((c.tc : Thread nD τ).loc main_arg0)) (m ((c.tc : Thread nD τ).loc main_arg4)) :=
  (show W3 m ρ c (Proc.devRef .tc main_v29) = W2 m ρ c (Proc.devRef .tc main_v29) by host_keep).trans (w2_v29 m ρ c)
theorem w3_v12 : W3 m ρ c (Proc.devRef .tc main_v12) = Cert.ReferenceIdeal.Read.val_main_v41 (F := Ideal) (m ((c.tc : Thread nD τ).loc main_arg1)) :=
  (show W3 m ρ c (Proc.devRef .tc main_v12) = W2 m ρ c (Proc.devRef .tc main_v12) by host_keep).trans (w2_v12 m ρ c)
theorem w3_arg5 : W3 m ρ c (Proc.devRef .tc main_arg5) = (m ((c.tc : Thread nD τ).loc main_arg5)) :=
  (show W3 m ρ c (Proc.devRef .tc main_arg5) = W2 m ρ c (Proc.devRef .tc main_arg5) by host_keep).trans (w2_arg5 m ρ c)
theorem w3_v41 : W3 m ρ c (Proc.devRef .tc main_v41) = Cert.ReferenceIdeal.Read.val_main_v39 (F := Ideal) (m ((c.tc : Thread nD τ).loc main_arg0)) (m ((c.tc : Thread nD τ).loc main_arg1)) (m ((c.tc : Thread nD τ).loc main_arg4)) := by
  after_results_simp
  rw [w2_v29, w2_v1, w2_v3, w2_v28]
  rfl

/-! ## After region 1 -/

theorem w4_v42 : W4 m ρ c (Proc.devRef .tc main_v42) = Cert.ReferenceIdeal.Read.val_main_v48 (F := Ideal) (m ((c.tc : Thread nD τ).loc main_arg0)) (m ((c.tc : Thread nD τ).loc main_arg1)) (m ((c.tc : Thread nD τ).loc main_arg4)) (m ((c.tc : Thread nD τ).loc main_arg5)) := by
  refine (W4_arr m ρ c 4).trans ((Cert.KernelIdeal.RegVal1.value (V3 m ρ) c).trans ?_)
  show Cert.KernelIdeal.RegVal1.comb (W3 m ρ c (Proc.devRef .tc main_v41)) (W3 m ρ c (Proc.devRef .tc main_v29))
    (W3 m ρ c (Proc.devRef .tc main_v12)) (W3 m ρ c (Proc.devRef .tc main_arg5)) = _
  rw [w3_v41, w3_v29, w3_v12, w3_arg5]
  rfl

end Cert.KernelIdeal.Fold

end
-- ==== Proof.RegLin2.lean ====
/-
  Region 2: a dense product, tiled over rows.

  The region walks 50 blocks of 2000 consecutive rows of the [100000, 78] operand; at block t it multiplies rows
  2000·t … 2000·t + 1999 by the whole [78, 156] weight matrix (into a zero accumulator) and writes the product to the
  same rows of the result.  An entry (r, c) of a product depends on row r of the left operand and column c of the
  right one only, and the blocks' row ranges partition the 100000 rows, so the array the region leaves is the
  untiled product of the two arrays as the region found them: entry (r, c) is the sum over i of x (r, i) · w (i, c).
-/
import proofs.«150209_j12326556139995_1_alg».proof.Proof.Gen.KernelIdeal.Frame
import proofs.«150209_j12326556139995_1_alg».proof.Proof.Gen.ReferenceIdeal
import proofs.«150209_j12326556139995_1_alg».proof.Proof.LibRowOps
import proofs.«150209_j12326556139995_1_alg».proof.Proof.LibHostDot
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.RegVal2

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The untiled product of the two arrays. -/
abbrev prod (x : FVec Ideal S100000x78 .f32) (w : FVec Ideal S78x156 .f32) : FVec Ideal S100000x156 .f32 :=
  Host.dotGeneral Cert.ReferenceIdeal.dot_S100000x78_S78x156_S100000x156_1_0_0_1_n_n none x w

/-- Entry (r, c) of the untiled product. -/
theorem prod_apply (x : FVec Ideal S100000x78 .f32) (w : FVec Ideal S78x156 .f32) (r : Fin 100000) (c : Fin 156) :
    prod x w (ix2 r c) = ∑ i : Fin 78, x (ix2 r i) * w (ix2 i c) :=
  Cert.LibHostDot.dotGeneral_plain_apply' Cert.ReferenceIdeal.dot_S100000x78_S78x156_S100000x156_1_0_0_1_n_n _ rfl none x w r c

/-- Entry (p, q) of one block's product: the body's arithmetic (the two format changes are the identity here). -/
theorem pay_apply (x0 : Vec Ideal S2000x78 .f32) (x1 : Vec Ideal S78x156 .f32) (p : Fin 2000) (q : Fin 156) :
    k2_pay1 x0 x1 (ix2 p q) = ∑ i : Fin 78, x0 (ix2 p i) * x1 (ix2 i q) := by
  unfold k2_pay1
  rw [shapeCast_self (s := S2000x78)]
  exact Cert.KernelBody.matmul_plain_zero_apply _ none _ _ p q

/-- Block t of the left operand and of the result is rows 2000·t …; the weight matrix has one block. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- One block against the whole: if the block's rows are rows 2000·tv + p of `X` and the weights are `Wt`, the block's
    product at (p, q) is the whole product at (2000·tv + p, q). -/
theorem point (X : FVec Ideal S100000x78 .f32) (Wt : FVec Ideal S78x156 .f32)
    (x0 : Vec Ideal S2000x78 .f32) (x1 : Vec Ideal S78x156 .f32) (tv : ℕ) (htv : tv < 50)
    (h0 : ∀ (p : Fin 2000) (i : Fin 78), x0 (ix2 p i) = X (ix2 ⟨tv * 2000 + p.val, by omega⟩ i))
    (h1 : ∀ (i : Fin 78) (q : Fin 156), x1 (ix2 i q) = Wt (ix2 i q))
    (j : S2000x156.Idx) (I : S100000x156.Idx) (hI0 : (I 0).val = tv * 2000 + (j 0).val) (hI1 : (I 1).val = (j 1).val) :
    k2_pay1 x0 x1 j = prod X Wt I := by
  obtain ⟨p, q, rfl⟩ : ∃ (p : Fin 2000) (q : Fin 156), j = ix2 p q := ⟨j 0, j 1, eq_ix2 j⟩
  have hI : I = ix2 (⟨tv * 2000 + p.val, by omega⟩ : Fin 100000) q := by
    funext a; apply Fin.ext
    match a with
    | ⟨0, _⟩ => exact hI0
    | ⟨1, _⟩ => exact hI1
  rw [hI, pay_apply, prod_apply]
  exact Finset.sum_congr rfl fun i _ => by rw [h0, h1]

/-- What point t writes back is block t of the untiled product of the arrays as the region finds them. -/
theorem flushed_eq (c : Dev nD) (t : Fin cfg2.N) :
    (dat2 V c).flushed 2 t = ((cfg2.win 2).blk t).view.read (Elt Ideal) (prod (V c main_v42) (V c main_arg6)) := by
  show (cfg2.win 2).cut (grid2.coords t) ((dat2 V c).after 2 t) = _
  rw [after2_2]
  unfold out2_2
  rw [View.canon_unit_zero hz]
  simp only [View.ld_unit_zero (S := S2000x78) hz, View.ld_unit_zero (S := S78x156) hz]
  obtain ⟨e0, e1, e2, e3, e4, e5⟩ := idx_facts t
  have ht : t.val < 50 := t.isLt
  funext j
  show k2_pay1 (iblk2 V c 0 t) (iblk2 V c 1 t) j = prod (V c main_v42) (V c main_arg6) (((cfg2.win 2).blk t).view.emb j)
  refine point (V c main_v42) (V c main_arg6) (iblk2 V c 0 t) (iblk2 V c 1 t) t.val ht (fun p i => ?_) (fun i q => ?_) j _ ?_ ?_
  · show V c main_v42 (((cfg2.win 0).blk t).view.emb (ix2 p i)) = _
    refine congrArg (V c main_v42) (funext fun a => Fin.ext ?_)
    match a with
    | ⟨0, _⟩ => show win2_0.index t (0 : Fin 2) * 2000 + 1 * p.val = t.val * 2000 + p.val; omega
    | ⟨1, _⟩ => show win2_0.index t (1 : Fin 2) * 78 + 1 * i.val = i.val; omega
  · show V c main_arg6 (((cfg2.win 1).blk t).view.emb (ix2 i q)) = _
    refine congrArg (V c main_arg6) (funext fun a => Fin.ext ?_)
    match a with
    | ⟨0, _⟩ => show win2_1.index t (0 : Fin 2) * 78 + 1 * i.val = i.val; omega
    | ⟨1, _⟩ => show win2_1.index t (1 : Fin 2) * 156 + 1 * q.val = q.val; omega
  · show win2_2.index t (0 : Fin 2) * 2000 + 1 * (j 0).val = t.val * 2000 + (j 0).val; omega
  · show win2_2.index t (1 : Fin 2) * 156 + 1 * (j 1).val = (j 1).val; omega

/-- An index of the result is in point t's block iff each coordinate is in the block's range on its axis. -/
theorem mem_blk (t : Fin cfg2.N) (i : S100000x156.Idx) :
    i ∈ ((cfg2.win 2).blk t).view.set ↔ ∀ a : Fin 2, win2_2.index t a * S2000x156.size a ≤ (i a).val ∧ (i a).val < win2_2.index t a * S2000x156.size a + S2000x156.size a := by
  show i ∈ ((View.whole main_v43).slice (win2_2.rect t)).set ↔ _
  rw [View.set_slice_whole, Rect.mem_set_unit]
  exact Iff.rfl

/-- Every row lies in the block of the point numbered by the row's quotient by 2000. -/
theorem cover (i : S100000x156.Idx) : ∃ t : Fin cfg2.N, (cfg2.win 2).flush t = true ∧ i ∈ ((cfg2.win 2).blk t).view.set := by
  have hi0 : (i 0).val < 100000 := (i 0).isLt
  have hi1 : (i 1).val < 156 := (i 1).isLt
  have hN : cfg2.N = 50 := N_2
  let t : Fin cfg2.N := ⟨(i 0).val / 2000, by rw [hN]; omega⟩
  obtain ⟨e0, e1, e2, e3, e4, e5⟩ := idx_facts t
  have htv : t.val = (i 0).val / 2000 := rfl
  refine ⟨t, flush2_2 t, ?_⟩
  rw [mem_blk]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 156 ≤ (i 1).val ∧ (i 1).val < win2_2.index t (1 : Fin 2) * 156 + 156; omega

/-- THE ARRAY the region leaves: the untiled product of the two arrays as the region finds them. -/
theorem value (c : Dev nD) : (dat2 V c).arrAt 2 cfg2.N = prod (V c main_v42) (V c main_arg6) :=
  (dat2 V c).arrAt_eq_of_cover 2 (prod (V c main_v42) (V c main_arg6)) (fun t _ => flushed_eq V c t) cover

end Cert.KernelIdeal.RegVal2

end
-- ==== Proof.RegLin4.lean ====
/-
  Region 4: a dense product, tiled over rows.

  The region walks 50 blocks of 2000 consecutive rows of the [100000, 156] operand; at block t it multiplies rows
  2000·t … 2000·t + 1999 by the whole [156, 312] weight matrix (into a zero accumulator) and writes the product to the
  same rows of the result.  An entry (r, c) of a product depends on row r of the left operand and column c of the
  right one only, and the blocks' row ranges partition the 100000 rows, so the array the region leaves is the
  untiled product of the two arrays as the region found them: entry (r, c) is the sum over i of x (r, i) · w (i, c).
-/
import proofs.«150209_j12326556139995_1_alg».proof.Proof.Gen.KernelIdeal.Frame
import proofs.«150209_j12326556139995_1_alg».proof.Proof.Gen.ReferenceIdeal
import proofs.«150209_j12326556139995_1_alg».proof.Proof.LibRowOps
import proofs.«150209_j12326556139995_1_alg».proof.Proof.LibHostDot
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.RegVal4

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The untiled product of the two arrays. -/
abbrev prod (x : FVec Ideal S100000x156 .f32) (w : FVec Ideal S156x312 .f32) : FVec Ideal S100000x312 .f32 :=
  Host.dotGeneral Cert.ReferenceIdeal.dot_S100000x156_S156x312_S100000x312_1_0_0_1_n_n none x w

/-- Entry (r, c) of the untiled product. -/
theorem prod_apply (x : FVec Ideal S100000x156 .f32) (w : FVec Ideal S156x312 .f32) (r : Fin 100000) (c : Fin 312) :
    prod x w (ix2 r c) = ∑ i : Fin 156, x (ix2 r i) * w (ix2 i c) :=
  Cert.LibHostDot.dotGeneral_plain_apply' Cert.ReferenceIdeal.dot_S100000x156_S156x312_S100000x312_1_0_0_1_n_n _ rfl none x w r c

/-- Entry (p, q) of one block's product: the body's arithmetic (the two format changes are the identity here). -/
theorem pay_apply (x0 : Vec Ideal S2000x156 .f32) (x1 : Vec Ideal S156x312 .f32) (p : Fin 2000) (q : Fin 312) :
    k4_pay1 x0 x1 (ix2 p q) = ∑ i : Fin 156, x0 (ix2 p i) * x1 (ix2 i q) := by
  unfold k4_pay1
  rw [shapeCast_self (s := S2000x156)]
  exact Cert.KernelBody.matmul_plain_zero_apply _ none _ _ p q

/-- Block t of the left operand and of the result is rows 2000·t …; the weight matrix has one block. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- One block against the whole: if the block's rows are rows 2000·tv + p of `X` and the weights are `Wt`, the block's
    product at (p, q) is the whole product at (2000·tv + p, q). -/
theorem point (X : FVec Ideal S100000x156 .f32) (Wt : FVec Ideal S156x312 .f32)
    (x0 : Vec Ideal S2000x156 .f32) (x1 : Vec Ideal S156x312 .f32) (tv : ℕ) (htv : tv < 50)
    (h0 : ∀ (p : Fin 2000) (i : Fin 156), x0 (ix2 p i) = X (ix2 ⟨tv * 2000 + p.val, by omega⟩ i))
    (h1 : ∀ (i : Fin 156) (q : Fin 312), x1 (ix2 i q) = Wt (ix2 i q))
    (j : S2000x312.Idx) (I : S100000x312.Idx) (hI0 : (I 0).val = tv * 2000 + (j 0).val) (hI1 : (I 1).val = (j 1).val) :
    k4_pay1 x0 x1 j = prod X Wt I := by
  obtain ⟨p, q, rfl⟩ : ∃ (p : Fin 2000) (q : Fin 312), j = ix2 p q := ⟨j 0, j 1, eq_ix2 j⟩
  have hI : I = ix2 (⟨tv * 2000 + p.val, by omega⟩ : Fin 100000) q := by
    funext a; apply Fin.ext
    match a with
    | ⟨0, _⟩ => exact hI0
    | ⟨1, _⟩ => exact hI1
  rw [hI, pay_apply, prod_apply]
  exact Finset.sum_congr rfl fun i _ => by rw [h0, h1]

/-- What point t writes back is block t of the untiled product of the arrays as the region finds them. -/
theorem flushed_eq (c : Dev nD) (t : Fin cfg4.N) :
    (dat4 V c).flushed 2 t = ((cfg4.win 2).blk t).view.read (Elt Ideal) (prod (V c main_v56) (V c main_arg8)) := by
  show (cfg4.win 2).cut (grid4.coords t) ((dat4 V c).after 2 t) = _
  rw [after4_2]
  unfold out4_2
  rw [View.canon_unit_zero hz]
  simp only [View.ld_unit_zero (S := S2000x156) hz, View.ld_unit_zero (S := S156x312) hz]
  obtain ⟨e0, e1, e2, e3, e4, e5⟩ := idx_facts t
  have ht : t.val < 50 := t.isLt
  funext j
  show k4_pay1 (iblk4 V c 0 t) (iblk4 V c 1 t) j = prod (V c main_v56) (V c main_arg8) (((cfg4.win 2).blk t).view.emb j)
  refine point (V c main_v56) (V c main_arg8) (iblk4 V c 0 t) (iblk4 V c 1 t) t.val ht (fun p i => ?_) (fun i q => ?_) j _ ?_ ?_
  · show V c main_v56 (((cfg4.win 0).blk t).view.emb (ix2 p i)) = _
    refine congrArg (V c main_v56) (funext fun a => Fin.ext ?_)
    match a with
    | ⟨0, _⟩ => show win4_0.index t (0 : Fin 2) * 2000 + 1 * p.val = t.val * 2000 + p.val; omega
    | ⟨1, _⟩ => show win4_0.index t (1 : Fin 2) * 156 + 1 * i.val = i.val; omega
  · show V c main_arg8 (((cfg4.win 1).blk t).view.emb (ix2 i q)) = _
    refine congrArg (V c main_arg8) (funext fun a => Fin.ext ?_)
    match a with
    | ⟨0, _⟩ => show win4_1.index t (0 : Fin 2) * 156 + 1 * i.val = i.val; omega
    | ⟨1, _⟩ => show win4_1.index t (1 : Fin 2) * 312 + 1 * q.val = q.val; omega
  · show win4_2.index t (0 : Fin 2) * 2000 + 1 * (j 0).val = t.val * 2000 + (j 0).val; omega
  · show win4_2.index t (1 : Fin 2) * 312 + 1 * (j 1).val = (j 1).val; omega

/-- An index of the result is in point t's block iff each coordinate is in the block's range on its axis. -/
theorem mem_blk (t : Fin cfg4.N) (i : S100000x312.Idx) :
    i ∈ ((cfg4.win 2).blk t).view.set ↔ ∀ a : Fin 2, win4_2.index t a * S2000x312.size a ≤ (i a).val ∧ (i a).val < win4_2.index t a * S2000x312.size a + S2000x312.size a := by
  show i ∈ ((View.whole main_v57).slice (win4_2.rect t)).set ↔ _
  rw [View.set_slice_whole, Rect.mem_set_unit]
  exact Iff.rfl

/-- Every row lies in the block of the point numbered by the row's quotient by 2000. -/
theorem cover (i : S100000x312.Idx) : ∃ t : Fin cfg4.N, (cfg4.win 2).flush t = true ∧ i ∈ ((cfg4.win 2).blk t).view.set := by
  have hi0 : (i 0).val < 100000 := (i 0).isLt
  have hi1 : (i 1).val < 312 := (i 1).isLt
  have hN : cfg4.N = 50 := N_4
  let t : Fin cfg4.N := ⟨(i 0).val / 2000, by rw [hN]; omega⟩
  obtain ⟨e0, e1, e2, e3, e4, e5⟩ := idx_facts t
  have htv : t.val = (i 0).val / 2000 := rfl
  refine ⟨t, flush4_2 t, ?_⟩
  rw [mem_blk]
  intro a
  match a with
  | ⟨0, _⟩ => show win4_2.index t (0 : Fin 2) * 2000 ≤ (i 0).val ∧ (i 0).val < win4_2.index t (0 : Fin 2) * 2000 + 2000; omega
  | ⟨1, _⟩ => show win4_2.index t (1 : Fin 2) * 312 ≤ (i 1).val ∧ (i 1).val < win4_2.index t (1 : Fin 2) * 312 + 312; omega

/-- THE ARRAY the region leaves: the untiled product of the two arrays as the region finds them. -/
theorem value (c : Dev nD) : (dat4 V c).arrAt 2 cfg4.N = prod (V c main_v56) (V c main_arg8) :=
  (dat4 V c).arrAt_eq_of_cover 2 (prod (V c main_v56) (V c main_arg8)) (fun t _ => flushed_eq V c t) cover

end Cert.KernelIdeal.RegVal4

end
-- ==== Proof.RegComb3.lean ====
/-
  Region 3: self-loop term, bias and rectifier, tiled over rows.

  The region walks 50 blocks of 2000 consecutive rows.  At block t, for rows r = 2000·t … 2000·t + 1999 and every
  column c, it writes  max (agg (r, c) + xw (r, c) · d (r, 0) + b c, 0)  where `agg` are the aggregated messages, `xw`
  the transformed features, `d` the column of squared inverse root degrees and `b` the bias.  Every entry of the result
  depends on the same row of the row-indexed operands only, and the blocks' row ranges partition the 100000 rows, so
  the array the region leaves is that pointwise expression of the whole arrays as the region found them.
-/
import proofs.«150209_j12326556139995_1_alg».proof.Proof.Gen.KernelIdeal.Frame
import proofs.«150209_j12326556139995_1_alg».proof.Proof.Gen.ReferenceIdeal
import proofs.«150209_j12326556139995_1_alg».proof.Proof.LibRowOps
import proofs.«150209_j12326556139995_1_alg».proof.Proof.LibKeepdims
import Idealize.ShloMosaic.Lib.Pipeline.Value
import Idealize.ShloMosaic.Lib.ValueIdx
import Idealize.ShloMosaic.PureOps.Ideal.Laws

set_option maxRecDepth 16384

noncomputable section

namespace Cert.KernelIdeal.RegVal3

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The whole-array expression, in the host's operations: the column `d` broadcast along the rows, the bias made a
    row and broadcast down the rows, the rectifier as a maximum with the zero splat. -/
abbrev comb (agg xw : FVec Ideal S100000x156 .f32) (d : FVec Ideal S100000x1 .f32) (b : FVec Ideal S156 .f32) :
    FVec Ideal S100000x156 .f32 :=
  maximumf
    (addf (addf agg (mulf xw (broadcastInDim Cert.ReferenceIdeal.S100000x156 ![0, 1] Cert.ReferenceIdeal.Facts₀.bcast_S100000x1_S100000x156_0_1 d)))
      (broadcastInDim Cert.ReferenceIdeal.S100000x156 ![0, 1] Cert.ReferenceIdeal.Facts₀.bcast_S1x156_S100000x156_0_1
        (broadcastInDim Cert.ReferenceIdeal.S1x156 ![1] Cert.ReferenceIdeal.Facts₀.bcast_S156_S1x156_1 b)))
    (broadcastInDim Cert.ReferenceIdeal.S100000x156 ![] Cert.ReferenceIdeal.Facts₀.bcast_S_S100000x156
      (constant (F := Ideal) Cert.ReferenceIdeal.S_ .f32 0x00000000#32))

/-- Entry (r, c) of the whole-array expression. -/
theorem comb_apply (agg xw : FVec Ideal S100000x156 .f32) (d : FVec Ideal S100000x1 .f32) (b : FVec Ideal S156 .f32)
    (r : Fin 100000) (c : Fin 156) :
    comb agg xw d b (ix2 r c)
      = max ((agg (ix2 r c) + xw (ix2 r c) * d (ix2 r (0 : Fin 1))) + b (ix1 c)) (Ideal.ofBits .f32 0x00000000#32) := by
  have e1 : broadcastInDim Cert.ReferenceIdeal.S100000x156 ![0, 1] Cert.ReferenceIdeal.Facts₀.bcast_S100000x1_S100000x156_0_1 d (ix2 r c)
      = d (ix2 r (0 : Fin 1)) :=
    broadcastInDim_apply _ _ d (ix2 r c) (ix2 r (0 : Fin 1)) (fun a => by
      match a with
      | ⟨0, _⟩ => rfl
      | ⟨1, _⟩ => rfl)
  have e2 : broadcastInDim Cert.ReferenceIdeal.S100000x156 ![0, 1] Cert.ReferenceIdeal.Facts₀.bcast_S1x156_S100000x156_0_1
        (broadcastInDim Cert.ReferenceIdeal.S1x156 ![1] Cert.ReferenceIdeal.Facts₀.bcast_S156_S1x156_1 b) (ix2 r c) = b (ix1 c) := by
    refine (broadcastInDim_apply _ _ _ (ix2 r c) (ix2 (0 : Fin 1) c) (fun a => by
      match a with
      | ⟨0, _⟩ => rfl
      | ⟨1, _⟩ => rfl)).trans ?_
    exact broadcastInDim_apply _ _ b (ix2 (0 : Fin 1) c) (ix1 c) (fun a => by
      match a with
      | ⟨0, _⟩ => rfl)
  show max ((agg (ix2 r c) + xw (ix2 r c) * broadcastInDim Cert.ReferenceIdeal.S100000x156 ![0, 1] Cert.ReferenceIdeal.Facts₀.bcast_S100000x1_S100000x156_0_1 d (ix2 r c))
      + broadcastInDim Cert.ReferenceIdeal.S100000x156 ![0, 1] Cert.ReferenceIdeal.Facts₀.bcast_S1x156_S100000x156_0_1
        (broadcastInDim Cert.ReferenceIdeal.S1x156 ![1] Cert.ReferenceIdeal.Facts₀.bcast_S156_S1x156_1 b) (ix2 r c))
      (Ideal.ofBits .f32 0x00000000#32) = _
  rw [e1, e2]

/-- Entry (p, q) of one block's result: the body's arithmetic. -/
theorem pay_apply (v0 v2 : Vec Ideal S2000x156 .f32) (v4 : Vec Ideal S2000x1 .f32) (v9 : Vec Ideal S156 .f32)
    (p : Fin 2000) (q : Fin 156) :
    k3_pay1 v0 v2 v4 v9 (ix2 p q)
      = max ((v0 (ix2 p q) + v2 (ix2 p q) * v4 (ix2 p (0 : Fin 1))) + v9 (ix1 q)) (Ideal.ofBits .f32 0x00000000#32) := by
  have e1 : broadcastTo S2000x156 (shapeCast S2000x1 v4 shapeCasts_S2000x1_S2000x1) broadcasts_S2000x1_S2000x156 (ix2 p q)
      = v4 (ix2 p (0 : Fin 1)) := by
    rw [shapeCast_self]
    exact Cert.LibKeepdims.broadcastTo_col_apply v4 _ p q
  have e2 : broadcastTo S2000x156 (shapeCast S1x156 v9 shapeCasts_S156_S1x156) broadcasts_S1x156_S2000x156 (ix2 p q) = v9 (ix1 q) :=
    (Cert.KernelBody.broadcastTo_row_apply _ _ p q).trans (Cert.KernelBody.shapeCast_row_apply v9 _ q)
  show max ((shapeCast S2000x156 v0 shapeCasts_S2000x156_S2000x156 (ix2 p q)
        + shapeCast S2000x156 v2 shapeCasts_S2000x156_S2000x156 (ix2 p q)
          * broadcastTo S2000x156 (shapeCast S2000x1 v4 shapeCasts_S2000x1_S2000x1) broadcasts_S2000x1_S2000x156 (ix2 p q))
      + broadcastTo S2000x156 (shapeCast S1x156 v9 shapeCasts_S156_S1x156) broadcasts_S1x156_S2000x156 (ix2 p q))
      (Ideal.ofBits .f32 0x00000000#32) = _
  rw [e1, e2, shapeCast_self, shapeCast_self]

/-- Blocks of the four row-indexed windows are rows 2000·t …; the bias has one block. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 1) = 0
    ∧ win3_4.index t (0 : Fin 2) = t.val ∧ win3_4.index t (1 : Fin 2) = 0 :=
  (by decide +kernel : ∀ t : Fin grid3.N, _)

/-- One block against the whole. -/
theorem point (AGG XW : FVec Ideal S100000x156 .f32) (Dc : FVec Ideal S100000x1 .f32) (B : FVec Ideal S156 .f32)
    (v0 v2 : Vec Ideal S2000x156 .f32) (v4 : Vec Ideal S2000x1 .f32) (v9 : Vec Ideal S156 .f32) (tv : ℕ) (htv : tv < 50)
    (h0 : ∀ (p : Fin 2000) (q : Fin 156), v0 (ix2 p q) = AGG (ix2 ⟨tv * 2000 + p.val, by omega⟩ q))
    (h2 : ∀ (p : Fin 2000) (q : Fin 156), v2 (ix2 p q) = XW (ix2 ⟨tv * 2000 + p.val, by omega⟩ q))
    (h4 : ∀ (p : Fin 2000), v4 (ix2 p (0 : Fin 1)) = Dc (ix2 ⟨tv * 2000 + p.val, by omega⟩ (0 : Fin 1)))
    (h9 : ∀ (q : Fin 156), v9 (ix1 q) = B (ix1 q))
    (j : S2000x156.Idx) (I : S100000x156.Idx) (hI0 : (I 0).val = tv * 2000 + (j 0).val) (hI1 : (I 1).val = (j 1).val) :
    k3_pay1 v0 v2 v4 v9 j = comb AGG XW Dc B I := by
  obtain ⟨p, q, rfl⟩ : ∃ (p : Fin 2000) (q : Fin 156), j = ix2 p q := ⟨j 0, j 1, eq_ix2 j⟩
  have hI : I = ix2 (⟨tv * 2000 + p.val, by omega⟩ : Fin 100000) q := by
    funext a; apply Fin.ext
    match a with
    | ⟨0, _⟩ => exact hI0
    | ⟨1, _⟩ => exact hI1
  rw [hI, pay_apply, comb_apply, h0, h2, h4, h9]

/-- What point t writes back is block t of the whole-array expression of the arrays as the region finds them. -/
theorem flushed_eq (c : Dev nD) (t : Fin cfg3.N) :
    (dat3 V c).flushed 4 t = ((cfg3.win 4).blk t).view.read (Elt Ideal)
      (comb (V c main_v55) (V c main_v43) (V c main_v12) (V c main_arg7)) := by
  show (cfg3.win 4).cut (grid3.coords t) ((dat3 V c).after 4 t) = _
  rw [after3_4]
  unfold out3_4
  rw [View.canon_unit_zero hz2]
  simp only [View.ld_unit_zero (S := S2000x156) hz2, View.ld_unit_zero (S := S2000x1) hz2, View.ld_unit_zero (S := S156) hz1]
  obtain ⟨e00, e01, e10, e11, e20, e21, e30, e40, e41⟩ := idx_facts t
  have ht : t.val < 50 := t.isLt
  funext j
  show k3_pay1 (iblk3 V c 0 t) (iblk3 V c 1 t) (iblk3 V c 2 t) (iblk3 V c 3 t) j
    = comb (V c main_v55) (V c main_v43) (V c main_v12) (V c main_arg7) (((cfg3.win 4).blk t).view.emb j)
  refine point (V c main_v55) (V c main_v43) (V c main_v12) (V c main_arg7) (iblk3 V c 0 t) (iblk3 V c 1 t)
    (iblk3 V c 2 t) (iblk3 V c 3 t) t.val ht (fun p q => ?_) (fun p q => ?_) (fun p => ?_) (fun q => ?_) j _ ?_ ?_
  · show V c main_v55 (((cfg3.win 0).blk t).view.emb (ix2 p q)) = _
    refine congrArg (V c main_v55) (funext fun a => Fin.ext ?_)
    match a with
    | ⟨0, _⟩ => show win3_0.index t (0 : Fin 2) * 2000 + 1 * p.val = t.val * 2000 + p.val; omega
    | ⟨1, _⟩ => show win3_0.index t (1 : Fin 2) * 156 + 1 * q.val = q.val; omega
  · show V c main_v43 (((cfg3.win 1).blk t).view.emb (ix2 p q)) = _
    refine congrArg (V c main_v43) (funext fun a => Fin.ext ?_)
    match a with
    | ⟨0, _⟩ => show win3_1.index t (0 : Fin 2) * 2000 + 1 * p.val = t.val * 2000 + p.val; omega
    | ⟨1, _⟩ => show win3_1.index t (1 : Fin 2) * 156 + 1 * q.val = q.val; omega
  · show V c main_v12 (((cfg3.win 2).blk t).view.emb (ix2 p (0 : Fin 1))) = _
    refine congrArg (V c main_v12) (funext fun a => Fin.ext ?_)
    match a with
    | ⟨0, _⟩ => show win3_2.index t (0 : Fin 2) * 2000 + 1 * p.val = t.val * 2000 + p.val; omega
    | ⟨1, _⟩ => show win3_2.index t (1 : Fin 2) * 1 + 1 * 0 = 0; omega
  · show V c main_arg7 (((cfg3.win 3).blk t).view.emb (ix1 q)) = _
    refine congrArg (V c main_arg7) (funext fun a => Fin.ext ?_)
    match a with
    | ⟨0, _⟩ => show win3_3.index t (0 : Fin 1) * 156 + 1 * q.val = q.val; omega
  · show win3_4.index t (0 : Fin 2) * 2000 + 1 * (j 0).val = t.val * 2000 + (j 0).val; omega
  · show win3_4.index t (1 : Fin 2) * 156 + 1 * (j 1).val = (j 1).val; omega

/-- An index of the result is in point t's block iff each coordinate is in the block's range on its axis. -/
theorem mem_blk (t : Fin cfg3.N) (i : S100000x156.Idx) :
    i ∈ ((cfg3.win 4).blk t).view.set ↔ ∀ a : Fin 2, win3_4.index t a * S2000x156.size a ≤ (i a).val ∧ (i a).val < win3_4.index t a * S2000x156.size a + S2000x156.size a := by
  show i ∈ ((View.whole main_v56).slice (win3_4.rect t)).set ↔ _
  rw [View.set_slice_whole, Rect.mem_set_unit]
  exact Iff.rfl

/-- Every row lies in the block of the point numbered by the row's quotient by 2000. -/
theorem cover (i : S100000x156.Idx) : ∃ t : Fin cfg3.N, (cfg3.win 4).flush t = true ∧ i ∈ ((cfg3.win 4).blk t).view.set := by
  have hi0 : (i 0).val < 100000 := (i 0).isLt
  have hi1 : (i 1).val < 156 := (i 1).isLt
  have hN : cfg3.N = 50 := N_3
  let t : Fin cfg3.N := ⟨(i 0).val / 2000, by rw [hN]; omega⟩
  obtain ⟨e00, e01, e10, e11, e20, e21, e30, e40, e41⟩ := idx_facts t
  have htv : t.val = (i 0).val / 2000 := rfl
  refine ⟨t, flush3_4 t, ?_⟩
  rw [mem_blk]
  intro a
  match a with
  | ⟨0, _⟩ => show win3_4.index t (0 : Fin 2) * 2000 ≤ (i 0).val ∧ (i 0).val < win3_4.index t (0 : Fin 2) * 2000 + 2000; omega
  | ⟨1, _⟩ => show win3_4.index t (1 : Fin 2) * 156 ≤ (i 1).val ∧ (i 1).val < win3_4.index t (1 : Fin 2) * 156 + 156; omega

/-- THE ARRAY the region leaves. -/
theorem value (c : Dev nD) : (dat3 V c).arrAt 4 cfg3.N = comb (V c main_v55) (V c main_v43) (V c main_v12) (V c main_arg7) :=
  (dat3 V c).arrAt_eq_of_cover 4 (comb (V c main_v55) (V c main_v43) (V c main_v12) (V c main_arg7)) (fun t _ => flushed_eq V c t) cover

end Cert.KernelIdeal.RegVal3

end
-- ==== Proof.RegComb5.lean ====
/-
  Region 5: self-loop term, bias and rectifier, tiled over rows.

  The region walks 50 blocks of 2000 consecutive rows.  At block t, for rows r = 2000·t … 2000·t + 1999 and every
  column c, it writes  max (agg (r, c) + xw (r, c) · d (r, 0) + b c, 0)  where `agg` are the aggregated messages, `xw`
  the transformed features, `d` the column of squared inverse root degrees and `b` the bias.  Every entry of the result
  depends on the same row of the row-indexed operands only, and the blocks' row ranges partition the 100000 rows, so
  the array the region leaves is that pointwise expression of the whole arrays as the region found them.
-/
import proofs.«150209_j12326556139995_1_alg».proof.Proof.Gen.KernelIdeal.Frame
import proofs.«150209_j12326556139995_1_alg».proof.Proof.Gen.ReferenceIdeal
import proofs.«150209_j12326556139995_1_alg».proof.Proof.LibRowOps
import proofs.«150209_j12326556139995_1_alg».proof.Proof.LibKeepdims
import Idealize.ShloMosaic.Lib.Pipeline.Value
import Idealize.ShloMosaic.Lib.ValueIdx
import Idealize.ShloMosaic.PureOps.Ideal.Laws

set_option maxRecDepth 16384

noncomputable section

namespace Cert.KernelIdeal.RegVal5

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The whole-array expression, in the host's operations: the column `d` broadcast along the rows, the bias made a
    row and broadcast down the rows, the rectifier as a maximum with the zero splat. -/
abbrev comb (agg xw : FVec Ideal S100000x312 .f32) (d : FVec Ideal S100000x1 .f32) (b : FVec Ideal S312 .f32) :
    FVec Ideal S100000x312 .f32 :=
  maximumf
    (addf (addf agg (mulf xw (broadcastInDim Cert.ReferenceIdeal.S100000x312 ![0, 1] Cert.ReferenceIdeal.Facts₀.bcast_S100000x1_S100000x312_0_1 d)))
      (broadcastInDim Cert.ReferenceIdeal.S100000x312 ![0, 1] Cert.ReferenceIdeal.Facts₀.bcast_S1x312_S100000x312_0_1
        (broadcastInDim Cert.ReferenceIdeal.S1x312 ![1] Cert.ReferenceIdeal.Facts₀.bcast_S312_S1x312_1 b)))
    (broadcastInDim Cert.ReferenceIdeal.S100000x312 ![] Cert.ReferenceIdeal.Facts₀.bcast_S_S100000x312
      (constant (F := Ideal) Cert.ReferenceIdeal.S_ .f32 0x00000000#32))

/-- Entry (r, c) of the whole-array expression. -/
theorem comb_apply (agg xw : FVec Ideal S100000x312 .f32) (d : FVec Ideal S100000x1 .f32) (b : FVec Ideal S312 .f32)
    (r : Fin 100000) (c : Fin 312) :
    comb agg xw d b (ix2 r c)
      = max ((agg (ix2 r c) + xw (ix2 r c) * d (ix2 r (0 : Fin 1))) + b (ix1 c)) (Ideal.ofBits .f32 0x00000000#32) := by
  have e1 : broadcastInDim Cert.ReferenceIdeal.S100000x312 ![0, 1] Cert.ReferenceIdeal.Facts₀.bcast_S100000x1_S100000x312_0_1 d (ix2 r c)
      = d (ix2 r (0 : Fin 1)) :=
    broadcastInDim_apply _ _ d (ix2 r c) (ix2 r (0 : Fin 1)) (fun a => by
      match a with
      | ⟨0, _⟩ => rfl
      | ⟨1, _⟩ => rfl)
  have e2 : broadcastInDim Cert.ReferenceIdeal.S100000x312 ![0, 1] Cert.ReferenceIdeal.Facts₀.bcast_S1x312_S100000x312_0_1
        (broadcastInDim Cert.ReferenceIdeal.S1x312 ![1] Cert.ReferenceIdeal.Facts₀.bcast_S312_S1x312_1 b) (ix2 r c) = b (ix1 c) := by
    refine (broadcastInDim_apply _ _ _ (ix2 r c) (ix2 (0 : Fin 1) c) (fun a => by
      match a with
      | ⟨0, _⟩ => rfl
      | ⟨1, _⟩ => rfl)).trans ?_
    exact broadcastInDim_apply _ _ b (ix2 (0 : Fin 1) c) (ix1 c) (fun a => by
      match a with
      | ⟨0, _⟩ => rfl)
  show max ((agg (ix2 r c) + xw (ix2 r c) * broadcastInDim Cert.ReferenceIdeal.S100000x312 ![0, 1] Cert.ReferenceIdeal.Facts₀.bcast_S100000x1_S100000x312_0_1 d (ix2 r c))
      + broadcastInDim Cert.ReferenceIdeal.S100000x312 ![0, 1] Cert.ReferenceIdeal.Facts₀.bcast_S1x312_S100000x312_0_1
        (broadcastInDim Cert.ReferenceIdeal.S1x312 ![1] Cert.ReferenceIdeal.Facts₀.bcast_S312_S1x312_1 b) (ix2 r c))
      (Ideal.ofBits .f32 0x00000000#32) = _
  rw [e1, e2]

/-- Entry (p, q) of one block's result: the body's arithmetic. -/
theorem pay_apply (v0 v2 : Vec Ideal S2000x312 .f32) (v4 : Vec Ideal S2000x1 .f32) (v9 : Vec Ideal S312 .f32)
    (p : Fin 2000) (q : Fin 312) :
    k5_pay1 v0 v2 v4 v9 (ix2 p q)
      = max ((v0 (ix2 p q) + v2 (ix2 p q) * v4 (ix2 p (0 : Fin 1))) + v9 (ix1 q)) (Ideal.ofBits .f32 0x00000000#32) := by
  have e1 : broadcastTo S2000x312 (shapeCast S2000x1 v4 shapeCasts_S2000x1_S2000x1) broadcasts_S2000x1_S2000x312 (ix2 p q)
      = v4 (ix2 p (0 : Fin 1)) := by
    rw [shapeCast_self]
    exact Cert.LibKeepdims.broadcastTo_col_apply v4 _ p q
  have e2 : broadcastTo S2000x312 (shapeCast S1x312 v9 shapeCasts_S312_S1x312) broadcasts_S1x312_S2000x312 (ix2 p q) = v9 (ix1 q) :=
    (Cert.KernelBody.broadcastTo_row_apply _ _ p q).trans (Cert.KernelBody.shapeCast_row_apply v9 _ q)
  show max ((shapeCast S2000x312 v0 shapeCasts_S2000x312_S2000x312 (ix2 p q)
        + shapeCast S2000x312 v2 shapeCasts_S2000x312_S2000x312 (ix2 p q)
          * broadcastTo S2000x312 (shapeCast S2000x1 v4 shapeCasts_S2000x1_S2000x1) broadcasts_S2000x1_S2000x312 (ix2 p q))
      + broadcastTo S2000x312 (shapeCast S1x312 v9 shapeCasts_S312_S1x312) broadcasts_S1x312_S2000x312 (ix2 p q))
      (Ideal.ofBits .f32 0x00000000#32) = _
  rw [e1, e2, shapeCast_self, shapeCast_self]

/-- Blocks of the four row-indexed windows are rows 2000·t …; the bias has one block. -/
theorem idx_facts : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 1) = 0
    ∧ win5_4.index t (0 : Fin 2) = t.val ∧ win5_4.index t (1 : Fin 2) = 0 :=
  (by decide +kernel : ∀ t : Fin grid5.N, _)

/-- One block against the whole. -/
theorem point (AGG XW : FVec Ideal S100000x312 .f32) (Dc : FVec Ideal S100000x1 .f32) (B : FVec Ideal S312 .f32)
    (v0 v2 : Vec Ideal S2000x312 .f32) (v4 : Vec Ideal S2000x1 .f32) (v9 : Vec Ideal S312 .f32) (tv : ℕ) (htv : tv < 50)
    (h0 : ∀ (p : Fin 2000) (q : Fin 312), v0 (ix2 p q) = AGG (ix2 ⟨tv * 2000 + p.val, by omega⟩ q))
    (h2 : ∀ (p : Fin 2000) (q : Fin 312), v2 (ix2 p q) = XW (ix2 ⟨tv * 2000 + p.val, by omega⟩ q))
    (h4 : ∀ (p : Fin 2000), v4 (ix2 p (0 : Fin 1)) = Dc (ix2 ⟨tv * 2000 + p.val, by omega⟩ (0 : Fin 1)))
    (h9 : ∀ (q : Fin 312), v9 (ix1 q) = B (ix1 q))
    (j : S2000x312.Idx) (I : S100000x312.Idx) (hI0 : (I 0).val = tv * 2000 + (j 0).val) (hI1 : (I 1).val = (j 1).val) :
    k5_pay1 v0 v2 v4 v9 j = comb AGG XW Dc B I := by
  obtain ⟨p, q, rfl⟩ : ∃ (p : Fin 2000) (q : Fin 312), j = ix2 p q := ⟨j 0, j 1, eq_ix2 j⟩
  have hI : I = ix2 (⟨tv * 2000 + p.val, by omega⟩ : Fin 100000) q := by
    funext a; apply Fin.ext
    match a with
    | ⟨0, _⟩ => exact hI0
    | ⟨1, _⟩ => exact hI1
  rw [hI, pay_apply, comb_apply, h0, h2, h4, h9]

/-- What point t writes back is block t of the whole-array expression of the arrays as the region finds them. -/
theorem flushed_eq (c : Dev nD) (t : Fin cfg5.N) :
    (dat5 V c).flushed 4 t = ((cfg5.win 4).blk t).view.read (Elt Ideal)
      (comb (V c main_v69) (V c main_v57) (V c main_v12) (V c main_arg9)) := by
  show (cfg5.win 4).cut (grid5.coords t) ((dat5 V c).after 4 t) = _
  rw [after5_4]
  unfold out5_4
  rw [View.canon_unit_zero hz2]
  simp only [View.ld_unit_zero (S := S2000x312) hz2, View.ld_unit_zero (S := S2000x1) hz2, View.ld_unit_zero (S := S312) hz1]
  obtain ⟨e00, e01, e10, e11, e20, e21, e30, e40, e41⟩ := idx_facts t
  have ht : t.val < 50 := t.isLt
  funext j
  show k5_pay1 (iblk5 V c 0 t) (iblk5 V c 1 t) (iblk5 V c 2 t) (iblk5 V c 3 t) j
    = comb (V c main_v69) (V c main_v57) (V c main_v12) (V c main_arg9) (((cfg5.win 4).blk t).view.emb j)
  refine point (V c main_v69) (V c main_v57) (V c main_v12) (V c main_arg9) (iblk5 V c 0 t) (iblk5 V c 1 t)
    (iblk5 V c 2 t) (iblk5 V c 3 t) t.val ht (fun p q => ?_) (fun p q => ?_) (fun p => ?_) (fun q => ?_) j _ ?_ ?_
  · show V c main_v69 (((cfg5.win 0).blk t).view.emb (ix2 p q)) = _
    refine congrArg (V c main_v69) (funext fun a => Fin.ext ?_)
    match a with
    | ⟨0, _⟩ => show win5_0.index t (0 : Fin 2) * 2000 + 1 * p.val = t.val * 2000 + p.val; omega
    | ⟨1, _⟩ => show win5_0.index t (1 : Fin 2) * 312 + 1 * q.val = q.val; omega
  · show V c main_v57 (((cfg5.win 1).blk t).view.emb (ix2 p q)) = _
    refine congrArg (V c main_v57) (funext fun a => Fin.ext ?_)
    match a with
    | ⟨0, _⟩ => show win5_1.index t (0 : Fin 2) * 2000 + 1 * p.val = t.val * 2000 + p.val; omega
    | ⟨1, _⟩ => show win5_1.index t (1 : Fin 2) * 312 + 1 * q.val = q.val; omega
  · show V c main_v12 (((cfg5.win 2).blk t).view.emb (ix2 p (0 : Fin 1))) = _
    refine congrArg (V c main_v12) (funext fun a => Fin.ext ?_)
    match a with
    | ⟨0, _⟩ => show win5_2.index t (0 : Fin 2) * 2000 + 1 * p.val = t.val * 2000 + p.val; omega
    | ⟨1, _⟩ => show win5_2.index t (1 : Fin 2) * 1 + 1 * 0 = 0; omega
  · show V c main_arg9 (((cfg5.win 3).blk t).view.emb (ix1 q)) = _
    refine congrArg (V c main_arg9) (funext fun a => Fin.ext ?_)
    match a with
    | ⟨0, _⟩ => show win5_3.index t (0 : Fin 1) * 312 + 1 * q.val = q.val; omega
  · show win5_4.index t (0 : Fin 2) * 2000 + 1 * (j 0).val = t.val * 2000 + (j 0).val; omega
  · show win5_4.index t (1 : Fin 2) * 312 + 1 * (j 1).val = (j 1).val; omega

/-- An index of the result is in point t's block iff each coordinate is in the block's range on its axis. -/
theorem mem_blk (t : Fin cfg5.N) (i : S100000x312.Idx) :
    i ∈ ((cfg5.win 4).blk t).view.set ↔ ∀ a : Fin 2, win5_4.index t a * S2000x312.size a ≤ (i a).val ∧ (i a).val < win5_4.index t a * S2000x312.size a + S2000x312.size a := by
  show i ∈ ((View.whole main_v70).slice (win5_4.rect t)).set ↔ _
  rw [View.set_slice_whole, Rect.mem_set_unit]
  exact Iff.rfl

/-- Every row lies in the block of the point numbered by the row's quotient by 2000. -/
theorem cover (i : S100000x312.Idx) : ∃ t : Fin cfg5.N, (cfg5.win 4).flush t = true ∧ i ∈ ((cfg5.win 4).blk t).view.set := by
  have hi0 : (i 0).val < 100000 := (i 0).isLt
  have hi1 : (i 1).val < 312 := (i 1).isLt
  have hN : cfg5.N = 50 := N_5
  let t : Fin cfg5.N := ⟨(i 0).val / 2000, by rw [hN]; omega⟩
  obtain ⟨e00, e01, e10, e11, e20, e21, e30, e40, e41⟩ := idx_facts t
  have htv : t.val = (i 0).val / 2000 := rfl
  refine ⟨t, flush5_4 t, ?_⟩
  rw [mem_blk]
  intro a
  match a with
  | ⟨0, _⟩ => show win5_4.index t (0 : Fin 2) * 2000 ≤ (i 0).val ∧ (i 0).val < win5_4.index t (0 : Fin 2) * 2000 + 2000; omega
  | ⟨1, _⟩ => show win5_4.index t (1 : Fin 2) * 312 ≤ (i 1).val ∧ (i 1).val < win5_4.index t (1 : Fin 2) * 312 + 312; omega

/-- THE ARRAY the region leaves. -/
theorem value (c : Dev nD) : (dat5 V c).arrAt 4 cfg5.N = comb (V c main_v69) (V c main_v57) (V c main_v12) (V c main_arg9) :=
  (dat5 V c).arrAt_eq_of_cover 4 (comb (V c main_v69) (V c main_v57) (V c main_v12) (V c main_arg9)) (fun t _ => flushed_eq V c t) cover

end Cert.KernelIdeal.RegVal5

end
-- ==== Proof.KFoldB.lean ====
/-
  The idealized kernel's buffer contents at segment boundaries 4 to 10: the second and third message-passing layers.

  Each layer repeats the first: a dense product of the previous layer's output (a region), the normalised messages
  gathered at the edge sources and scatter-added at the targets (a host stretch), then self-loop term, bias and
  rectifier (a region).  A buffer that a segment does not write keeps its contents across it — the edge endpoints,
  the per-edge normaliser and the squared inverse root degrees computed once by the first stretch are carried this way
  to every later use — and each new array is the reference's stage function of the arguments (the reference
  recomputes the normalisers in every layer by the same operations of the same edge list).
-/
import proofs.«150209_j12326556139995_1_alg».proof.Proof.Gen.KernelIdeal.Frame
import proofs.«150209_j12326556139995_1_alg».proof.Proof.RefRun
import proofs.«150209_j12326556139995_1_alg».proof.Proof.LibColForms
import proofs.«150209_j12326556139995_1_alg».proof.Proof.KFoldA
import proofs.«150209_j12326556139995_1_alg».proof.Proof.RegLin2
import proofs.«150209_j12326556139995_1_alg».proof.Proof.RegLin4
import proofs.«150209_j12326556139995_1_alg».proof.Proof.RegComb3
import proofs.«150209_j12326556139995_1_alg».proof.Proof.RegComb5
import Idealize.ShloMosaic.Lib.StableHlo.Run

set_option maxRecDepth 16384

noncomputable section

namespace Cert.KernelIdeal.Fold

open Cert.KernelIdeal Cert.KernelIdeal.Gen
open Idealize.ShloMosaic Idealize.ShloMosaic.TcCoe Idealize.ShloMosaic.ValueIdx Idealize.SL.Sem Idealize.ShloMosaic.StableHlo
open Idealize.ShloMosaic.Pipeline (Dat Cfg Window)

variable (m : (ℓ : Loc nD τ sig) → Buf (Elt Ideal) ℓ) (ρ : Dev nD → PrngReg) (c : Dev nD)

/-! ## Arguments and first-stretch values carried forward -/
theorem w1_arg6 : W1 m ρ c (Proc.devRef .tc main_arg6) = (m ((c.tc : Thread nD τ).loc main_arg6)) := by host_keep
theorem w2_arg6 : W2 m ρ c (Proc.devRef .tc main_arg6) = (m ((c.tc : Thread nD τ).loc main_arg6)) := ((W2_of_ne m ρ c main_arg6 (by decide)).trans (w1_arg6 m ρ c))
theorem w3_arg6 : W3 m ρ c (Proc.devRef .tc main_arg6) = (m ((c.tc : Thread nD τ).loc main_arg6)) := ((show W3 m ρ c (Proc.devRef .tc main_arg6) = W2 m ρ c (Proc.devRef .tc main_arg6) by host_keep).trans (w2_arg6 m ρ c))
theorem w4_arg6 : W4 m ρ c (Proc.devRef .tc main_arg6) = (m ((c.tc : Thread nD τ).loc main_arg6)) := ((W4_of_ne m ρ c main_arg6 (by decide)).trans (w3_arg6 m ρ c))
theorem w1_arg7 : W1 m ρ c (Proc.devRef .tc main_arg7) = (m ((c.tc : Thread nD τ).loc main_arg7)) := by host_keep
theorem w2_arg7 : W2 m ρ c (Proc.devRef .tc main_arg7) = (m ((c.tc : Thread nD τ).loc main_arg7)) := ((W2_of_ne m ρ c main_arg7 (by decide)).trans (w1_arg7 m ρ c))
theorem w3_arg7 : W3 m ρ c (Proc.devRef .tc main_arg7) = (m ((c.tc : Thread nD τ).loc main_arg7)) := ((show W3 m ρ c (Proc.devRef .tc main_arg7) = W2 m ρ c (Proc.devRef .tc main_arg7) by host_keep).trans (w2_arg7 m ρ c))
theorem w4_arg7 : W4 m ρ c (Proc.devRef .tc main_arg7) = (m ((c.tc : Thread nD τ).loc main_arg7)) := ((W4_of_ne m ρ c main_arg7 (by decide)).trans (w3_arg7 m ρ c))
theorem w5_arg7 : W5 m ρ c (Proc.devRef .tc main_arg7) = (m ((c.tc : Thread nD τ).loc main_arg7)) := ((W5_of_ne m ρ c main_arg7 (by decide)).trans (w4_arg7 m ρ c))
theorem w6_arg7 : W6 m ρ c (Proc.devRef .tc main_arg7) = (m ((c.tc : Thread nD τ).loc main_arg7)) := ((show W6 m ρ c (Proc.devRef .tc main_arg7) = W5 m ρ c (Proc.devRef .tc main_arg7) by host_keep).trans (w5_arg7 m ρ c))
theorem w3_v1 : W3 m ρ c (Proc.devRef .tc main_v1) = Cert.ReferenceIdeal.Read.val_main_v1 (F := Ideal) (m ((c.tc : Thread nD τ).loc main_arg1)) := ((show W3 m ρ c (Proc.devRef .tc main_v1) = W2 m ρ c (Proc.devRef .tc main_v1) by host_keep).trans (w2_v1 m ρ c))
theorem w4_v1 : W4 m ρ c (Proc.devRef .tc main_v1) = Cert.ReferenceIdeal.Read.val_main_v1 (F := Ideal) (m ((c.tc : Thread nD τ).loc main_arg1)) := ((W4_of_ne m ρ c main_v1 (by decide)).trans (w3_v1 m ρ c))
theorem w5_v1 : W5 m ρ c (Proc.devRef .tc main_v1) = Cert.ReferenceIdeal.Read.val_main_v1 (F := Ideal) (m ((c.tc : Thread nD τ).loc main_arg1)) := ((W5_of_ne m ρ c main_v1 (by decide)).trans (w4_v1 m ρ c))
theorem w6_v1 : W6 m ρ c (Proc.devRef .tc main_v1) = Cert.ReferenceIdeal.Read.val_main_v1 (F := Ideal) (m ((c.tc : Thread nD τ).loc main_arg1)) := ((show W6 m ρ c (Proc.devRef .tc main_v1) = W5 m ρ c (Proc.devRef .tc main_v1) by host_keep).trans (w5_v1 m ρ c))
theorem w7_v1 : W7 m ρ c (Proc.devRef .tc main_v1) = Cert.ReferenceIdeal.Read.val_main_v1 (F := Ideal) (m ((c.tc : Thread nD τ).loc main_arg1)) := ((W7_of_ne m ρ c main_v1 (by decide)).trans (w6_v1 m ρ c))
theorem w8_v1 : W8 m ρ c (Proc.devRef .tc main_v1) = Cert.ReferenceIdeal.Read.val_main_v1 (F := Ideal) (m ((c.tc : Thread nD τ).loc main_arg1)) := ((W8_of_ne m ρ c main_v1 (by decide)).trans (w7_v1 m ρ c))
theorem w3_v3 : W3 m ρ c (Proc.devRef .tc main_v3) = Cert.ReferenceIdeal.Read.val_main_v3 (F := Ideal) (m ((c.tc : Thread nD τ).loc main_arg1)) := ((show W3 m ρ c (Proc.devRef .tc main_v3) = W2 m ρ c (Proc.devRef .tc main_v3) by host_keep).trans (w2_v3 m ρ c))
theorem w4_v3 : W4 m ρ c (Proc.devRef .tc main_v3) = Cert.ReferenceIdeal.Read.val_main_v3 (F := Ideal) (m ((c.tc : Thread nD τ).loc main_arg1)) := ((W4_of_ne m ρ c main_v3 (by decide)).trans (w3_v3 m ρ c))
theorem w5_v3 : W5 m ρ c (Proc.devRef .tc main_v3) = Cert.ReferenceIdeal.Read.val_main_v3 (F := Ideal) (m ((c.tc : Thread nD τ).loc main_arg1)) := ((W5_of_ne m ρ c main_v3 (by decide)).trans (w4_v3 m ρ c))
theorem w6_v3 : W6 m ρ c (Proc.devRef .tc main_v3) = Cert.ReferenceIdeal.Read.val_main_v3 (F := Ideal) (m ((c.tc : Thread nD τ).loc main_arg1)) := ((show W6 m ρ c (Proc.devRef .tc main_v3) = W5 m ρ c (Proc.devRef .tc main_v3) by host_keep).trans (w5_v3 m ρ c))
theorem w7_v3 : W7 m ρ c (Proc.devRef .tc main_v3) = Cert.ReferenceIdeal.Read.val_main_v3 (F := Ideal) (m ((c.tc : Thread nD τ).loc main_arg1)) := ((W7_of_ne m ρ c main_v3 (by decide)).trans (w6_v3 m ρ c))
theorem w8_v3 : W8 m ρ c (Proc.devRef .tc main_v3) = Cert.ReferenceIdeal.Read.val_main_v3 (F := Ideal) (m ((c.tc : Thread nD τ).loc main_arg1)) := ((W8_of_ne m ρ c main_v3 (by decide)).trans (w7_v3 m ρ c))
theorem w3_v28 : W3 m ρ c (Proc.devRef .tc main_v28) = Cert.ReferenceIdeal.Read.val_main_v27 (F := Ideal) (m ((c.tc : Thread nD τ).loc main_arg1)) := ((show W3 m ρ c (Proc.devRef .tc main_v28) = W2 m ρ c (Proc.devRef .tc main_v28) by host_keep).trans (w2_v28 m ρ c))
theorem w4_v28 : W4 m ρ c (Proc.devRef .tc main_v28) = Cert.ReferenceIdeal.Read.val_main_v27 (F := Ideal) (m ((c.tc : Thread nD τ).loc main_arg1)) := ((W4_of_ne m ρ c main_v28 (by decide)).trans (w3_v28 m ρ c))
theorem w5_v28 : W5 m ρ c (Proc.devRef .tc main_v28) = Cert.ReferenceIdeal.Read.val_main_v27 (F := Ideal) (m ((c.tc : Thread nD τ).loc main_arg1)) := ((W5_of_ne m ρ c main_v28 (by decide)).trans (w4_v28 m ρ c))
theorem w6_v28 : W6 m ρ c (Proc.devRef .tc main_v28) = Cert.ReferenceIdeal.Read.val_main_v27 (F := Ideal) (m ((c.tc : Thread nD τ).loc main_arg1)) := ((show W6 m ρ c (Proc.devRef .tc main_v28) = W5 m ρ c (Proc.devRef .tc main_v28) by host_keep).trans (w5_v28 m ρ c))
theorem w7_v28 : W7 m ρ c (Proc.devRef .tc main_v28) = Cert.ReferenceIdeal.Read.val_main_v27 (F := Ideal) (m ((c.tc : Thread nD τ).loc main_arg1)) := ((W7_of_ne m ρ c main_v28 (by decide)).trans (w6_v28 m ρ c))
theorem w8_v28 : W8 m ρ c (Proc.devRef .tc main_v28) = Cert.ReferenceIdeal.Read.val_main_v27 (F := Ideal) (m ((c.tc : Thread nD τ).loc main_arg1)) := ((W8_of_ne m ρ c main_v28 (by decide)).trans (w7_v28 m ρ c))
theorem w4_v12 : W4 m ρ c (Proc.devRef .tc main_v12) = Cert.ReferenceIdeal.Read.val_main_v41 (F := Ideal) (m ((c.tc : Thread nD τ).loc main_arg1)) := (((W4_arr m ρ c 2).trans (((dat1 (V3 m ρ) c).arrAt_in 2 rfl _).trans (A_eq1 (V3 m ρ) c 2))).trans (w3_v12 m ρ c))
theorem w5_v12 : W5 m ρ c (Proc.devRef .tc main_v12) = Cert.ReferenceIdeal.Read.val_main_v41 (F := Ideal) (m ((c.tc : Thread nD τ).loc main_arg1)) := ((W5_of_ne m ρ c main_v12 (by decide)).trans (w4_v12 m ρ c))
theorem w6_v12 : W6 m ρ c (Proc.devRef .tc main_v12) = Cert.ReferenceIdeal.Read.val_main_v41 (F := Ideal) (m ((c.tc : Thread nD τ).loc main_arg1)) := ((show W6 m ρ c (Proc.devRef .tc main_v12) = W5 m ρ c (Proc.devRef .tc main_v12) by host_keep).trans (w5_v12 m ρ c))
theorem w7_v12 : W7 m ρ c (Proc.devRef .tc main_v12) = Cert.ReferenceIdeal.Read.val_main_v41 (F := Ideal) (m ((c.tc : Thread nD τ).loc main_arg1)) := (((W7_arr m ρ c 2).trans (((dat3 (V6 m ρ) c).arrAt_in 2 rfl _).trans (A_eq3 (V6 m ρ) c 2))).trans (w6_v12 m ρ c))
theorem w8_v12 : W8 m ρ c (Proc.devRef .tc main_v12) = Cert.ReferenceIdeal.Read.val_main_v41 (F := Ideal) (m ((c.tc : Thread nD τ).loc main_arg1)) := ((W8_of_ne m ρ c main_v12 (by decide)).trans (w7_v12 m ρ c))
theorem w9_v12 : W9 m ρ c (Proc.devRef .tc main_v12) = Cert.ReferenceIdeal.Read.val_main_v41 (F := Ideal) (m ((c.tc : Thread nD τ).loc main_arg1)) := ((show W9 m ρ c (Proc.devRef .tc main_v12) = W8 m ρ c (Proc.devRef .tc main_v12) by host_keep).trans (w8_v12 m ρ c))

/-! ## The second layer -/

theorem w5_v43 : W5 m ρ c (Proc.devRef .tc main_v43) = Cert.ReferenceIdeal.Read.val_main_v49 (F := Ideal) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) := by
  refine (W5_arr m ρ c 2).trans ((Cert.KernelIdeal.RegVal2.value (V4 m ρ) c).trans ?_)
  show Cert.KernelIdeal.RegVal2.prod (W4 m ρ c (Proc.devRef .tc main_v42)) (W4 m ρ c (Proc.devRef .tc main_arg6)) = _
  rw [w4_v42, w4_arg6]
  rfl
theorem w6_v43 : W6 m ρ c (Proc.devRef .tc main_v43) = Cert.ReferenceIdeal.Read.val_main_v49 (F := Ideal) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) := ((show W6 m ρ c (Proc.devRef .tc main_v43) = W5 m ρ c (Proc.devRef .tc main_v43) by host_keep).trans (w5_v43 m ρ c))
theorem w6_v55 : W6 m ρ c (Proc.devRef .tc main_v55) = Cert.ReferenceIdeal.Read.val_main_v77 (F := Ideal) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) := by
  after_results_simp
  rw [w5_v43, w5_v1, w5_v3, w5_v28]
  rfl
theorem w7_v56 : W7 m ρ c (Proc.devRef .tc main_v56) = Cert.ReferenceIdeal.Read.val_main_v86 (F := Ideal) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) := by
  refine (W7_arr m ρ c 4).trans ((Cert.KernelIdeal.RegVal3.value (V6 m ρ) c).trans ?_)
  show Cert.KernelIdeal.RegVal3.comb (W6 m ρ c (Proc.devRef .tc main_v55)) (W6 m ρ c (Proc.devRef .tc main_v43)) (W6 m ρ c (Proc.devRef .tc main_v12)) (W6 m ρ c (Proc.devRef .tc main_arg7)) = _
  rw [w6_v55, w6_v43, w6_v12, w6_arg7]
  rfl

/-! ## The third layer -/

theorem w7_arg8 : W7 m ρ c (Proc.devRef .tc main_arg8) = (m ((c.tc : Thread nD τ).loc main_arg8)) :=
  (((W8_arr m ρ c 1).trans (((dat4 (V7 m ρ) c).arrAt_in 1 rfl _).trans (A_eq4 (V7 m ρ) c 1))).symm.trans ((show W9 m ρ c (Proc.devRef .tc main_arg8) = W8 m ρ c (Proc.devRef .tc main_arg8) by host_keep).symm.trans ((W10_of_ne m ρ c main_arg8 (by decide)).symm.trans ((show W11 m ρ c (Proc.devRef .tc main_arg8) = W10 m ρ c (Proc.devRef .tc main_arg8) by host_keep).symm.trans ((W12_of_ne m ρ c main_arg8 (by decide)).symm.trans (W12_main_arg8 m ρ c))))))
theorem w8_v57 : W8 m ρ c (Proc.devRef .tc main_v57) = Cert.ReferenceIdeal.Read.val_main_v87 (F := Ideal) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  refine (W8_arr m ρ c 2).trans ((Cert.KernelIdeal.RegVal4.value (V7 m ρ) c).trans ?_)
  show Cert.KernelIdeal.RegVal4.prod (W7 m ρ c (Proc.devRef .tc main_v56)) (W7 m ρ c (Proc.devRef .tc main_arg8)) = _
  rw [w7_v56, w7_arg8]
  rfl
theorem w9_v57 : W9 m ρ c (Proc.devRef .tc main_v57) = Cert.ReferenceIdeal.Read.val_main_v87 (F := Ideal) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := ((show W9 m ρ c (Proc.devRef .tc main_v57) = W8 m ρ c (Proc.devRef .tc main_v57) by host_keep).trans (w8_v57 m ρ c))
theorem w9_v69 : W9 m ρ c (Proc.devRef .tc main_v69) = Cert.ReferenceIdeal.Read.val_main_v115 (F := Ideal) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  after_results_simp
  rw [w8_v57, w8_v1, w8_v3, w8_v28]
  rfl
theorem w9_arg9 : W9 m ρ c (Proc.devRef .tc main_arg9) = (m ((c.tc : Thread nD τ).loc main_arg9)) :=
  (((W10_arr m ρ c 3).trans (((dat5 (V9 m ρ) c).arrAt_in 3 rfl _).trans (A_eq5 (V9 m ρ) c 3))).symm.trans ((show W11 m ρ c (Proc.devRef .tc main_arg9) = W10 m ρ c (Proc.devRef .tc main_arg9) by host_keep).symm.trans ((W12_of_ne m ρ c main_arg9 (by decide)).symm.trans (W12_main_arg9 m ρ c))))
theorem w10_v70 : W10 m ρ c (Proc.devRef .tc main_v70) = Cert.ReferenceIdeal.Read.val_main_v124 (F := Ideal) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  refine (W10_arr m ρ c 4).trans ((Cert.KernelIdeal.RegVal5.value (V9 m ρ) c).trans ?_)
  show Cert.KernelIdeal.RegVal5.comb (W9 m ρ c (Proc.devRef .tc main_v69)) (W9 m ρ c (Proc.devRef .tc main_v57)) (W9 m ρ c (Proc.devRef .tc main_v12)) (W9 m ρ c (Proc.devRef .tc main_arg9)) = _
  rw [w9_v69, w9_v57, w9_v12, w9_arg9]
  rfl

end Cert.KernelIdeal.Fold

end
-- ==== Proof.TailSpec.lean ====
/-
  The gated-fusion tail, one graph (one row) at a time, over the extended reals.

  For a graph with pooled node features `p` (312 numbers) and global embedding `e` (128 numbers):
    g      = e · Wproj + bproj                                   (312 numbers)
    logit  = (p · wp + g · wg) + bgate                           (one number; wp, wg the two halves of the gate weights)
    gate   = 1 / (1 + exp (−logit))
    fused  = gate · g + (1 − gate) · p
    h      = max (fused · Wfc1 + bfc1, 0)                        (1024 numbers)
    out    = h · Wfc2 + bfc2                                     (128 numbers)
  Every sum is a finite sum in the extended reals; nothing here needs the entries to be finite.  Because a row of the
  result depends on the same row of `p` and `e` only, a block of consecutive rows of the result is this function of
  the same block of rows of the operands, which is what lets a tiling over graphs and the untiled computation be
  compared row by row.
-/
import Idealize.ShloMosaic.PureOps.Ideal
import Idealize.ShloMosaic.Lib.ValueIdx

noncomputable section

open scoped BigOperators

namespace Cert.TailSpec

open Idealize.ShloMosaic Idealize.ShloMosaic.ValueIdx

/-- A matrix with `a` rows and `b` columns of extended reals, and a vector of length `a`. -/
abbrev Mat (a b : ℕ) := (⟨2, ![a, b]⟩ : Shape).Idx → EReal
abbrev Vc (a : ℕ) := (⟨1, ![a]⟩ : Shape).Idx → EReal

/-- A row vector times a matrix: entry `c` is the sum over `i` of `x i · W (i, c)`. -/
def vm {k n : ℕ} (x : Fin k → EReal) (W : Mat k n) : Fin n → EReal := fun c => ∑ i : Fin k, x i * W (ix2 i c)

/-- Row `r` of a matrix as a function of the column. -/
def row {m k : ℕ} (X : Mat m k) (r : Fin m) : Fin k → EReal := fun i => X (ix2 r i)

/-- The f32 words 0.0 and 1.0 as extended reals (kept as words: both sides of the comparison spell them so). -/
abbrev zero : EReal := Ideal.ofBits .f32 0x00000000#32
abbrev one : EReal := Ideal.ofBits .f32 0x3F800000#32

/-- The projected global embedding of one graph. -/
def proj (e : Fin 128 → EReal) (wproj : Mat 128 312) (bproj : Vc 312) : Fin 312 → EReal :=
  fun j => vm e wproj j + bproj (ix1 j)

/-- The gate of one graph. -/
def gate (p g : Fin 312 → EReal) (wp wg : Mat 312 1) (bgate : Vc 1) : EReal :=
  Ideal.logistic ((vm p wp 0 + vm g wg 0) + bgate (ix1 0))

/-- The fused features of one graph. -/
def fused (p g : Fin 312 → EReal) (γ : EReal) : Fin 312 → EReal := fun j => γ * g j + (one - γ) * p j

/-- The hidden layer of one graph. -/
def hidden (f : Fin 312 → EReal) (wfc1 : Mat 312 1024) (bfc1 : Vc 1024) : Fin 1024 → EReal :=
  fun j => max (vm f wfc1 j + bfc1 (ix1 j)) zero

/-- The tail's result for one graph. -/
def tailRow (p : Fin 312 → EReal) (e : Fin 128 → EReal) (wproj : Mat 128 312) (bproj : Vc 312) (wp wg : Mat 312 1)
    (bgate : Vc 1) (wfc1 : Mat 312 1024) (bfc1 : Vc 1024) (wfc2 : Mat 1024 128) (bfc2 : Vc 128) : Fin 128 → EReal :=
  fun j =>
    vm (hidden (fused p (proj e wproj bproj) (gate p (proj e wproj bproj) wp wg bgate)) wfc1 bfc1) wfc2 j
      + bfc2 (ix1 j)

/-- The tail on `m` graphs at once: row `r` of the result is `tailRow` of row `r` of the two per-graph operands. -/
def tail {m : ℕ} (P : Mat m 312) (E : Mat m 128) (wproj : Mat 128 312) (bproj : Vc 312) (wp wg : Mat 312 1)
    (bgate : Vc 1) (wfc1 : Mat 312 1024) (bfc1 : Vc 1024) (wfc2 : Mat 1024 128) (bfc2 : Vc 128) : Mat m 128 :=
  fun j => tailRow (row P ⟨(j 0).val, idx2_lt0 j⟩) (row E ⟨(j 0).val, idx2_lt0 j⟩) wproj bproj wp wg bgate wfc1 bfc1 wfc2 bfc2
    ⟨(j 1).val, idx2_lt1 j⟩

theorem tail_apply {m : ℕ} (P : Mat m 312) (E : Mat m 128) (wproj : Mat 128 312) (bproj : Vc 312) (wp wg : Mat 312 1)
    (bgate : Vc 1) (wfc1 : Mat 312 1024) (bfc1 : Vc 1024) (wfc2 : Mat 1024 128) (bfc2 : Vc 128) (r : Fin m) (c : Fin 128) :
    tail P E wproj bproj wp wg bgate wfc1 bfc1 wfc2 bfc2 (ix2 r c)
      = tailRow (row P r) (row E r) wproj bproj wp wg bgate wfc1 bfc1 wfc2 bfc2 c := rfl

end Cert.TailSpec

end
-- ==== Proof.RegFin6.lean ====
/-
  Region 6: the gated-fusion tail, tiled over graphs.

  The region walks 4 blocks of 1024 consecutive graphs (rows).  At block t it reads rows 1024·t … 1024·t + 1023 of the
  pooled node features P [4096, 312] and of the global embeddings E [4096, 128], and the whole of the nine weight and
  bias arrays, and for every row r of the block computes
    g      = E r · Wproj + bproj
    gate   = logistic ((P r · wp + g · wg) + bgate)
    fused  = gate · g + (1 − gate) · P r
    h      = max (fused · Wfc1 + bfc1, 0)
    out r  = h · Wfc2 + bfc2
  and writes the 1024 result rows to the same rows of the result.  Each result row depends on the same row of P and E
  only, and the blocks' row ranges partition the 4096 rows, so the array the region leaves is the tail function of the
  whole arrays as the region found them.
-/
import proofs.«150209_j12326556139995_1_alg».proof.Proof.Gen.KernelIdeal.Frame
import proofs.«150209_j12326556139995_1_alg».proof.Proof.TailSpec
import proofs.«150209_j12326556139995_1_alg».proof.Proof.LibRowOps
import proofs.«150209_j12326556139995_1_alg».proof.Proof.LibKeepdims
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.RegVal6

open Cert.KernelIdeal Cert.KernelIdeal.Gen
open Idealize.ShloMosaic Idealize.ShloMosaic.TcCoe Idealize.ShloMosaic.ValueIdx Idealize.SL.Sem
open Idealize.ShloMosaic.Pipeline (Dat Cfg Window)

/-! ## The body's intermediate arrays, named

  The body's arithmetic as five arrays over one block of 1024 rows, each a function of the arrays before it.  The two
  generated payloads are compositions of these (the two theorems `pay2_eq`, `pay1_eq`, by unfolding). -/

section Stages

variable {F : FTy → Type} [FloatOps F]

/-- The projected embeddings of the block: the [1024, 128] embeddings times the [128, 312] projection weights, plus
    the projection bias on every row. -/
def projK (v2 : Vec F S1024x128 .f32) (v4 : Vec F S128x312 .f32) (v7 : Vec F S312 .f32) : FVec F S1024x312 .f32 :=
  addf
    (matmul dot_S1024x128_S128x312_S1024x312_1_0_0_1_n_n none
      (truncf .bf16 v2 bitsLt_bf16_f32 : FVec F S1024x128 .bf16)
      (truncf .bf16 v4 bitsLt_bf16_f32 : FVec F S128x312 .bf16)
      (constant S1024x312 .f32 0x00000000#32))
    (broadcastTo S1024x312 (shapeCast S1x312 v7 shapeCasts_S312_S1x312) broadcasts_S1x312_S1024x312)

/-- The gate's argument, a column [1024, 1]: pooled features times the first half of the gate weights, plus projected
    embeddings times the second half, plus the gate bias on every row. -/
def logitK (v0 : Vec F S1024x312 .f32) (v2 : Vec F S1024x128 .f32) (v4 : Vec F S128x312 .f32) (v7 : Vec F S312 .f32)
    (v13 v16 : Vec F S312x1 .f32) (v22 : Vec F S1 .f32) : FVec F S1024x1 .f32 :=
  addf
    (addf
      (matmul dot_S1024x312_S312x1_S1024x1_1_0_0_1_n_n none
        (truncf .bf16 (shapeCast S1024x312 v0 shapeCasts_S1024x312_S1024x312) bitsLt_bf16_f32 : FVec F S1024x312 .bf16)
        (truncf .bf16 (shapeCast S312x1 v13 shapeCasts_S312x1_S312x1) bitsLt_bf16_f32 : FVec F S312x1 .bf16)
        (constant S1024x1 .f32 0x00000000#32))
      (matmul dot_S1024x312_S312x1_S1024x1_1_0_0_1_n_n none
        (truncf .bf16 (projK v2 v4 v7) bitsLt_bf16_f32 : FVec F S1024x312 .bf16)
        (truncf .bf16 (shapeCast S312x1 v16 shapeCasts_S312x1_S312x1) bitsLt_bf16_f32 : FVec F S312x1 .bf16)
        (constant S1024x1 .f32 0x00000000#32)))
    (broadcastTo S1024x1 (shapeCast S1x1 v22 shapeCasts_S1_S1x1) broadcasts_S1x1_S1024x1)

/-- The gate, a column [1024, 1]: the logistic function of the gate's argument. -/
def gateK (v0 : Vec F S1024x312 .f32) (v2 : Vec F S1024x128 .f32) (v4 : Vec F S128x312 .f32) (v7 : Vec F S312 .f32)
    (v13 v16 : Vec F S312x1 .f32) (v22 : Vec F S1 .f32) : FVec F S1024x1 .f32 :=
  logistic (logitK v0 v2 v4 v7 v13 v16 v22)

/-- The fused features [1024, 312]: the gate column along the rows times the projected embeddings, plus one minus the
    gate column along the rows times the pooled features. -/
def fusedK (v0 : Vec F S1024x312 .f32) (v2 : Vec F S1024x128 .f32) (v4 : Vec F S128x312 .f32) (v7 : Vec F S312 .f32)
    (v13 v16 : Vec F S312x1 .f32) (v22 : Vec F S1 .f32) : FVec F S1024x312 .f32 :=
  addf
    (mulf (broadcastTo S1024x312 (gateK v0 v2 v4 v7 v13 v16 v22) broadcasts_S1024x1_S1024x312) (projK v2 v4 v7))
    (mulf
      (broadcastTo S1024x312
        (subf (broadcast S1024x1 (Scalar.ofBits .f32 0x3F800000#32 : F .f32)) (gateK v0 v2 v4 v7 v13 v16 v22))
        broadcasts_S1024x1_S1024x312)
      (shapeCast S1024x312 v0 shapeCasts_S1024x312_S1024x312))

/-- The first payload is the fused features times the [312, 1024] first-layer weights. -/
theorem pay2_eq (v0 : Vec F S1024x312 .f32) (v2 : Vec F S1024x128 .f32) (v4 : Vec F S128x312 .f32) (v7 : Vec F S312 .f32)
    (v13 v16 : Vec F S312x1 .f32) (v22 : Vec F S1 .f32) (v34 : Vec F S312x1024 .f32) :
    k6_pay2 v0 v2 v4 v7 v13 v16 v22 v34
      = matmul dot_S1024x312_S312x1024_S1024x1024_1_0_0_1_n_n none
          (truncf .bf16 (fusedK v0 v2 v4 v7 v13 v16 v22) bitsLt_bf16_f32 : FVec F S1024x312 .bf16)
          (truncf .bf16 v34 bitsLt_bf16_f32 : FVec F S312x1024 .bf16)
          (constant S1024x1024 .f32 0x00000000#32) := rfl

/-- The hidden layer [1024, 1024]: a product plus the first-layer bias on every row, cut below at zero. -/
def hiddenK (v37 : FVec F S1024x1024 .f32) (v38 : Vec F S1024 .f32) : FVec F S1024x1024 .f32 :=
  maximumf
    (addf v37 (broadcastTo S1024x1024 (shapeCast S1x1024 v38 shapeCasts_S1024_S1x1024) broadcasts_S1x1024_S1024x1024))
    (broadcast S1024x1024 (Scalar.ofBits .f32 0x00000000#32 : F .f32))

/-- The second payload is the hidden layer times the [1024, 128] second-layer weights, plus the second-layer bias on
    every row. -/
theorem pay1_eq (v37 : FVec F S1024x1024 .f32) (v38 : Vec F S1024 .f32) (v44 : Vec F S1024x128 .f32) (v48 : Vec F S128 .f32) :
    k6_pay1 v37 v38 v44 v48
      = addf
          (matmul dot_S1024x1024_S1024x128_S1024x128_1_0_0_1_n_n none
            (truncf .bf16 (hiddenK v37 v38) bitsLt_bf16_f32 : FVec F S1024x1024 .bf16)
            (truncf .bf16 v44 bitsLt_bf16_f32 : FVec F S1024x128 .bf16)
            (constant S1024x128 .f32 0x00000000#32))
          (broadcastTo S1024x128 (shapeCast S1x128 v48 shapeCasts_S128_S1x128) broadcasts_S1x128_S1024x128) := rfl

end Stages

/-! ## The stages read at an index, over the extended reals -/

/-- A product of an [m, k] by a [k, n] array accumulated into the zero splat (the operands' format changes are the
    identity here), read at (r, c): row r of the left operand times the right operand, at column c. -/
theorem mm_apply {m k n : ℕ} (d : DotDims ⟨2, ![m, k]⟩ ⟨2, ![k, n]⟩ ⟨2, ![m, n]⟩)
    (w : DotDims.WF ⟨2, ![m, k]⟩ ⟨2, ![k, n]⟩ ⟨2, ![m, n]⟩ [1] [0] [0] [1] [] [])
    (hd : d = ⟨[1], [0], [0], [1], [], [], w⟩)
    (A : FVec Ideal ⟨2, ![m, k]⟩ .f32) (B : FVec Ideal ⟨2, ![k, n]⟩ .f32) (r : Fin m) (c : Fin n) :
    matmul d none (truncf .bf16 A bitsLt_bf16_f32 : FVec Ideal ⟨2, ![m, k]⟩ .bf16)
        (truncf .bf16 B bitsLt_bf16_f32 : FVec Ideal ⟨2, ![k, n]⟩ .bf16)
        (constant (F := Ideal) ⟨2, ![m, n]⟩ .f32 0x00000000#32) (ix2 r c)
      = Cert.TailSpec.vm (Cert.TailSpec.row A r) B c := by
  subst hd
  exact Cert.KernelBody.matmul_plain_zero_apply w none _ _ r c

/-- A length-b vector made a row [1, b] and broadcast down the rows of [a, b], read at (n, k): the vector's entry k. -/
theorem biasRow_apply {a b : ℕ} (x : (⟨1, ![b]⟩ : Shape).Idx → EReal) (h1 : (⟨1, ![b]⟩ : Shape).ShapeCasts ⟨2, ![1, b]⟩)
    (h2 : (⟨2, ![1, b]⟩ : Shape).Broadcasts ⟨2, ![a, b]⟩) (n : Fin a) (k : Fin b) :
    broadcastTo ⟨2, ![a, b]⟩ (shapeCast ⟨2, ![1, b]⟩ x h1) h2 (ix2 n k) = x (ix1 k) :=
  (Cert.KernelBody.broadcastTo_row_apply _ h2 n k).trans (Cert.KernelBody.shapeCast_row_apply x h1 k)

/-- Row p of the projected embeddings is the projection of row p of the embeddings. -/
theorem projK_row (x1 : Vec Ideal S1024x128 .f32) (x2 : Vec Ideal S128x312 .f32) (x3 : Vec Ideal S312 .f32) (p : Fin 1024) :
    Cert.TailSpec.row (projK x1 x2 x3) p = Cert.TailSpec.proj (Cert.TailSpec.row x1 p) x2 x3 := by
  funext j
  show projK x1 x2 x3 (ix2 p j) = Cert.TailSpec.vm (Cert.TailSpec.row x1 p) x2 j + x3 (ix1 j)
  unfold projK
  rw [addf_apply]
  exact congrArg₂ (· + ·) (mm_apply _ _ rfl x1 x2 p j) (biasRow_apply x3 _ _ p j)

/-- Entry (p, 0) of the gate's argument depends on row p of the pooled features and of the embeddings only. -/
theorem logitK_apply (x0 : Vec Ideal S1024x312 .f32) (x1 : Vec Ideal S1024x128 .f32) (x2 : Vec Ideal S128x312 .f32)
    (x3 : Vec Ideal S312 .f32) (x4 x5 : Vec Ideal S312x1 .f32) (x6 : Vec Ideal S1 .f32) (p : Fin 1024) :
    logitK x0 x1 x2 x3 x4 x5 x6 (ix2 p (0 : Fin 1))
      = (Cert.TailSpec.vm (Cert.TailSpec.row x0 p) x4 0
          + Cert.TailSpec.vm (Cert.TailSpec.proj (Cert.TailSpec.row x1 p) x2 x3) x5 0) + x6 (ix1 0) := by
  unfold logitK
  rw [addf_apply, addf_apply]
  refine congrArg₂ (· + ·) (congrArg₂ (· + ·) ?_ ?_) (biasRow_apply x6 _ _ p (0 : Fin 1))
  · refine (mm_apply _ _ rfl _ _ p (0 : Fin 1)).trans ?_
    rw [shapeCast_self, shapeCast_self]
  · refine (mm_apply _ _ rfl _ _ p (0 : Fin 1)).trans ?_
    rw [shapeCast_self, projK_row]

/-- Entry (p, 0) of the gate column is the gate of graph p. -/
theorem gateK_apply (x0 : Vec Ideal S1024x312 .f32) (x1 : Vec Ideal S1024x128 .f32) (x2 : Vec Ideal S128x312 .f32)
    (x3 : Vec Ideal S312 .f32) (x4 x5 : Vec Ideal S312x1 .f32) (x6 : Vec Ideal S1 .f32) (p : Fin 1024) :
    gateK x0 x1 x2 x3 x4 x5 x6 (ix2 p (0 : Fin 1))
      = Cert.TailSpec.gate (Cert.TailSpec.row x0 p) (Cert.TailSpec.proj (Cert.TailSpec.row x1 p) x2 x3) x4 x5 x6 :=
  congrArg Ideal.logistic (logitK_apply x0 x1 x2 x3 x4 x5 x6 p)

/-- Row p of the fused features is the fusion of row p of the pooled features with the projection of row p of the
    embeddings, at graph p's gate. -/
theorem fusedK_row (x0 : Vec Ideal S1024x312 .f32) (x1 : Vec Ideal S1024x128 .f32) (x2 : Vec Ideal S128x312 .f32)
    (x3 : Vec Ideal S312 .f32) (x4 x5 : Vec Ideal S312x1 .f32) (x6 : Vec Ideal S1 .f32) (p : Fin 1024) :
    Cert.TailSpec.row (fusedK x0 x1 x2 x3 x4 x5 x6) p
      = Cert.TailSpec.fused (Cert.TailSpec.row x0 p) (Cert.TailSpec.proj (Cert.TailSpec.row x1 p) x2 x3)
          (Cert.TailSpec.gate (Cert.TailSpec.row x0 p) (Cert.TailSpec.proj (Cert.TailSpec.row x1 p) x2 x3) x4 x5 x6) := by
  funext j
  show fusedK x0 x1 x2 x3 x4 x5 x6 (ix2 p j)
    = Cert.TailSpec.gate (Cert.TailSpec.row x0 p) (Cert.TailSpec.proj (Cert.TailSpec.row x1 p) x2 x3) x4 x5 x6
          * Cert.TailSpec.proj (Cert.TailSpec.row x1 p) x2 x3 j
        + (Cert.TailSpec.one
            - Cert.TailSpec.gate (Cert.TailSpec.row x0 p) (Cert.TailSpec.proj (Cert.TailSpec.row x1 p) x2 x3) x4 x5 x6)
          * Cert.TailSpec.row x0 p j
  unfold fusedK
  rw [addf_apply, mulf_apply, mulf_apply, Cert.LibKeepdims.broadcastTo_col_apply, Cert.LibKeepdims.broadcastTo_col_apply,
    subf_apply, gateK_apply, shapeCast_self, ← projK_row]
  rfl

/-- Row p of the first payload is graph p's fused features times the first-layer weights. -/
theorem pay2_row (x0 : Vec Ideal S1024x312 .f32) (x1 : Vec Ideal S1024x128 .f32) (x2 : Vec Ideal S128x312 .f32)
    (x3 : Vec Ideal S312 .f32) (x4 x5 : Vec Ideal S312x1 .f32) (x6 : Vec Ideal S1 .f32) (x7 : Vec Ideal S312x1024 .f32)
    (p : Fin 1024) :
    Cert.TailSpec.row (k6_pay2 x0 x1 x2 x3 x4 x5 x6 x7) p
      = Cert.TailSpec.vm
          (Cert.TailSpec.fused (Cert.TailSpec.row x0 p) (Cert.TailSpec.proj (Cert.TailSpec.row x1 p) x2 x3)
            (Cert.TailSpec.gate (Cert.TailSpec.row x0 p) (Cert.TailSpec.proj (Cert.TailSpec.row x1 p) x2 x3) x4 x5 x6))
          x7 := by
  funext j
  rw [pay2_eq]
  refine (mm_apply _ _ rfl _ _ p j).trans ?_
  rw [fusedK_row]

/-- Row p of the hidden layer built on an array whose row p is `f` times the first-layer weights is the hidden layer
    of `f`. -/
theorem hiddenK_row (y : FVec Ideal S1024x1024 .f32) (x8 : Vec Ideal S1024 .f32) (p : Fin 1024) (f : Fin 312 → EReal)
    (x7 : Vec Ideal S312x1024 .f32) (hy : Cert.TailSpec.row y p = Cert.TailSpec.vm f x7) :
    Cert.TailSpec.row (hiddenK y x8) p = Cert.TailSpec.hidden f x7 x8 := by
  funext j
  show hiddenK y x8 (ix2 p j) = max (Cert.TailSpec.vm f x7 j + x8 (ix1 j)) Cert.TailSpec.zero
  unfold hiddenK
  rw [maximumf_apply, addf_apply, biasRow_apply x8 _ _ p j, ← hy]
  rfl

/-- Entry (p, q) of one block's result: the tail of graph p of the block, at q. -/
theorem pay_apply (x0 : Vec Ideal S1024x312 .f32) (x1 : Vec Ideal S1024x128 .f32) (x2 : Vec Ideal S128x312 .f32)
    (x3 : Vec Ideal S312 .f32) (x4 x5 : Vec Ideal S312x1 .f32) (x6 : Vec Ideal S1 .f32) (x7 : Vec Ideal S312x1024 .f32)
    (x8 : Vec Ideal S1024 .f32) (x9 : Vec Ideal S1024x128 .f32) (x10 : Vec Ideal S128 .f32) (p : Fin 1024) (q : Fin 128) :
    k6_pay1 (k6_pay2 x0 x1 x2 x3 x4 x5 x6 x7) x8 x9 x10 (ix2 p q)
      = Cert.TailSpec.tailRow (Cert.TailSpec.row x0 p) (Cert.TailSpec.row x1 p) x2 x3 x4 x5 x6 x7 x8 x9 x10 q := by
  rw [pay1_eq, addf_apply]
  show _ = Cert.TailSpec.vm (Cert.TailSpec.hidden _ x7 x8) x9 q + x10 (ix1 q)
  refine congrArg₂ (· + ·) ((mm_apply _ _ rfl _ _ p q).trans ?_) (biasRow_apply x10 _ _ p q)
  rw [hiddenK_row _ x8 p _ x7 (pay2_row x0 x1 x2 x3 x4 x5 x6 x7 p)]

/-! ## The tiling -/

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- Block t of the two per-graph operands and of the result is rows 1024·t …; each of the nine weight and bias arrays
    has one block. -/
theorem idx_facts : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 1) = 0
    ∧ win6_4.index t (0 : Fin 2) = 0 ∧ win6_4.index t (1 : Fin 2) = 0
    ∧ win6_5.index t (0 : Fin 2) = 0 ∧ win6_5.index t (1 : Fin 2) = 0
    ∧ win6_6.index t (0 : Fin 1) = 0
    ∧ win6_7.index t (0 : Fin 2) = 0 ∧ win6_7.index t (1 : Fin 2) = 0
    ∧ win6_8.index t (0 : Fin 1) = 0
    ∧ win6_9.index t (0 : Fin 2) = 0 ∧ win6_9.index t (1 : Fin 2) = 0
    ∧ win6_10.index t (0 : Fin 1) = 0
    ∧ win6_11.index t (0 : Fin 2) = t.val ∧ win6_11.index t (1 : Fin 2) = 0 :=
  (by decide +kernel : ∀ t : Fin grid6.N, _)

/-- One block against the whole: if the block's rows of the two per-graph operands are rows 1024·tv + p of `P` and `E`
    and the nine other operands are the whole weight and bias arrays, the block's result at (p, q) is the whole tail at
    (1024·tv + p, q). -/
theorem point (P : Cert.TailSpec.Mat 4096 312) (E : Cert.TailSpec.Mat 4096 128) (W2 : Cert.TailSpec.Mat 128 312)
    (W3 : Cert.TailSpec.Vc 312) (W4 W5 : Cert.TailSpec.Mat 312 1) (W6 : Cert.TailSpec.Vc 1)
    (W7 : Cert.TailSpec.Mat 312 1024) (W8 : Cert.TailSpec.Vc 1024) (W9 : Cert.TailSpec.Mat 1024 128)
    (W10 : Cert.TailSpec.Vc 128)
    (x0 : Vec Ideal S1024x312 .f32) (x1 : Vec Ideal S1024x128 .f32) (x2 : Vec Ideal S128x312 .f32)
    (x3 : Vec Ideal S312 .f32) (x4 x5 : Vec Ideal S312x1 .f32) (x6 : Vec Ideal S1 .f32) (x7 : Vec Ideal S312x1024 .f32)
    (x8 : Vec Ideal S1024 .f32) (x9 : Vec Ideal S1024x128 .f32) (x10 : Vec Ideal S128 .f32) (tv : ℕ) (htv : tv < 4)
    (h0 : ∀ (p : Fin 1024) (i : Fin 312), x0 (ix2 p i) = P (ix2 ⟨tv * 1024 + p.val, by omega⟩ i))
    (h1 : ∀ (p : Fin 1024) (i : Fin 128), x1 (ix2 p i) = E (ix2 ⟨tv * 1024 + p.val, by omega⟩ i))
    (h2 : ∀ (i : Fin 128) (q : Fin 312), x2 (ix2 i q) = W2 (ix2 i q))
    (h3 : ∀ q : Fin 312, x3 (ix1 q) = W3 (ix1 q))
    (h4 : ∀ (i : Fin 312) (q : Fin 1), x4 (ix2 i q) = W4 (ix2 i q))
    (h5 : ∀ (i : Fin 312) (q : Fin 1), x5 (ix2 i q) = W5 (ix2 i q))
    (h6 : ∀ q : Fin 1, x6 (ix1 q) = W6 (ix1 q))
    (h7 : ∀ (i : Fin 312) (q : Fin 1024), x7 (ix2 i q) = W7 (ix2 i q))
    (h8 : ∀ q : Fin 1024, x8 (ix1 q) = W8 (ix1 q))
    (h9 : ∀ (i : Fin 1024) (q : Fin 128), x9 (ix2 i q) = W9 (ix2 i q))
    (h10 : ∀ q : Fin 128, x10 (ix1 q) = W10 (ix1 q))
    (j : S1024x128.Idx) (I : S4096x128.Idx) (hI0 : (I 0).val = tv * 1024 + (j 0).val) (hI1 : (I 1).val = (j 1).val) :
    k6_pay1 (k6_pay2 x0 x1 x2 x3 x4 x5 x6 x7) x8 x9 x10 j = Cert.TailSpec.tail P E W2 W3 W4 W5 W6 W7 W8 W9 W10 I := by
  obtain ⟨p, q, rfl⟩ : ∃ (p : Fin 1024) (q : Fin 128), j = ix2 p q := ⟨j 0, j 1, eq_ix2 j⟩
  have hI : I = ix2 (⟨tv * 1024 + p.val, by omega⟩ : Fin 4096) q := by
    funext a; apply Fin.ext
    match a with
    | ⟨0, _⟩ => exact hI0
    | ⟨1, _⟩ => exact hI1
  have e2 : x2 = W2 := funext fun y => by rw [eq_ix2 y]; exact h2 _ _
  have e3 : x3 = W3 := funext fun y => by rw [eq_ix1 y]; exact h3 _
  have e4 : x4 = W4 := funext fun y => by rw [eq_ix2 y]; exact h4 _ _
  have e5 : x5 = W5 := funext fun y => by rw [eq_ix2 y]; exact h5 _ _
  have e6 : x6 = W6 := funext fun y => by rw [eq_ix1 y]; exact h6 _
  have e7 : x7 = W7 := funext fun y => by rw [eq_ix2 y]; exact h7 _ _
  have e8 : x8 = W8 := funext fun y => by rw [eq_ix1 y]; exact h8 _
  have e9 : x9 = W9 := funext fun y => by rw [eq_ix2 y]; exact h9 _ _
  have e10 : x10 = W10 := funext fun y => by rw [eq_ix1 y]; exact h10 _
  have r0 : Cert.TailSpec.row x0 p = Cert.TailSpec.row P (⟨tv * 1024 + p.val, by omega⟩ : Fin 4096) := funext fun i => h0 p i
  have r1 : Cert.TailSpec.row x1 p = Cert.TailSpec.row E (⟨tv * 1024 + p.val, by omega⟩ : Fin 4096) := funext fun i => h1 p i
  rw [hI, pay_apply, Cert.TailSpec.tail_apply, r0, r1, e2, e3, e4, e5, e6, e7, e8, e9, e10]

/-- Window 0's block at point t is rows 1024·t … 1024·t + 1023 of the pooled features. -/
theorem blk0 (c : Dev nD) (t : Fin cfg6.N) (ht : t.val < 4) (p : Fin 1024) (i : Fin 312) :
    iblk6 V c 0 t (ix2 p i) = V c main_v82 (ix2 (⟨t.val * 1024 + p.val, by omega⟩ : Fin 4096) i) := by
  obtain ⟨e00, e01, e10, e11, e20, e21, e30, e40, e41, e50, e51, e60, e70, e71, e80, e90, e91, eA0, eB0, eB1⟩ := idx_facts t
  show V c main_v82 (((cfg6.win 0).blk t).view.emb (ix2 p i)) = _
  refine congrArg (V c main_v82) (funext fun a => Fin.ext ?_)
  match a with
  | ⟨0, _⟩ => show win6_0.index t (0 : Fin 2) * 1024 + 1 * p.val = t.val * 1024 + p.val; omega
  | ⟨1, _⟩ => show win6_0.index t (1 : Fin 2) * 312 + 1 * i.val = i.val; omega

/-- Window 1's block at point t is rows 1024·t … 1024·t + 1023 of the global embeddings. -/
theorem blk1 (c : Dev nD) (t : Fin cfg6.N) (ht : t.val < 4) (p : Fin 1024) (i : Fin 128) :
    iblk6 V c 1 t (ix2 p i) = V c main_arg3 (ix2 (⟨t.val * 1024 + p.val, by omega⟩ : Fin 4096) i) := by
  obtain ⟨e00, e01, e10, e11, e20, e21, e30, e40, e41, e50, e51, e60, e70, e71, e80, e90, e91, eA0, eB0, eB1⟩ := idx_facts t
  show V c main_arg3 (((cfg6.win 1).blk t).view.emb (ix2 p i)) = _
  refine congrArg (V c main_arg3) (funext fun a => Fin.ext ?_)
  match a with
  | ⟨0, _⟩ => show win6_1.index t (0 : Fin 2) * 1024 + 1 * p.val = t.val * 1024 + p.val; omega
  | ⟨1, _⟩ => show win6_1.index t (1 : Fin 2) * 128 + 1 * i.val = i.val; omega

/-- Window 2 has one block: the projection weights, whole. -/
theorem blk2 (c : Dev nD) (t : Fin cfg6.N) (i : Fin 128) (q : Fin 312) :
    iblk6 V c 2 t (ix2 i q) = V c main_arg14 (ix2 i q) := by
  obtain ⟨e00, e01, e10, e11, e20, e21, e30, e40, e41, e50, e51, e60, e70, e71, e80, e90, e91, eA0, eB0, eB1⟩ := idx_facts t
  show V c main_arg14 (((cfg6.win 2).blk t).view.emb (ix2 i q)) = _
  refine congrArg (V c main_arg14) (funext fun a => Fin.ext ?_)
  match a with
  | ⟨0, _⟩ => show win6_2.index t (0 : Fin 2) * 128 + 1 * i.val = i.val; omega
  | ⟨1, _⟩ => show win6_2.index t (1 : Fin 2) * 312 + 1 * q.val = q.val; omega

/-- Window 3 has one block: the projection bias, whole. -/
theorem blk3 (c : Dev nD) (t : Fin cfg6.N) (q : Fin 312) :
    iblk6 V c 3 t (ix1 q) = V c main_arg15 (ix1 q) := by
  obtain ⟨e00, e01, e10, e11, e20, e21, e30, e40, e41, e50, e51, e60, e70, e71, e80, e90, e91, eA0, eB0, eB1⟩ := idx_facts t
  show V c main_arg15 (((cfg6.win 3).blk t).view.emb (ix1 q)) = _
  refine congrArg (V c main_arg15) (funext fun a => Fin.ext ?_)
  match a with
  | ⟨0, _⟩ => show win6_3.index t (0 : Fin 1) * 312 + 1 * q.val = q.val; omega

/-- Window 4 has one block: the first half of the gate weights, whole. -/
theorem blk4 (c : Dev nD) (t : Fin cfg6.N) (i : Fin 312) (q : Fin 1) :
    iblk6 V c 4 t (ix2 i q) = V c main_v83 (ix2 i q) := by
  obtain ⟨e00, e01, e10, e11, e20, e21, e30, e40, e41, e50, e51, e60, e70, e71, e80, e90, e91, eA0, eB0, eB1⟩ := idx_facts t
  show V c main_v83 (((cfg6.win 4).blk t).view.emb (ix2 i q)) = _
  refine congrArg (V c main_v83) (funext fun a => Fin.ext ?_)
  match a with
  | ⟨0, _⟩ => show win6_4.index t (0 : Fin 2) * 312 + 1 * i.val = i.val; omega
  | ⟨1, _⟩ => show win6_4.index t (1 : Fin 2) * 1 + 1 * q.val = q.val; omega

/-- Window 5 has one block: the second half of the gate weights, whole. -/
theorem blk5 (c : Dev nD) (t : Fin cfg6.N) (i : Fin 312) (q : Fin 1) :
    iblk6 V c 5 t (ix2 i q) = V c main_v84 (ix2 i q) := by
  obtain ⟨e00, e01, e10, e11, e20, e21, e30, e40, e41, e50, e51, e60, e70, e71, e80, e90, e91, eA0, eB0, eB1⟩ := idx_facts t
  show V c main_v84 (((cfg6.win 5).blk t).view.emb (ix2 i q)) = _
  refine congrArg (V c main_v84) (funext fun a => Fin.ext ?_)
  match a with
  | ⟨0, _⟩ => show win6_5.index t (0 : Fin 2) * 312 + 1 * i.val = i.val; omega
  | ⟨1, _⟩ => show win6_5.index t (1 : Fin 2) * 1 + 1 * q.val = q.val; omega

/-- Window 6 has one block: the gate bias, whole. -/
theorem blk6 (c : Dev nD) (t : Fin cfg6.N) (q : Fin 1) :
    iblk6 V c 6 t (ix1 q) = V c main_arg17 (ix1 q) := by
  obtain ⟨e00, e01, e10, e11, e20, e21, e30, e40, e41, e50, e51, e60, e70, e71, e80, e90, e91, eA0, eB0, eB1⟩ := idx_facts t
  show V c main_arg17 (((cfg6.win 6).blk t).view.emb (ix1 q)) = _
  refine congrArg (V c main_arg17) (funext fun a => Fin.ext ?_)
  match a with
  | ⟨0, _⟩ => show win6_6.index t (0 : Fin 1) * 1 + 1 * q.val = q.val; omega

/-- Window 7 has one block: the first-layer weights, whole. -/
theorem blk7 (c : Dev nD) (t : Fin cfg6.N) (i : Fin 312) (q : Fin 1024) :
    iblk6 V c 7 t (ix2 i q) = V c main_arg10 (ix2 i q) := by
  obtain ⟨e00, e01, e10, e11, e20, e21, e30, e40, e41, e50, e51, e60, e70, e71, e80, e90, e91, eA0, eB0, eB1⟩ := idx_facts t
  show V c main_arg10 (((cfg6.win 7).blk t).view.emb (ix2 i q)) = _
  refine congrArg (V c main_arg10) (funext fun a => Fin.ext ?_)
  match a with
  | ⟨0, _⟩ => show win6_7.index t (0 : Fin 2) * 312 + 1 * i.val = i.val; omega
  | ⟨1, _⟩ => show win6_7.index t (1 : Fin 2) * 1024 + 1 * q.val = q.val; omega

/-- Window 8 has one block: the first-layer bias, whole. -/
theorem blk8 (c : Dev nD) (t : Fin cfg6.N) (q : Fin 1024) :
    iblk6 V c 8 t (ix1 q) = V c main_arg11 (ix1 q) := by
  obtain ⟨e00, e01, e10, e11, e20, e21, e30, e40, e41, e50, e51, e60, e70, e71, e80, e90, e91, eA0, eB0, eB1⟩ := idx_facts t
  show V c main_arg11 (((cfg6.win 8).blk t).view.emb (ix1 q)) = _
  refine congrArg (V c main_arg11) (funext fun a => Fin.ext ?_)
  match a with
  | ⟨0, _⟩ => show win6_8.index t (0 : Fin 1) * 1024 + 1 * q.val = q.val; omega

/-- Window 9 has one block: the second-layer weights, whole. -/
theorem blk9 (c : Dev nD) (t : Fin cfg6.N) (i : Fin 1024) (q : Fin 128) :
    iblk6 V c 9 t (ix2 i q) = V c main_arg12 (ix2 i q) := by
  obtain ⟨e00, e01, e10, e11, e20, e21, e30, e40, e41, e50, e51, e60, e70, e71, e80, e90, e91, eA0, eB0, eB1⟩ := idx_facts t
  show V c main_arg12 (((cfg6.win 9).blk t).view.emb (ix2 i q)) = _
  refine congrArg (V c main_arg12) (funext fun a => Fin.ext ?_)
  match a with
  | ⟨0, _⟩ => show win6_9.index t (0 : Fin 2) * 1024 + 1 * i.val = i.val; omega
  | ⟨1, _⟩ => show win6_9.index t (1 : Fin 2) * 128 + 1 * q.val = q.val; omega

/-- Window 10 has one block: the second-layer bias, whole. -/
theorem blk10 (c : Dev nD) (t : Fin cfg6.N) (q : Fin 128) :
    iblk6 V c 10 t (ix1 q) = V c main_arg13 (ix1 q) := by
  obtain ⟨e00, e01, e10, e11, e20, e21, e30, e40, e41, e50, e51, e60, e70, e71, e80, e90, e91, eA0, eB0, eB1⟩ := idx_facts t
  show V c main_arg13 (((cfg6.win 10).blk t).view.emb (ix1 q)) = _
  refine congrArg (V c main_arg13) (funext fun a => Fin.ext ?_)
  match a with
  | ⟨0, _⟩ => show win6_10.index t (0 : Fin 1) * 128 + 1 * q.val = q.val; omega

/-- What point t writes back is block t of the tail of the arrays as the region finds them. -/
theorem flushed_eq (c : Dev nD) (t : Fin cfg6.N) :
    (dat6 V c).flushed 11 t = ((cfg6.win 11).blk t).view.read (Elt Ideal)
      (Cert.TailSpec.tail (V c main_v82) (V c main_arg3) (V c main_arg14) (V c main_arg15) (V c main_v83) (V c main_v84)
        (V c main_arg17) (V c main_arg10) (V c main_arg11) (V c main_arg12) (V c main_arg13)) := by
  show (cfg6.win 11).cut (grid6.coords t) ((dat6 V c).after 11 t) = _
  rw [after6_11]
  unfold out6_11
  rw [View.canon_unit_zero hz2]
  simp only [View.ld_unit_zero (S := S1024x312) hz2, View.ld_unit_zero (S := S1024x128) hz2,
    View.ld_unit_zero (S := S128x312) hz2, View.ld_unit_zero (S := S312) hz1, View.ld_unit_zero (S := S312x1) hz2,
    View.ld_unit_zero (S := S1) hz1, View.ld_unit_zero (S := S312x1024) hz2, View.ld_unit_zero (S := S1024) hz1,
    View.ld_unit_zero (S := S128) hz1]
  obtain ⟨e00, e01, e10, e11, e20, e21, e30, e40, e41, e50, e51, e60, e70, e71, e80, e90, e91, eA0, eB0, eB1⟩ := idx_facts t
  have ht : t.val < 4 := t.isLt
  funext j
  show k6_pay1 (k6_pay2 (iblk6 V c 0 t) (iblk6 V c 1 t) (iblk6 V c 2 t) (iblk6 V c 3 t) (iblk6 V c 4 t) (iblk6 V c 5 t)
        (iblk6 V c 6 t) (iblk6 V c 7 t)) (iblk6 V c 8 t) (iblk6 V c 9 t) (iblk6 V c 10 t) j
    = Cert.TailSpec.tail (V c main_v82) (V c main_arg3) (V c main_arg14) (V c main_arg15) (V c main_v83) (V c main_v84)
        (V c main_arg17) (V c main_arg10) (V c main_arg11) (V c main_arg12) (V c main_arg13) (((cfg6.win 11).blk t).view.emb j)
  refine point (V c main_v82) (V c main_arg3) (V c main_arg14) (V c main_arg15) (V c main_v83) (V c main_v84)
    (V c main_arg17) (V c main_arg10) (V c main_arg11) (V c main_arg12) (V c main_arg13)
    (iblk6 V c 0 t) (iblk6 V c 1 t) (iblk6 V c 2 t) (iblk6 V c 3 t) (iblk6 V c 4 t) (iblk6 V c 5 t) (iblk6 V c 6 t)
    (iblk6 V c 7 t) (iblk6 V c 8 t) (iblk6 V c 9 t) (iblk6 V c 10 t) t.val ht
    (blk0 V c t ht) (blk1 V c t ht) (blk2 V c t) (blk3 V c t) (blk4 V c t) (blk5 V c t) (blk6 V c t) (blk7 V c t)
    (blk8 V c t) (blk9 V c t) (blk10 V c t) j _ ?_ ?_
  · show win6_11.index t (0 : Fin 2) * 1024 + 1 * (j 0).val = t.val * 1024 + (j 0).val; omega
  · show win6_11.index t (1 : Fin 2) * 128 + 1 * (j 1).val = (j 1).val; omega

/-- An index of the result is in point t's block iff each coordinate is in the block's range on its axis. -/
theorem mem_blk (t : Fin cfg6.N) (i : S4096x128.Idx) :
    i ∈ ((cfg6.win 11).blk t).view.set ↔ ∀ a : Fin 2, win6_11.index t a * S1024x128.size a ≤ (i a).val ∧ (i a).val < win6_11.index t a * S1024x128.size a + S1024x128.size a := by
  show i ∈ ((View.whole main_v85).slice (win6_11.rect t)).set ↔ _
  rw [View.set_slice_whole, Rect.mem_set_unit]
  exact Iff.rfl

/-- Every row lies in the block of the point numbered by the row's quotient by 1024. -/
theorem cover (i : S4096x128.Idx) : ∃ t : Fin cfg6.N, (cfg6.win 11).flush t = true ∧ i ∈ ((cfg6.win 11).blk t).view.set := by
  have hi0 : (i 0).val < 4096 := (i 0).isLt
  have hi1 : (i 1).val < 128 := (i 1).isLt
  have hN : cfg6.N = 4 := N_6
  let t : Fin cfg6.N := ⟨(i 0).val / 1024, by rw [hN]; omega⟩
  obtain ⟨e00, e01, e10, e11, e20, e21, e30, e40, e41, e50, e51, e60, e70, e71, e80, e90, e91, eA0, eB0, eB1⟩ := idx_facts t
  have htv : t.val = (i 0).val / 1024 := rfl
  refine ⟨t, flush6_11 t, ?_⟩
  rw [mem_blk]
  intro a
  match a with
  | ⟨0, _⟩ => show win6_11.index t (0 : Fin 2) * 1024 ≤ (i 0).val ∧ (i 0).val < win6_11.index t (0 : Fin 2) * 1024 + 1024; omega
  | ⟨1, _⟩ => show win6_11.index t (1 : Fin 2) * 128 ≤ (i 1).val ∧ (i 1).val < win6_11.index t (1 : Fin 2) * 128 + 128; omega

/-- THE ARRAY the region leaves: the tail of the arrays as the region finds them. -/
theorem value (c : Dev nD) :
    (dat6 V c).arrAt 11 cfg6.N
      = Cert.TailSpec.tail (V c main_v82) (V c main_arg3) (V c main_arg14) (V c main_arg15) (V c main_v83) (V c main_v84)
          (V c main_arg17) (V c main_arg10) (V c main_arg11) (V c main_arg12) (V c main_arg13) :=
  (dat6 V c).arrAt_eq_of_cover 11
    (Cert.TailSpec.tail (V c main_v82) (V c main_arg3) (V c main_arg14) (V c main_arg15) (V c main_v83) (V c main_v84)
        (V c main_arg17) (V c main_arg10) (V c main_arg11) (V c main_arg12) (V c main_arg13))
    (fun t _ => flushed_eq V c t) cover

end Cert.KernelIdeal.RegVal6

end
-- ==== Proof.RefTail.lean ====
import proofs.«150209_j12326556139995_1_alg».proof.Proof.RefRun
import proofs.«150209_j12326556139995_1_alg».proof.Proof.TailSpec
import Idealize.ShloMosaic.Lib.IdealHost
set_option maxRecDepth 16384
noncomputable section
namespace Cert.ReferenceIdeal.RefTail
open Cert.ReferenceIdeal Cert.ReferenceIdeal.Gen Cert.ReferenceIdeal.Read
open Idealize.ShloMosaic Idealize.ShloMosaic.TcCoe Idealize.ShloMosaic.ValueIdx Idealize.SL.Sem
open scoped BigOperators

/-! The reference program's tail, read index by index.

  With `P` the pooled features (one row of 312 numbers per graph, kept opaque) and `E` the global embeddings
  (one row of 128 numbers per graph), row `r` of the result depends on row `r` of `P` and `E` only:
    g      = E[r,:] · Wproj + bproj
    logit  = [P[r,:] | g] · Wgate + bgate,   the 624-term sum split into its two halves of 312 terms
    gate   = 1 / (1 + exp (−logit))
    fused  = gate · g + (1 − gate) · P[r,:]
    h      = max (fused · Wfc1 + bfc1, 0)
    out    = h · Wfc2 + bfc2
  Each stage below is one of these lines, stated for an arbitrary row `r` and column. -/

open Cert.TailSpec (vm row proj gate fused hidden tailRow)

/-- A two-piece concatenation along the columns, at a column of the first piece. -/
theorem cat_left (A B : FVec Ideal S4096x312 .f32) (r : Fin 4096) (k : Fin 312) :
    concatenate S4096x624 1 [⟨S4096x312, A⟩, ⟨S4096x312, B⟩] concatenates_S4096x312_S4096x312_S4096x624_d1
      (ix2 r (⟨k.val, by omega⟩ : Fin 624)) = A (ix2 r k) :=
  concatenate_pair_apply_left (t := S4096x624) (s₁ := S4096x312) (s₂ := S4096x312) 1 A B
    concatenates_S4096x312_S4096x312_S4096x624_d1 (ix2 r (⟨k.val, by omega⟩ : Fin 624)) rfl (ix2 r k)
    (fun b => match b with | ⟨0, _⟩ => rfl | ⟨1, _⟩ => rfl)

/-- A two-piece concatenation along the columns, at a column of the second piece: column `312 + k` is the second
    piece's column `k`. -/
theorem cat_right (A B : FVec Ideal S4096x312 .f32) (r : Fin 4096) (k : Fin 312) :
    concatenate S4096x624 1 [⟨S4096x312, A⟩, ⟨S4096x312, B⟩] concatenates_S4096x312_S4096x312_S4096x624_d1
      (ix2 r (⟨312 + k.val, by omega⟩ : Fin 624)) = B (ix2 r k) :=
  concatenate_pair_apply_right (t := S4096x624) (s₁ := S4096x312) (s₂ := S4096x312) 1 A B
    concatenates_S4096x312_S4096x312_S4096x624_d1 (ix2 r (⟨312 + k.val, by omega⟩ : Fin 624)) rfl rfl (ix2 r k)
    (fun b hb => match b, hb with | ⟨0, _⟩, _ => rfl | ⟨1, _⟩, hb => absurd rfl hb)
    (show k.val + 312 = 312 + k.val by omega)

/-- The quotient `1 / (1 + exp (−x))` with both ones spelt as the word 1.0 is the logistic function. -/
theorem logistic_words (x : EReal) :
    Ideal.div (Ideal.ofBits .f32 0x3F800000#32) (Ideal.ofBits .f32 0x3F800000#32 + Ideal.exp (-x)) = Ideal.logistic x := by
  rw [Ideal.ofBits_one_f32]
  rfl

section
variable (x0 : FVec Ideal S100000x78 .f32) (x1 : IVec S2x400000 32) (x2 : IVec S100000 32) (x3 : FVec Ideal S4096x128 .f32)
    (x4 : FVec Ideal S78x78 .f32) (x5 : FVec Ideal S78 .f32) (x6 : FVec Ideal S78x156 .f32) (x7 : FVec Ideal S156 .f32)
    (x8 : FVec Ideal S156x312 .f32) (x9 : FVec Ideal S312 .f32) (x10 : FVec Ideal S312x1024 .f32) (x11 : FVec Ideal S1024 .f32)
    (x12 : FVec Ideal S1024x128 .f32) (x13 : FVec Ideal S128 .f32) (x14 : FVec Ideal S128x312 .f32) (x15 : FVec Ideal S312 .f32)
    (x16 : FVec Ideal S624x1 .f32) (x17 : FVec Ideal S1 .f32)
    (wp wg : Cert.TailSpec.Mat 312 1)

local notation "Pv" => val_main_v136 (F := Ideal) x0 x1 x2 x4 x5 x6 x7 x8 x9

/-- The projected global embedding: entry `(r, j)` is row `r` of `E` against column `j` of the projection
    weights, plus the bias at `j`. -/
theorem g_apply (r : Fin 4096) (j : Fin 312) :
    val_main_v140 (F := Ideal) x3 x14 x15 (ix2 r j) = proj (row x3 r) x14 x15 j := by
  rw [val_main_v140_apply, val_main_v137_apply, val_main_v139_apply, val_main_v138_apply]
  have e1 : ∀ k : Fin 128, lidx_main_v137 (ix2 r j) k = ix2 r k := fun k =>
    funext fun a => Fin.ext (by match a with | ⟨0, _⟩ => rfl | ⟨1, _⟩ => rfl)
  have e2 : ∀ k : Fin 128, ridx_main_v137 (ix2 r j) k = ix2 k j := fun k =>
    funext fun a => Fin.ext (by match a with | ⟨0, _⟩ => rfl | ⟨1, _⟩ => rfl)
  have e3 : idx_main_v138 (idx_main_v139 (ix2 r j)) = ix1 j :=
    funext fun a => Fin.ext (by match a with | ⟨0, _⟩ => rfl)
  rw [e3]
  simp only [e1, e2]
  rfl

/-- The concatenation `[P | g]` at a column of its first half. -/
theorem cat_apply_left (r : Fin 4096) (k : Fin 312) :
    val_main_v141 (F := Ideal) x0 x1 x2 x3 x4 x5 x6 x7 x8 x9 x14 x15 (ix2 r (⟨k.val, by omega⟩ : Fin 624))
      = Pv (ix2 r k) := by
  unfold val_main_v141
  exact cat_left _ _ r k

/-- The concatenation `[P | g]` at a column of its second half. -/
theorem cat_apply_right (r : Fin 4096) (k : Fin 312) :
    val_main_v141 (F := Ideal) x0 x1 x2 x3 x4 x5 x6 x7 x8 x9 x14 x15 (ix2 r (⟨312 + k.val, by omega⟩ : Fin 624))
      = proj (row x3 r) x14 x15 k := by
  unfold val_main_v141
  exact (cat_right _ _ r k).trans (g_apply x3 x14 x15 r k)

/-- The gate's logit: the 624-term product of `[P | g]` with the gate weights is the sum of its first 312 terms
    (row `r` of `P` against the first half of the weights) and its last 312 terms (`g` against the second half),
    plus the gate bias. -/
theorem logit_apply
    (hwp : ∀ i : Fin 312, wp (ix2 i (0 : Fin 1)) = x16 (ix2 (⟨i.val, by omega⟩ : Fin 624) (0 : Fin 1)))
    (hwg : ∀ i : Fin 312, wg (ix2 i (0 : Fin 1)) = x16 (ix2 (⟨312 + i.val, by omega⟩ : Fin 624) (0 : Fin 1)))
    (r : Fin 4096) :
    val_main_v145 (F := Ideal) x0 x1 x2 x3 x4 x5 x6 x7 x8 x9 x14 x15 x16 x17 (ix2 r (0 : Fin 1))
      = (vm (row Pv r) wp 0 + vm (proj (row x3 r) x14 x15) wg 0) + x17 (ix1 0) := by
  rw [val_main_v145_apply, val_main_v142_apply, val_main_v144_apply, val_main_v143_apply]
  have e1 : ∀ k : Fin 624, lidx_main_v142 (ix2 r (0 : Fin 1)) k = ix2 r k := fun k =>
    funext fun a => Fin.ext (by match a with | ⟨0, _⟩ => rfl | ⟨1, _⟩ => rfl)
  have e2 : ∀ k : Fin 624, ridx_main_v142 (ix2 r (0 : Fin 1)) k = ix2 k (0 : Fin 1) := fun k =>
    funext fun a => Fin.ext (by match a with | ⟨0, _⟩ => rfl | ⟨1, _⟩ => rfl)
  have e3 : idx_main_v143 (idx_main_v144 (ix2 r (0 : Fin 1))) = ix1 (0 : Fin 1) :=
    funext fun a => Fin.ext (by match a with | ⟨0, _⟩ => rfl)
  rw [e3]
  simp only [e1, e2]
  have hs : ∀ f : Fin 624 → EReal, ∑ k, f k
      = ∑ i : Fin 312, f ⟨i.val, by omega⟩ + ∑ i : Fin 312, f ⟨312 + i.val, by omega⟩ :=
    fun f => Fin.sum_univ_add (a := 312) (b := 312) f
  refine congrArg (· + x17 (ix1 (0 : Fin 1))) ?_
  refine (hs _).trans ?_
  refine congrArg₂ (· + ·) (Finset.sum_congr rfl fun i _ => ?_) (Finset.sum_congr rfl fun i _ => ?_)
  · show _ * _ = row Pv r i * wp (ix2 i 0)
    rw [hwp i, cat_apply_left]
    rfl
  · show _ * _ = proj (row x3 r) x14 x15 i * wg (ix2 i 0)
    rw [hwg i, cat_apply_right]

/-- The gate: the quotient `1 / (1 + exp (−logit))`, spelt with the word 1.0 for both ones, is the logistic
    function of the logit. -/
theorem gate_apply
    (hwp : ∀ i : Fin 312, wp (ix2 i (0 : Fin 1)) = x16 (ix2 (⟨i.val, by omega⟩ : Fin 624) (0 : Fin 1)))
    (hwg : ∀ i : Fin 312, wg (ix2 i (0 : Fin 1)) = x16 (ix2 (⟨312 + i.val, by omega⟩ : Fin 624) (0 : Fin 1)))
    (r : Fin 4096) :
    val_main_v151 (F := Ideal) x0 x1 x2 x3 x4 x5 x6 x7 x8 x9 x14 x15 x16 x17 (ix2 r (0 : Fin 1))
      = gate (row Pv r) (proj (row x3 r) x14 x15) wp wg x17 := by
  rw [val_main_v151_apply, val_main_v150_apply, val_main_v149_apply, val_main_v148_apply, val_main_v147_apply,
    val_main_v146_apply, logit_apply x0 x1 x2 x3 x4 x5 x6 x7 x8 x9 x14 x15 x16 x17 wp wg hwp hwg r,
    val_main_cst_26_apply, val_main_cst_27_apply]
  simp only [Ideal.hostDivf_def, Ideal.addf_def, Ideal.hostUnary_exp_def, Ideal.hostNegf_def, Ideal.ofBits_def]
  exact logistic_words _

/-- The fused features: entry `(r, j)` is `gate · g + (1 − gate) · P` at `(r, j)`, the gate being the one number of
    row `r` spread along the row. -/
theorem fused_apply
    (hwp : ∀ i : Fin 312, wp (ix2 i (0 : Fin 1)) = x16 (ix2 (⟨i.val, by omega⟩ : Fin 624) (0 : Fin 1)))
    (hwg : ∀ i : Fin 312, wg (ix2 i (0 : Fin 1)) = x16 (ix2 (⟨312 + i.val, by omega⟩ : Fin 624) (0 : Fin 1)))
    (r : Fin 4096) (j : Fin 312) :
    val_main_v158 (F := Ideal) x0 x1 x2 x3 x4 x5 x6 x7 x8 x9 x14 x15 x16 x17 (ix2 r j)
      = fused (row Pv r) (proj (row x3 r) x14 x15) (gate (row Pv r) (proj (row x3 r) x14 x15) wp wg x17) j := by
  have e1 : idx_main_v152 (ix2 r j) = ix2 r (0 : Fin 1) :=
    funext fun a => Fin.ext (by match a with | ⟨0, _⟩ => rfl | ⟨1, _⟩ => rfl)
  have e2 : idx_main_v156 (ix2 r j) = ix2 r (0 : Fin 1) :=
    funext fun a => Fin.ext (by match a with | ⟨0, _⟩ => rfl | ⟨1, _⟩ => rfl)
  rw [val_main_v158_apply, val_main_v153_apply, val_main_v157_apply, val_main_v152_apply, val_main_v156_apply, e1, e2,
    val_main_v155_apply, val_main_v154_apply, val_main_cst_28_apply,
    gate_apply x0 x1 x2 x3 x4 x5 x6 x7 x8 x9 x14 x15 x16 x17 wp wg hwp hwg r, g_apply x3 x14 x15 r j]
  rfl

/-- The hidden layer: entry `(r, j)` is the larger of zero and row `r` of the fused features against column `j` of
    the first dense layer's weights plus its bias at `j`. -/
theorem hidden_apply
    (hwp : ∀ i : Fin 312, wp (ix2 i (0 : Fin 1)) = x16 (ix2 (⟨i.val, by omega⟩ : Fin 624) (0 : Fin 1)))
    (hwg : ∀ i : Fin 312, wg (ix2 i (0 : Fin 1)) = x16 (ix2 (⟨312 + i.val, by omega⟩ : Fin 624) (0 : Fin 1)))
    (r : Fin 4096) (j : Fin 1024) :
    val_main_v163 (F := Ideal) x0 x1 x2 x3 x4 x5 x6 x7 x8 x9 x10 x11 x14 x15 x16 x17 (ix2 r j)
      = hidden (fused (row Pv r) (proj (row x3 r) x14 x15) (gate (row Pv r) (proj (row x3 r) x14 x15) wp wg x17))
          x10 x11 j := by
  have e1 : ∀ k : Fin 312, lidx_main_v159 (ix2 r j) k = ix2 r k := fun k =>
    funext fun a => Fin.ext (by match a with | ⟨0, _⟩ => rfl | ⟨1, _⟩ => rfl)
  have e2 : ∀ k : Fin 312, ridx_main_v159 (ix2 r j) k = ix2 k j := fun k =>
    funext fun a => Fin.ext (by match a with | ⟨0, _⟩ => rfl | ⟨1, _⟩ => rfl)
  have e3 : idx_main_v160 (idx_main_v161 (ix2 r j)) = ix1 j :=
    funext fun a => Fin.ext (by match a with | ⟨0, _⟩ => rfl)
  rw [val_main_v163_apply, val_main_v162_apply, val_main_v159_apply, val_main_v161_apply, val_main_v160_apply, e3,
    val_main_call3_v0_apply, val_main_call3_cst_apply]
  simp only [e1, e2, fused_apply x0 x1 x2 x3 x4 x5 x6 x7 x8 x9 x14 x15 x16 x17 wp wg hwp hwg r]
  rfl

/-- The result: entry `(r, c)` is row `r` of the hidden layer against column `c` of the second dense layer's weights
    plus its bias at `c`. -/
theorem out_apply
    (hwp : ∀ i : Fin 312, wp (ix2 i (0 : Fin 1)) = x16 (ix2 (⟨i.val, by omega⟩ : Fin 624) (0 : Fin 1)))
    (hwg : ∀ i : Fin 312, wg (ix2 i (0 : Fin 1)) = x16 (ix2 (⟨312 + i.val, by omega⟩ : Fin 624) (0 : Fin 1)))
    (r : Fin 4096) (c : Fin 128) :
    val_main_v167 (F := Ideal) x0 x1 x2 x3 x4 x5 x6 x7 x8 x9 x10 x11 x12 x13 x14 x15 x16 x17 (ix2 r c)
      = tailRow (row Pv r) (row x3 r) x14 x15 wp wg x17 x10 x11 x12 x13 c := by
  have e1 : ∀ k : Fin 1024, lidx_main_v164 (ix2 r c) k = ix2 r k := fun k =>
    funext fun a => Fin.ext (by match a with | ⟨0, _⟩ => rfl | ⟨1, _⟩ => rfl)
  have e2 : ∀ k : Fin 1024, ridx_main_v164 (ix2 r c) k = ix2 k c := fun k =>
    funext fun a => Fin.ext (by match a with | ⟨0, _⟩ => rfl | ⟨1, _⟩ => rfl)
  have e3 : idx_main_v165 (idx_main_v166 (ix2 r c)) = ix1 c :=
    funext fun a => Fin.ext (by match a with | ⟨0, _⟩ => rfl)
  rw [val_main_v167_apply, val_main_v164_apply, val_main_v166_apply, val_main_v165_apply, e3]
  simp only [e1, e2, hidden_apply x0 x1 x2 x3 x4 x5 x6 x7 x8 x9 x10 x11 x14 x15 x16 x17 wp wg hwp hwg r]
  rfl
end

/-- The reference program's tail is the row-wise specification applied to the pooled features and the global
    embeddings, the gate weights being the two halves of the 624 gate coefficients. -/
theorem tail_eq (x0 : FVec Ideal S100000x78 .f32) (x1 : IVec S2x400000 32) (x2 : IVec S100000 32) (x3 : FVec Ideal S4096x128 .f32)
    (x4 : FVec Ideal S78x78 .f32) (x5 : FVec Ideal S78 .f32) (x6 : FVec Ideal S78x156 .f32) (x7 : FVec Ideal S156 .f32)
    (x8 : FVec Ideal S156x312 .f32) (x9 : FVec Ideal S312 .f32) (x10 : FVec Ideal S312x1024 .f32) (x11 : FVec Ideal S1024 .f32)
    (x12 : FVec Ideal S1024x128 .f32) (x13 : FVec Ideal S128 .f32) (x14 : FVec Ideal S128x312 .f32) (x15 : FVec Ideal S312 .f32)
    (x16 : FVec Ideal S624x1 .f32) (x17 : FVec Ideal S1 .f32)
    (wp wg : Cert.TailSpec.Mat 312 1)
    (hwp : ∀ i : Fin 312, wp (ix2 i (0 : Fin 1)) = x16 (ix2 (⟨i.val, by omega⟩ : Fin 624) (0 : Fin 1)))
    (hwg : ∀ i : Fin 312, wg (ix2 i (0 : Fin 1)) = x16 (ix2 (⟨312 + i.val, by omega⟩ : Fin 624) (0 : Fin 1))) :
    val_main_v167 (F := Ideal) x0 x1 x2 x3 x4 x5 x6 x7 x8 x9 x10 x11 x12 x13 x14 x15 x16 x17
      = Cert.TailSpec.tail (val_main_v136 (F := Ideal) x0 x1 x2 x4 x5 x6 x7 x8 x9) x3 x14 x15 wp wg x17 x10 x11 x12 x13 := by
  funext j
  obtain ⟨r, c, rfl⟩ : ∃ (r : Fin 4096) (c : Fin 128), j = ix2 r c := ⟨j 0, j 1, eq_ix2 j⟩
  rw [Cert.TailSpec.tail_apply]
  exact out_apply x0 x1 x2 x3 x4 x5 x6 x7 x8 x9 x10 x11 x12 x13 x14 x15 x16 x17 wp wg hwp hwg r c

end Cert.ReferenceIdeal.RefTail
end
-- ==== Proof.KFoldC.lean ====
/-
  The idealized kernel's last two segment boundaries, and its result.

  The last host stretch pools the third layer's output per graph (a scatter-add over the node-to-graph map, divided
  by the clamped node counts — the reference's own operations) and cuts the gate weights [624, 1] into their upper and
  lower halves.  Region 6 then computes the gated-fusion tail on blocks of 1024 graphs; row by row this is the
  specification `TailSpec.tail`, and so is the reference's tail, whose gate is ONE product of the concatenation
  [pooled | g] with the uncut weights: a sum over 624 terms is the sum over the first 312 plus the sum over the last 312.
  Hence the kernel's result buffer ends at the reference's result term of the same arguments.
-/
import proofs.«150209_j12326556139995_1_alg».proof.Proof.Gen.KernelIdeal.Frame
import proofs.«150209_j12326556139995_1_alg».proof.Proof.RefRun
import proofs.«150209_j12326556139995_1_alg».proof.Proof.LibColForms
import proofs.«150209_j12326556139995_1_alg».proof.Proof.KFoldB
import proofs.«150209_j12326556139995_1_alg».proof.Proof.RegFin6
import proofs.«150209_j12326556139995_1_alg».proof.Proof.RefTail
import proofs.«150209_j12326556139995_1_alg».proof.Proof.TailSpec
import Idealize.ShloMosaic.Lib.StableHlo.Run

set_option maxRecDepth 16384

noncomputable section

namespace Cert.KernelIdeal.Fold

open Cert.KernelIdeal Cert.KernelIdeal.Gen
open Idealize.ShloMosaic Idealize.ShloMosaic.TcCoe Idealize.ShloMosaic.ValueIdx Idealize.SL.Sem Idealize.ShloMosaic.StableHlo
open Idealize.ShloMosaic.Pipeline (Dat Cfg Window)

variable (m : (ℓ : Loc nD τ sig) → Buf (Elt Ideal) ℓ) (ρ : Dev nD → PrngReg) (c : Dev nD)

/-! ## The node-to-graph map and the gate weights at boundary 10; the arguments region 6 reads at boundary 11 -/

theorem w10_arg2 : W10 m ρ c (Proc.devRef .tc main_arg2) = (m ((c.tc : Thread nD τ).loc main_arg2)) :=
  ((show W11 m ρ c (Proc.devRef .tc main_arg2) = W10 m ρ c (Proc.devRef .tc main_arg2) by host_keep).symm.trans ((W12_of_ne m ρ c main_arg2 (by decide)).symm.trans (W12_main_arg2 m ρ c)))
theorem w10_arg16 : W10 m ρ c (Proc.devRef .tc main_arg16) = (m ((c.tc : Thread nD τ).loc main_arg16)) :=
  ((show W11 m ρ c (Proc.devRef .tc main_arg16) = W10 m ρ c (Proc.devRef .tc main_arg16) by host_keep).symm.trans ((W12_of_ne m ρ c main_arg16 (by decide)).symm.trans (W12_main_arg16 m ρ c)))
theorem w11_arg3 : W11 m ρ c (Proc.devRef .tc main_arg3) = (m ((c.tc : Thread nD τ).loc main_arg3)) := (((W12_arr m ρ c 1).trans (((dat6 (V11 m ρ) c).arrAt_in 1 rfl _).trans (A_eq6 (V11 m ρ) c 1))).symm.trans (W12_main_arg3 m ρ c))
theorem w11_arg14 : W11 m ρ c (Proc.devRef .tc main_arg14) = (m ((c.tc : Thread nD τ).loc main_arg14)) := (((W12_arr m ρ c 2).trans (((dat6 (V11 m ρ) c).arrAt_in 2 rfl _).trans (A_eq6 (V11 m ρ) c 2))).symm.trans (W12_main_arg14 m ρ c))
theorem w11_arg15 : W11 m ρ c (Proc.devRef .tc main_arg15) = (m ((c.tc : Thread nD τ).loc main_arg15)) := (((W12_arr m ρ c 3).trans (((dat6 (V11 m ρ) c).arrAt_in 3 rfl _).trans (A_eq6 (V11 m ρ) c 3))).symm.trans (W12_main_arg15 m ρ c))
theorem w11_arg17 : W11 m ρ c (Proc.devRef .tc main_arg17) = (m ((c.tc : Thread nD τ).loc main_arg17)) := (((W12_arr m ρ c 6).trans (((dat6 (V11 m ρ) c).arrAt_in 6 rfl _).trans (A_eq6 (V11 m ρ) c 6))).symm.trans (W12_main_arg17 m ρ c))
theorem w11_arg10 : W11 m ρ c (Proc.devRef .tc main_arg10) = (m ((c.tc : Thread nD τ).loc main_arg10)) := (((W12_arr m ρ c 7).trans (((dat6 (V11 m ρ) c).arrAt_in 7 rfl _).trans (A_eq6 (V11 m ρ) c 7))).symm.trans (W12_main_arg10 m ρ c))
theorem w11_arg11 : W11 m ρ c (Proc.devRef .tc main_arg11) = (m ((c.tc : Thread nD τ).loc main_arg11)) := (((W12_arr m ρ c 8).trans (((dat6 (V11 m ρ) c).arrAt_in 8 rfl _).trans (A_eq6 (V11 m ρ) c 8))).symm.trans (W12_main_arg11 m ρ c))
theorem w11_arg12 : W11 m ρ c (Proc.devRef .tc main_arg12) = (m ((c.tc : Thread nD τ).loc main_arg12)) := (((W12_arr m ρ c 9).trans (((dat6 (V11 m ρ) c).arrAt_in 9 rfl _).trans (A_eq6 (V11 m ρ) c 9))).symm.trans (W12_main_arg12 m ρ c))
theorem w11_arg13 : W11 m ρ c (Proc.devRef .tc main_arg13) = (m ((c.tc : Thread nD τ).loc main_arg13)) := (((W12_arr m ρ c 10).trans (((dat6 (V11 m ρ) c).arrAt_in 10 rfl _).trans (A_eq6 (V11 m ρ) c 10))).symm.trans (W12_main_arg13 m ρ c))

/-! ## After the last host stretch -/

theorem w11_v82 : W11 m ρ c (Proc.devRef .tc main_v82) = Cert.ReferenceIdeal.Read.val_main_v136 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  after_results_simp
  rw [w10_v70, w10_arg2]
  rfl
theorem w11_v83 : W11 m ρ c (Proc.devRef .tc main_v83) = extractStridedSlice S312x1 ![0, 0] (m ((c.tc : Thread nD τ).loc main_arg16)) slices_S624x1_S312x1_0_0 := by
  after_results_simp
  rw [w10_arg16]
theorem w11_v84 : W11 m ρ c (Proc.devRef .tc main_v84) = extractStridedSlice S312x1 ![312, 0] (m ((c.tc : Thread nD τ).loc main_arg16)) slices_S624x1_S312x1_312_0 := by
  after_results_simp
  rw [w10_arg16]

/-- The upper half of the gate weights, entry by entry. -/
theorem upper_apply (x : FVec Ideal S624x1 .f32) (i : Fin 312) :
    extractStridedSlice S312x1 ![0, 0] x slices_S624x1_S312x1_0_0 (ix2 i (0 : Fin 1)) = x (ix2 (⟨i.val, by omega⟩ : Fin 624) (0 : Fin 1)) :=
  extractStridedSlice_apply ![0, 0] x slices_S624x1_S312x1_0_0 (ix2 i (0 : Fin 1)) (ix2 (⟨i.val, by omega⟩ : Fin 624) (0 : Fin 1)) (fun a => by
    match a with
    | ⟨0, _⟩ => show i.val = 0 + i.val; omega
    | ⟨1, _⟩ => show 0 = 0 + 0; rfl)
/-- The lower half of the gate weights, entry by entry. -/
theorem lower_apply (x : FVec Ideal S624x1 .f32) (i : Fin 312) :
    extractStridedSlice S312x1 ![312, 0] x slices_S624x1_S312x1_312_0 (ix2 i (0 : Fin 1)) = x (ix2 (⟨312 + i.val, by omega⟩ : Fin 624) (0 : Fin 1)) :=
  extractStridedSlice_apply ![312, 0] x slices_S624x1_S312x1_312_0 (ix2 i (0 : Fin 1)) (ix2 (⟨312 + i.val, by omega⟩ : Fin 624) (0 : Fin 1)) (fun a => by
    match a with
    | ⟨0, _⟩ => show 312 + i.val = 312 + i.val; rfl
    | ⟨1, _⟩ => show 0 = 0 + 0; rfl)

/-! ## The result -/

/-- The result buffer's contents at the last boundary: the reference's result term of the same arguments. -/
theorem w12_v85 : W12 m ρ c (Proc.devRef .tc main_v85) = Cert.ReferenceIdeal.Read.val_main_v167 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) := by
  refine (W12_arr m ρ c 11).trans ((Cert.KernelIdeal.RegVal6.value (V11 m ρ) c).trans ?_)
  show Cert.TailSpec.tail (W11 m ρ c (Proc.devRef .tc main_v82)) (W11 m ρ c (Proc.devRef .tc main_arg3)) (W11 m ρ c (Proc.devRef .tc main_arg14)) (W11 m ρ c (Proc.devRef .tc main_arg15))
    (W11 m ρ c (Proc.devRef .tc main_v83)) (W11 m ρ c (Proc.devRef .tc main_v84)) (W11 m ρ c (Proc.devRef .tc main_arg17)) (W11 m ρ c (Proc.devRef .tc main_arg10)) (W11 m ρ c (Proc.devRef .tc main_arg11))
    (W11 m ρ c (Proc.devRef .tc main_arg12)) (W11 m ρ c (Proc.devRef .tc main_arg13)) = _
  rw [w11_v82, w11_arg3, w11_arg14, w11_arg15, w11_v83, w11_v84, w11_arg17, w11_arg10, w11_arg11, w11_arg12, w11_arg13]
  exact (Cert.ReferenceIdeal.RefTail.tail_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) _ _
    (upper_apply (m ((c.tc : Thread nD τ).loc main_arg16))) (lower_apply (m ((c.tc : Thread nD τ).loc main_arg16)))).symm

end Cert.KernelIdeal.Fold

end
-- ==== Proof.lean ====
/-
  A three-layer graph convolution with mean pooling and a gated-fusion head, computed two ways, ends at the same
  numbers over the extended reals.

  Both programs compute, from node features x, an edge list (src, dst), a node-to-graph map and the weights:
    d = rsqrt (in-degree + 1);   per layer  x ← max (Σ_{e : dst e = ·} (x·W)[src e] · d[src e] · d[dst e] + (x·W) · d² + b, 0);
    pooled = (per-graph sum of x) / max (per-graph node count, 1);
    g = e·Wproj + bproj;  gate = sigmoid ([pooled | g]·Wgate + bgate);  out = max ((gate·g + (1 − gate)·pooled)·Wfc1 + bfc1, 0)·Wfc2 + bfc2.
  The kernel program runs the dense products, the self-loop/bias/rectifier step and the head as seven tiled regions
  (blocks of 2000 nodes, resp. 1024 graphs) between host stretches that do the gathers and scatter-adds; the reference
  does everything with whole-array host operations.  At the ideal instance a change of float format is the identity
  and every operation is the exact one, so:
    · a product tiled over rows is the untiled product (an entry depends on one row of the left operand), and a
      pointwise step tiled over rows is the untiled step: each region leaves the reference's stage of what it found;
    · the host stretches are the reference's own operations of the same values (a column made by a reshape or by a
      broadcast along a new unit axis is the same column), so each boundary's contents are the reference's stage
      functions of the arguments;
    · the head's gate product over the concatenation [pooled | g] with the uncut weights is the sum of the two
      products with the halves of the weights (a finite sum split in two), and the sigmoid spelt 1 / (1 + exp (−x)) is
      the logistic function.
  None of these steps needs the entries to be finite.  The kernel's idealization rewrote nothing, so the fourth
  conjunct is `True`.
-/
import proofs.«150209_j12326556139995_1_alg».proof.Defs
import proofs.«150209_j12326556139995_1_alg».proof.Proof.Gen.Kernel
import proofs.«150209_j12326556139995_1_alg».proof.Proof.Gen.Kernel.Skeleton
import proofs.«150209_j12326556139995_1_alg».proof.Proof.Gen.Kernel.Launch
import proofs.«150209_j12326556139995_1_alg».proof.Proof.Gen.Kernel.Points
import proofs.«150209_j12326556139995_1_alg».proof.Proof.Gen.Kernel.Frame
import proofs.«150209_j12326556139995_1_alg».proof.Proof.Gen.KernelIdeal
import proofs.«150209_j12326556139995_1_alg».proof.Proof.Gen.KernelIdeal.Skeleton
import proofs.«150209_j12326556139995_1_alg».proof.Proof.Gen.KernelIdeal.Launch
import proofs.«150209_j12326556139995_1_alg».proof.Proof.Gen.KernelIdeal.Points
import proofs.«150209_j12326556139995_1_alg».proof.Proof.Gen.KernelIdeal.Frame
import proofs.«150209_j12326556139995_1_alg».proof.Proof.Gen.ReferenceIdeal
import proofs.«150209_j12326556139995_1_alg».proof.Proof.Gen.Pre_finite_inputs
import proofs.«150209_j12326556139995_1_alg».proof.Proof.RefRun
import proofs.«150209_j12326556139995_1_alg».proof.Proof.KRun
import proofs.«150209_j12326556139995_1_alg».proof.Proof.KFoldC
import Idealize.ShloMosaic.Adequacy
import Idealize.ShloMosaic.Init

set_option maxRecDepth 16384

noncomputable section

namespace Cert.Proof

open Idealize.ShloMosaic Idealize.SL.Sem

/-- The word-level kernel runs and keeps its arguments. -/
theorem frame_k : Cert.frame_Kernel := fun m ρ _ => Cert.Kernel.Gen.frame m ρ

/-- The idealized kernel runs and keeps its arguments. -/
theorem frame_ki : Cert.frame_KernelIdeal := fun m ρ _ => Cert.KernelIdeal.Gen.frame m ρ

/-- The idealized reference runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both idealized programs end with the reference's result term of the
    kernel's arguments in their result buffers: the kernel's by its run and its boundary contents, the reference's by
    its run with the arguments' agreement rewritten. -/
theorem algebraic : Cert.algebraic_KernelIdeal_ReferenceIdeal := by
  intro m ρ m' ρ' _ hagree
  refine ⟨fun c => Cert.ReferenceIdeal.Read.val_main_v167 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)), ?_, ?_⟩
  · exact (θ_run Cert.KernelIdeal.defs _ _).mono
      (fun r h c => ⟨(h c).1.trans (Cert.KernelIdeal.Fold.w12_v85 m ρ c), (h c).2⟩)
      (Cert.KernelIdeal.RunOut.run_out (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9, h10, h11, h12, h13, h14, h15, h16, h17⟩ := hagree c
    rw [Cert.ReferenceIdeal.Read.val_main_v167_eq, h0, h1, h2, h3, h4, h5, h6, h7, h8, h9, h10, h11, h12, h13, h14, h15, h16, h17]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
